-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x64x3 : Shape := ⟨3, ![20000, 64, 3]⟩
abbrev S2x640000 : Shape := ⟨2, ![2, 640000]⟩
abbrev S640000x128 : Shape := ⟨2, ![640000, 128]⟩
abbrev S640000x3 : Shape := ⟨2, ![640000, 3]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x64x3 : S_.BroadcastsInDim S20000x64x3 (![] : Fin 0 → Fin S20000x64x3.rank)
  reducesTo_S20000x64x3_S_d0_1_2 : S20000x64x3.ReducesTo [0, 1, 2] S_
  bcast_S_S640000x128 : S_.BroadcastsInDim S640000x128 (![] : Fin 0 → Fin S640000x128.rank)
  reducesTo_S640000x128_S_d0_1 : S640000x128.ReducesTo [0, 1] S_
  bcast_S_S640000x3 : S_.BroadcastsInDim S640000x3 (![] : Fin 0 → Fin S640000x3.rank)
  reducesTo_S640000x3_S_d0_1 : S640000x3.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S128 .f32) (main_arg14 : FVec F S128 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x64 .f32) (main_arg12 : FVec F S64 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128 .f32) (main_arg14 : FVec F S128 .f32) (main_v13 : IVec S_ 1) (main_v16 : IVec S640000x3 1) : IVec S_ 1 :=
  let main_c_5 : IVec S_ 1 := constantI S_ 1 1#1
  let main_v17 : IVec S_ 1 := (fun x v => Host.reduce IntOp.andi x v reducesTo_S640000x3_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S20000x128 .f32) (main_arg1 : FVec F S20000x64x3 .f32) (main_arg2 : IVec S2x640000 32) (main_arg3 : FVec F S640000x128 .f32) (main_arg4 : FVec F S640000x3 .f32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128 .f32) (main_arg14 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x64x3 .f32 := Host.absf main_arg1
  let main_cst_0 : FVec F S_ .f32 := constant S_ .f32 0x7F800000#32
  let main_v5 : FVec F S20000x64x3 .f32 := broadcastInDim S20000x64x3 ![] bcast_S_S20000x64x3 main_cst_0
  let main_v6 : IVec S20000x64x3 1 := cmpf .olt main_v4 main_v5
  let main_c_1 : IVec S_ 1 := constantI S_ 1 1#1
  let main_v7 : IVec S_ 1 := (fun x v => Host.reduce IntOp.andi x v reducesTo_S20000x64x3_S_d0_1_2 h_S_) main_v6 main_c_1
  let main_v8 : IVec S_ 1 := andi main_v3 main_v7
  let main_v9 : FVec F S640000x128 .f32 := Host.absf main_arg3
  let main_cst_2 : FVec F S_ .f32 := constant S_ .f32 0x7F800000#32
  let main_v10 : FVec F S640000x128 .f32 := broadcastInDim S640000x128 ![] bcast_S_S640000x128 main_cst_2
  let main_v11 : IVec S640000x128 1 := cmpf .olt main_v9 main_v10
  let main_c_3 : IVec S_ 1 := constantI S_ 1 1#1
  let main_v12 : IVec S_ 1 := (fun x v => Host.reduce IntOp.andi x v reducesTo_S640000x128_S_d0_1 h_S_) main_v11 main_c_3
  let main_v13 : IVec S_ 1 := andi main_v8 main_v12
  let main_v14 : FVec F S640000x3 .f32 := Host.absf main_arg4
  let main_cst_4 : FVec F S_ .f32 := constant S_ .f32 0x7F800000#32
  let main_v15 : FVec F S640000x3 .f32 := broadcastInDim S640000x3 ![] bcast_S_S640000x3 main_cst_4
  let main_v16 : IVec S640000x3 1 := cmpf .olt main_v14 main_v15
  fn_part1 (F := F) main_arg5 main_arg6 main_arg7 main_arg8 main_arg9 main_arg10 main_arg11 main_arg12 main_arg13 main_arg14 main_v13 main_v16
-- ==== Kernel.lean ====
abbrev S20000x128 : Shape := ⟨2, ![20000, 128]⟩
abbrev S20000x64x3 : Shape := ⟨3, ![20000, 64, 3]⟩
abbrev S2x640000 : Shape := ⟨2, ![2, 640000]⟩
abbrev S640000x128 : Shape := ⟨2, ![640000, 128]⟩
abbrev S640000x3 : Shape := ⟨2, ![640000, 3]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S4000x128 : Shape := ⟨2, ![4000, 128]⟩
abbrev S4000x64 : Shape := ⟨2, ![4000, 64]⟩
abbrev S1x128 : Shape := ⟨2, ![1, 128]⟩
abbrev S1x64 : Shape := ⟨2, ![1, 64]⟩
abbrev S20000x64 : Shape := ⟨2, ![20000, 64]⟩
abbrev S20000x64x1 : Shape := ⟨3, ![20000, 64, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 80
  | .vmem => 28
  | .smem => 0
  | _ => 0

abbrev bufTy : (tb : Table) → Fin (tcTables nBuf tb) → BufTy
  | .hbm, ⟨0, _⟩ => ⟨S20000x128, .f32⟩
  | .hbm, ⟨1, _⟩ => ⟨S20000x64x3, .f32⟩
  | .hbm, ⟨2, _⟩ => ⟨S2x640000, .i32⟩
  | .hbm, ⟨3, _⟩ => ⟨S640000x128, .f32⟩
  | .hbm, ⟨4, _⟩ => ⟨S640000x3, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S20000x128, .bf16⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .bf16⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .bf16⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S128x128, .f32⟩
  | .hbm, ⟨43, _⟩ => ⟨S128x128, .bf16⟩
  | .hbm, ⟨44, _⟩ => ⟨S128x128, .bf16⟩
  | .hbm, ⟨45, _⟩ => ⟨S128x64, .bf16⟩
  | .hbm, ⟨46, _⟩ => ⟨S640000x128, .f32⟩
  | .hbm, ⟨47, _⟩ => ⟨S640000x64, .f32⟩
  | .hbm, ⟨48, _⟩ => ⟨S_, .f32⟩
  | .hbm, ⟨49, _⟩ => ⟨S20000x128, .f32⟩
  | .hbm, ⟨50, _⟩ => ⟨S640000x1, .i32⟩
  | .hbm, ⟨51, _⟩ => ⟨S20000x128, .f32⟩
  | .hbm, ⟨52, _⟩ => ⟨S640000x1, .f32⟩
  | .hbm, ⟨53, _⟩ => ⟨S640000x64, .f32⟩
  | .hbm, ⟨54, _⟩ => ⟨S640000x64, .f32⟩
  | .hbm, ⟨55, _⟩ => ⟨S_, .f32⟩
  | .hbm, ⟨56, _⟩ => ⟨S20000x64, .f32⟩
  | .hbm, ⟨57, _⟩ => ⟨S640000x1, .i32⟩
  | .hbm, ⟨58, _⟩ => ⟨S20000x64, .f32⟩
  | .hbm, ⟨59, _⟩ => ⟨S640000x1, .f32⟩
  | .hbm, ⟨60, _⟩ => ⟨S640000x64, .f32⟩
  | .hbm, ⟨61, _⟩ => ⟨S640000x64, .f32⟩
  | .hbm, ⟨62, _⟩ => ⟨S_, .f32⟩
  | .hbm, ⟨63, _⟩ => ⟨S20000x64, .f32⟩
  | .hbm, ⟨64, _⟩ => ⟨S640000x1, .i32⟩
  | .hbm, ⟨65, _⟩ => ⟨S20000x64, .f32⟩
  | .hbm, ⟨66, _⟩ => ⟨S640000x1, .f32⟩
  | .hbm, ⟨67, _⟩ => ⟨S640000x64, .f32⟩
  | .hbm, ⟨68, _⟩ => ⟨S640000x64, .f32⟩
  | .hbm, ⟨69, _⟩ => ⟨S_, .f32⟩
  | .hbm, ⟨70, _⟩ => ⟨S20000x64, .f32⟩
  | .hbm, ⟨71, _⟩ => ⟨S640000x1, .i32⟩
  | .hbm, ⟨72, _⟩ => ⟨S20000x64, .f32⟩
  | .hbm, ⟨73, _⟩ => ⟨S20000x64x1, .f32⟩
  | .hbm, ⟨74, _⟩ => ⟨S20000x64x1, .f32⟩
  | .hbm, ⟨75, _⟩ => ⟨S20000x64x1, .f32⟩
  | .hbm, ⟨76, _⟩ => ⟨S20000x64x3, .f32⟩
  | .hbm, ⟨77, _⟩ => ⟨S128x128, .bf16⟩
  | .hbm, ⟨78, _⟩ => ⟨S20000x128, .f32⟩
  | .hbm, ⟨79, _⟩ => ⟨S20000x64x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x64, .bf16⟩
  | .local _ .vmem, ⟨13, _⟩ => ⟨S64, .f32⟩
  | .local _ .vmem, ⟨14, _⟩ => ⟨S4000x128, .f32⟩
  | .local _ .vmem, ⟨15, _⟩ => ⟨S4000x128, .f32⟩
  | .local _ .vmem, ⟨16, _⟩ => ⟨S4000x64, .f32⟩
  | .local _ .vmem, ⟨17, _⟩ => ⟨S4000x64, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .bf16⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S20000x128 : S_.BroadcastsInDim S20000x128 (![] : Fin 0 → Fin S20000x128.rank)
  slices_S640000x3_S640000x1_0_0 : S640000x3.Slices ![0, 0] S640000x1
  bcast_S640000x1_S640000x64_0_1 : S640000x1.BroadcastsInDim S640000x64 (![0, 1] : Fin 2 → Fin S640000x64.rank)
  bcast_S_S20000x64 : S_.BroadcastsInDim S20000x64 (![] : Fin 0 → Fin S20000x64.rank)
  slices_S640000x3_S640000x1_0_1 : S640000x3.Slices ![0, 1] S640000x1
  slices_S640000x3_S640000x1_0_2 : S640000x3.Slices ![0, 2] S640000x1
  bcast_S20000x64_S20000x64x1_0_1 : S20000x64.BroadcastsInDim S20000x64x1 (![0, 1] : Fin 2 → Fin S20000x64x1.rank)
  concatenates_S20000x64x1_S20000x64x1_S20000x64x1_S20000x64x3_d2 : Shape.Concatenates [S20000x64x1, S20000x64x1, S20000x64x1] S20000x64x3 2
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S20000x128_S640000x1_S640000x128_1_0_n_n_0_1_1128_wf : GatherDims.WF S20000x128 S640000x1 S640000x128 [1] [0] [] [0] [] 1 ![1, 128]
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  scatter_S20000x128_S640000x1_S640000x128_1_0_0_1_wf : ScatterDims.WF S20000x128 S640000x1 S640000x128 [1] [0] [0] 1
  scatter_S20000x64_S640000x1_S640000x64_1_0_0_1_wf : ScatterDims.WF S20000x64 S640000x1 S640000x64 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .bf16 = 32 ∨ (Rect.block (s := S640000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .f32 = 32 ∨ (Rect.block (s := S640000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S640000x128.size a
  hwx0_11 : ∀ i : grid0.Coords, EltTy.bits .f32 = 32 ∨ (Rect.block (s := S640000x128) S4000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x64.size a ≤ S640000x64.size a
  hwx0_12 : ∀ i : grid0.Coords, EltTy.bits .f32 = 32 ∨ (Rect.block (s := S640000x64) S4000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v27_1) S4000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x64x3 : Shape := ⟨3, ![20000, 64, 3]⟩
abbrev S2x640000 : Shape := ⟨2, ![2, 640000]⟩
abbrev S640000x128 : Shape := ⟨2, ![640000, 128]⟩
abbrev S640000x3 : Shape := ⟨2, ![640000, 3]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S640000x64 : Shape := ⟨2, ![640000, 64]⟩
abbrev S1x64 : Shape := ⟨2, ![1, 64]⟩
abbrev S640000x64x1 : Shape := ⟨3, ![640000, 64, 1]⟩
abbrev S640000x1x3 : Shape := ⟨3, ![640000, 1, 3]⟩
abbrev S640000x64x3 : Shape := ⟨3, ![640000, 64, 3]⟩
abbrev S20000 : Shape := ⟨1, ![20000]⟩
abbrev S20000x1 : Shape := ⟨2, ![20000, 1]⟩

abbrev nBuf : Space → Nat
  | .hbm => 125
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x64x3, .f32⟩
  | .hbm, ⟨2, _⟩ => ⟨S2x640000, .i32⟩
  | .hbm, ⟨3, _⟩ => ⟨S640000x128, .f32⟩
  | .hbm, ⟨4, _⟩ => ⟨S640000x3, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x384, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S_, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S1x128, .f32⟩
  | .hbm, ⟨53, _⟩ => ⟨S640000x128, .f32⟩
  | .hbm, ⟨54, _⟩ => ⟨S640000x128, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S640000x128, .f32⟩
  | .hbm, ⟨59, _⟩ => ⟨S640000x128, .f32⟩
  | .hbm, ⟨60, _⟩ => ⟨S_, .f32⟩
  | .hbm, ⟨61, _⟩ => ⟨S640000x128, .f32⟩
  | .hbm, ⟨62, _⟩ => ⟨S640000x128, .f32⟩
  | .hbm, ⟨63, _⟩ => ⟨S640000x128, .f32⟩
  | .hbm, ⟨64, _⟩ => ⟨S640000x64, .f32⟩
  | .hbm, ⟨65, _⟩ => ⟨S1x64, .f32⟩
  | .hbm, ⟨66, _⟩ => ⟨S640000x64, .f32⟩
  | .hbm, ⟨67, _⟩ => ⟨S640000x64, .f32⟩
  | .hbm, ⟨68, _⟩ => ⟨S640000x64x1, .f32⟩
  | .hbm, ⟨69, _⟩ => ⟨S640000x1x3, .f32⟩
  | .hbm, ⟨70, _⟩ => ⟨S640000x64x3, .f32⟩
  | .hbm, ⟨71, _⟩ => ⟨S640000x64x3, .f32⟩
  | .hbm, ⟨72, _⟩ => ⟨S640000x64x3, .f32⟩
  | .hbm, ⟨73, _⟩ => ⟨S_, .f32⟩
  | .hbm, ⟨74, _⟩ => ⟨S20000x128, .f32⟩
  | .hbm, ⟨75, _⟩ => ⟨S640000x1, .i32⟩
  | .hbm, ⟨76, _⟩ => ⟨S20000x128, .f32⟩
  | .hbm, ⟨77, _⟩ => ⟨S_, .f32⟩
  | .hbm, ⟨78, _⟩ => ⟨S20000x64x3, .f32⟩
  | .hbm, ⟨79, _⟩ => ⟨S640000x1, .i32⟩
  | .hbm, ⟨80, _⟩ => ⟨S20000x64x3, .f32⟩
  | .hbm, ⟨81, _⟩ => ⟨S20000x128, .f32⟩
  | .hbm, ⟨82, _⟩ => ⟨S20000x128, .f32⟩
  | .hbm, ⟨83, _⟩ => ⟨S_, .f32⟩
  | .hbm, ⟨84, _⟩ => ⟨S20000x128, .f32⟩
  | .hbm, ⟨85, _⟩ => ⟨S20000x128, .f32⟩
  | .hbm, ⟨86, _⟩ => ⟨S_, .f32⟩
  | .hbm, ⟨87, _⟩ => ⟨S20000x128, .f32⟩
  | .hbm, ⟨88, _⟩ => ⟨S20000x128, .f32⟩
  | .hbm, ⟨89, _⟩ => ⟨S20000x128, .f32⟩
  | .hbm, ⟨90, _⟩ => ⟨S20000x128, .f32⟩
  | .hbm, ⟨91, _⟩ => ⟨S1x128, .f32⟩
  | .hbm, ⟨92, _⟩ => ⟨S20000x128, .f32⟩
  | .hbm, ⟨93, _⟩ => ⟨S20000x128, .f32⟩
  | .hbm, ⟨94, _⟩ => ⟨S20000x128, .f32⟩
  | .hbm, ⟨95, _⟩ => ⟨S_, .f32⟩
  | .hbm, ⟨96, _⟩ => ⟨S20000, .f32⟩
  | .hbm, ⟨97, _⟩ => ⟨S20000x1, .f32⟩
  | .hbm, ⟨98, _⟩ => ⟨S_, .f32⟩
  | .hbm, ⟨99, _⟩ => ⟨S20000x1, .f32⟩
  | .hbm, ⟨100, _⟩ => ⟨S20000x1, .f32⟩
  | .hbm, ⟨101, _⟩ => ⟨S20000x128, .f32⟩
  | .hbm, ⟨102, _⟩ => ⟨S20000x128, .f32⟩
  | .hbm, ⟨103, _⟩ => ⟨S20000x128, .f32⟩
  | .hbm, ⟨104, _⟩ => ⟨S_, .f32⟩
  | .hbm, ⟨105, _⟩ => ⟨S20000, .f32⟩
  | .hbm, ⟨106, _⟩ => ⟨S20000x1, .f32⟩
  | .hbm, ⟨107, _⟩ => ⟨S_, .f32⟩
  | .hbm, ⟨108, _⟩ => ⟨S20000x1, .f32⟩
  | .hbm, ⟨109, _⟩ => ⟨S20000x1, .f32⟩
  | .hbm, ⟨110, _⟩ => ⟨S20000x128, .f32⟩
  | .hbm, ⟨111, _⟩ => ⟨S20000x128, .f32⟩
  | .hbm, ⟨112, _⟩ => ⟨S1x128, .f32⟩
  | .hbm, ⟨113, _⟩ => ⟨S20000x128, .f32⟩
  | .hbm, ⟨114, _⟩ => ⟨S20000x128, .f32⟩
  | .hbm, ⟨115, _⟩ => ⟨S_, .f32⟩
  | .hbm, ⟨116, _⟩ => ⟨S20000x1, .f32⟩
  | .hbm, ⟨117, _⟩ => ⟨S20000x1, .f32⟩
  | .hbm, ⟨118, _⟩ => ⟨S20000x1, .f32⟩
  | .hbm, ⟨119, _⟩ => ⟨S20000x128, .f32⟩
  | .hbm, ⟨120, _⟩ => ⟨S20000x128, .f32⟩
  | .hbm, ⟨121, _⟩ => ⟨S1x128, .f32⟩
  | .hbm, ⟨122, _⟩ => ⟨S20000x128, .f32⟩
  | .hbm, ⟨123, _⟩ => ⟨S20000x128, .f32⟩
  | .hbm, ⟨124, _⟩ => ⟨S20000x64x3, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_3 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_4 : Ref sig .tc := ⟨.hbm, 95, rfl⟩
abbrev main_v50 : Ref sig .tc := ⟨.hbm, 96, rfl⟩
abbrev main_v51 : Ref sig .tc := ⟨.hbm, 97, rfl⟩
abbrev main_cst_5 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_6 : Ref sig .tc := ⟨.hbm, 104, rfl⟩
abbrev main_v57 : Ref sig .tc := ⟨.hbm, 105, rfl⟩
abbrev main_v58 : Ref sig .tc := ⟨.hbm, 106, rfl⟩
abbrev main_cst_7 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_8 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S640000x64_S640000x64x1_0_1 : S640000x64.BroadcastsInDim S640000x64x1 (![0, 1] : Fin 2 → Fin S640000x64x1.rank)
  bcast_S640000x3_S640000x1x3_0_2 : S640000x3.BroadcastsInDim S640000x1x3 (![0, 2] : Fin 2 → Fin S640000x1x3.rank)
  bcast_S640000x64x1_S640000x64x3_0_1_2 : S640000x64x1.BroadcastsInDim S640000x64x3 (![0, 1, 2] : Fin 3 → Fin S640000x64x3.rank)
  bcast_S640000x1x3_S640000x64x3_0_1_2 : S640000x1x3.BroadcastsInDim S640000x64x3 (![0, 1, 2] : Fin 3 → Fin S640000x64x3.rank)
  bcast_S_S20000x128 : S_.BroadcastsInDim S20000x128 (![] : Fin 0 → Fin S20000x128.rank)
  bcast_S_S20000x64x3 : S_.BroadcastsInDim S20000x64x3 (![] : Fin 0 → Fin S20000x64x3.rank)
  bcast_S1x128_S20000x128_0_1 : S1x128.BroadcastsInDim S20000x128 (![0, 1] : Fin 2 → Fin S20000x128.rank)
  reducesTo_S20000x128_S20000_d1 : S20000x128.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  dot_S640000x128_S128x64_S640000x64_1_0_0_1_n_n_wf : DotDims.WF S640000x128 S128x64 S640000x64 [1] [0] [0] [1] [] []
  scatter_S20000x128_S640000x1_S640000x128_1_0_0_1_wf : ScatterDims.WF S20000x128 S640000x1 S640000x128 [1] [0] [0] 1
  scatter_S20000x64x3_S640000x1_S640000x64x3_12_0_0_1_wf : ScatterDims.WF S20000x64x3 S640000x1 S640000x64x3 [1, 2] [0] [0] 1
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x64_S640000x64_1_0_0_1_n_n : DotDims S640000x128 S128x64 S640000x64 where
  lhsContracting := [1]
  rhsContracting := [0]
  lhsNonContracting := [0]
  rhsNonContracting := [1]
  lhsBatch := []
  rhsBatch := []
  wf := dot_S640000x128_S128x64_S640000x64_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x64x3_S640000x1_S640000x64x3_12_0_0_1 : ScatterDims S20000x64x3 S640000x1 S640000x64x3 where
  updateWindowDims := [1, 2]
  insertedWindowDims := [0]
  scatterDimsToOperandDims := [0]
  indexVectorDim := 1
  wf := scatter_S20000x64x3_S640000x1_S640000x64x3_12_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KFrame.lean ====
/-
  The run of this program's @main, with what every buffer holds at the end.

  @main is five items in order: a stretch of host operations (slices, casts, the two row gathers), the edge kernel over a
  grid of 160 points (each point reads a block of 4000 edges and writes the block's messages and vector gates), a second
  stretch (the scatter-adds onto the nodes, the stacking of the three vector components), the node kernel over a grid of
  10 points (each point updates a block of 2000 nodes), and one last addition.

  For each kernel: a window's block at a grid point is the restriction of its array to the block's rows; the body loads
  its input windows whole, computes, and stores each output window whole, so after the body an output's staging buffer is
  ONE pure function of the input blocks (the body's stored value over the loaded values). With that as the pipeline's
  proof data, the pipeline library gives each output array after the region as the fold of the blocks written back.
  Between items, the contents of every buffer are a fold from the launch memory: a host stretch applies its operations,
  a region replaces its output arrays by what its write-backs leave and keeps everything else. The run is the pipeline
  library's theorem for a list of such items; its post reads every unscoped buffer at the last boundary's contents.

  Everything here is stated for an arbitrary float instance.
-/
import proofs.«179612_j65618510349072_2_alg».proof.Proof.KLaunch
import proofs.«179612_j65618510349072_2_alg».proof.Proof.Gen.Kernel.Skeleton
import proofs.«179612_j65618510349072_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the bodies load and store through: each is a whole buffer -/

abbrev rE : Rect S4000x128 := Rect.unit (s := S4000x128) ![0, 0] S4000x128.size inb_S4000x128_S4000x128_0_0
abbrev rW : Rect S128x128 := Rect.unit (s := S128x128) ![0, 0] S128x128.size inb_S128x128_S128x128_0_0
abbrev rB : Rect S128 := Rect.unit (s := S128) ![0] S128.size inb_S128_S128_0
abbrev rV : Rect S128x64 := Rect.unit (s := S128x64) ![0, 0] S128x64.size inb_S128x64_S128x64_0_0
abbrev rC : Rect S64 := Rect.unit (s := S64) ![0] S64.size inb_S64_S64_0
abbrev rG : Rect S4000x64 := Rect.unit (s := S4000x64) ![0, 0] S4000x64.size inb_S4000x64_S4000x64_0_0
abbrev rN : Rect S2000x128 := Rect.unit (s := S2000x128) ![0, 0] S2000x128.size inb_S2000x128_S2000x128_0_0

section Regions
-- the contents of the core's buffers when a region is entered: the parameter each region's half is stated at
variable (V : (c : Dev nD) → (b : Ref sig .tc) → Buf (Elt F) ((c : Thread nD τ).loc b))

/-! # The edge kernel (pipeline 0), at the entry contents `V` -/

/-- Window `w`'s block at grid point `t`: the restriction of its array, as the region finds it, to the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether or not the pipeline fetched it
    there: when it did not, the block's index has not moved since the point that did (the weights and biases are fetched
    once, at the first point). One lemma per input window, for any proof data over these arrays that leaves inputs in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The message window's buffer after the body: the block's messages, one store over the whole buffer, as a function of
    the nine input blocks the message depends on. -/
def out0_11 (x0 x1 : Vec F S4000x128 .bf16) (x2 : Vec F S4000x128 .f32) (x3 x4 x5 : Vec F S128x128 .bf16) (x6 : Vec F S128 .f32)
    (x7 : Vec F S128x128 .bf16) (x8 : Vec F S128 .f32) : Vec F S4000x128 .f32 :=
  View.canon [⟨rE, k0_pay2 (View.ld x0 rE) (View.ld x1 rE) (View.ld x2 rE) (View.ld x3 rW) (View.ld x4 rW) (View.ld x5 rW)
    (View.ld x6 rB) (View.ld x7 rW) (View.ld x8 rB)⟩]

/-- The vector-gate window's buffer after the body: one more layer on the activation of the block's messages. -/
def out0_12 (x0 x1 : Vec F S4000x128 .bf16) (x2 : Vec F S4000x128 .f32) (x3 x4 x5 : Vec F S128x128 .bf16) (x6 : Vec F S128 .f32)
    (x7 : Vec F S128x128 .bf16) (x8 : Vec F S128 .f32) (x9 : Vec F S128x64 .bf16) (x10 : Vec F S64 .f32) : Vec F S4000x64 .f32 :=
  View.canon [⟨rG, k0_pay1 (k0_pay3 (View.ld x0 rE) (View.ld x1 rE) (View.ld x2 rE) (View.ld x3 rW) (View.ld x4 rW) (View.ld x5 rW)
    (View.ld x6 rB) (View.ld x7 rW) (View.ld x8 rB)) (View.ld x9 rV) (View.ld x10 rC)⟩]

/-- Each store's rectangle is its whole buffer, so it covers every index. -/
theorem cover0_11 (p0 : Vec F S4000x128 .f32) (y : S4000x128.Idx) :
    ∃ pc ∈ ([⟨rE, p0⟩] : List (View.Piece (Elt F) S4000x128 .f32)), y ∈ pc.1.set :=
  View.cover_of_tiled [⟨rE, p0⟩] S4000x128.size (by rfl) y
theorem cover0_12 (p0 : Vec F S4000x64 .f32) (y : S4000x64.Idx) :
    ∃ pc ∈ ([⟨rG, p0⟩] : List (View.Piece (Elt F) S4000x64 .f32)), y ∈ pc.1.set :=
  View.cover_of_tiled [⟨rG, p0⟩] S4000x64.size (by rfl) y

/-! ## The body's triple -/

set_option maxHeartbeats 4000000 in
/-- The edge kernel's body on whole staging memrefs — the eleven inputs' at given contents, the two outputs' at anything —
    runs to the continuation holding the inputs' unchanged and each output's at its function of the inputs. -/
theorem sound_kernel0 (c : Dev nD) (E : Set ℕ) (i : grid0.Coords)
    (arg1 : Memref sig .tc .vmem S4000x128 .bf16) (harg1 : arg1.IsWhole) (arg2 : Memref sig .tc .vmem S4000x128 .bf16) (harg2 : arg2.IsWhole)
    (arg3 : Memref sig .tc .vmem S4000x128 .f32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S128 .f32) (harg7 : arg7.IsWhole) (arg8 : Memref sig .tc .vmem S128x128 .bf16) (harg8 : arg8.IsWhole)
    (arg9 : Memref sig .tc .vmem S128 .f32) (harg9 : arg9.IsWhole) (arg10 : Memref sig .tc .vmem S128x64 .bf16) (harg10 : arg10.IsWhole)
    (arg11 : Memref sig .tc .vmem S64 .f32) (harg11 : arg11.IsWhole) (arg12 : Memref sig .tc .vmem S4000x128 .f32) (harg12 : arg12.IsWhole)
    (arg13 : Memref sig .tc .vmem S4000x64 .f32) (harg13 : arg13.IsWhole)
    (x0 x1 : Vec F S4000x128 .bf16) (x2 : Vec F S4000x128 .f32) (x3 x4 x5 : Vec F S128x128 .bf16) (x6 : Vec F S128 .f32)
    (x7 : Vec F S128x128 .bf16) (x8 : Vec F S128 .f32) (x9 : Vec F S128x64 .bf16) (x10 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out0_11 x0 x1 x2 x3 x4 x5 x6 x7 x8)
            ∗ owns (c : Thread nD τ) arg13 fullShare (out0_12 x0 x1 x2 x3 x4 x5 x6 x7 x8 x9 x10)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9
            arg10 harg10 arg11 harg11 arg12 harg12 arg13 harg13) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The pipeline's proof data -/

/-- The proof data of the edge kernel's pipeline on core `c`: its arrays as the region finds them; after the body at point
    `t` each input's buffer at its block and each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents (projected, never unfolded). -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-! Each input's current staging buffer holds its block at every point. -/
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d
theorem before0_8 (c : Dev nD) (t : Fin cfg0.N) (d) : (dat0 V c).before 8 t d = iblk0 V c 8 t := before0_8_of V (dat0 V c) (A_eq0 V c 8) (after0_8 V c) t d
theorem before0_9 (c : Dev nD) (t : Fin cfg0.N) (d) : (dat0 V c).before 9 t d = iblk0 V c 9 t := before0_9_of V (dat0 V c) (A_eq0 V c 9) (after0_9 V c) t d
theorem before0_10 (c : Dev nD) (t : Fin cfg0.N) (d) : (dat0 V c).before 10 t d = iblk0 V c 10 t := before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # The node kernel (pipeline 1), at the entry contents `V` -/

/-- Window `w`'s block at grid point `t`: the restriction of its array, as the region finds it, to the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output window's buffer after the body: the block's updated node features, one store over the whole buffer, as a
    function of the six input blocks. -/
def out1_6 (x0 x1 : Vec F S2000x128 .f32) (x2 : Vec F S128x128 .bf16) (x3 x4 x5 : Vec F S128 .f32) : Vec F S2000x128 .f32 :=
  View.canon [⟨rN, k1_pay1 (View.ld x0 rN) (View.ld x1 rN) (View.ld x2 rW) (View.ld x3 rB) (View.ld x4 rB) (View.ld x5 rB)⟩]

/-- The store's rectangle is the whole buffer, so it covers every index. -/
theorem cover1_6 (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y

set_option maxHeartbeats 4000000 in
/-- The node kernel's body on whole staging memrefs — the six inputs' at given contents, the output's at anything — runs to
    the continuation holding the inputs' unchanged and the output's at its function of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S2000x128 .f32) (harg7 : arg7.IsWhole)
    (x0 x1 : Vec F S2000x128 .f32) (x2 : Vec F S128x128 .bf16) (x3 x4 x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__node_update_kernel i arg1 harg1 arg2 harg2 arg3 harg3 arg4 harg4 arg5 harg5 arg6 harg6 arg7 harg7) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of the node kernel's pipeline on core `c`, in the same form as the edge kernel's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's five items from the launch to the return

## The buffers' contents at each boundary: a fold through @main -/

/-- Core `c`'s buffers at launch. -/
abbrev W0 : Dev nD → Valuation τ sig (Elt F) := fun c b => (s₀ m ρ).mem ((c : Dev nD), b)
/-- After the first host stretch (the edge kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the edge kernel's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the node kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the node kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what @main returns with. -/
abbrev W5 : Dev nD → Valuation τ sig (Elt F) := fun c => StableHlo.after hostOps2 (W4 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- The edge kernel's region over the thread state: entered from every unscoped buffer at `W1`, left at `W2`. Its arrays
    are split out of the unscoped buffers and put back at the exit contents; the generator register goes into the
    kernel's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of those items. -/
theorem main_run (c : Dev nD) : main (F := F) c = Pipeline.Seg.run (segs m ρ) := (main_chain c).trans (by chain_rfl)

set_option backward.isDefEq.respectTransparency.types false in
/-- THE RUN. From any memory with zero counters, every weakly fair execution of @main on the cores terminates, nothing
    faulting, and in every final state every unscoped buffer of every core holds the last boundary's contents `W5`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-! ## The argument arrays end as launched

No host operation writes an argument; a region either stages it through an input window, which is never written back, or
does not touch it. So the fold at an argument's buffer walks back to the launch memory. -/

/-- The references each host stretch writes. -/
abbrev ops0W : List (Ref sig .tc) := [main_v0, main_v1, main_v2, main_v3, main_v4, main_c, main_v5, main_v6, main_c_0, main_v7, main_v8, main_v9, main_v10, main_v11, main_c_1, main_v12, main_v13, main_c_2, main_v14, main_v15, main_v16, main_v17, main_v18, main_v19, main_v20, main_v21, main_v22, main_v23, main_v24, main_v25, main_v26]
abbrev ops1W : List (Ref sig .tc) := [main_cst, main_v28, main_v29, main_v30, main_v31, main_v32, main_v33, main_cst_3, main_v34, main_v35, main_v36, main_v37, main_v38, main_v39, main_cst_4, main_v40, main_v41, main_v42, main_v43, main_v44, main_v45, main_cst_5, main_v46, main_v47, main_v48, main_v49, main_v50, main_v51, main_v52, main_v53]
abbrev ops2W : List (Ref sig .tc) := [main_v55]

theorem ops0_writes : (hostOps0 : List (HloOp τ sig (Elt F))).Forall fun op => op.writes ⊆ (ops0W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops1_writes : (hostOps1 : List (HloOp τ sig (Elt F))).Forall fun op => op.writes ⊆ (ops1W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops2_writes : (hostOps2 : List (HloOp τ sig (Elt F))).Forall fun op => op.writes ⊆ (ops2W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-- A reference a host stretch does not write keeps its contents across it. -/
theorem W1_of (c : Dev nD) (r : Ref sig .tc) (h : r ∉ ops0W) : W1 m ρ c (Proc.devRef .tc r) = W0 m ρ c (Proc.devRef .tc r) :=
  StableHlo.after_of_writes_sub hostOps0 _ ops0_writes h
theorem W3_of (c : Dev nD) (r : Ref sig .tc) (h : r ∉ ops1W) : W3 m ρ c (Proc.devRef .tc r) = W2 m ρ c (Proc.devRef .tc r) :=
  StableHlo.after_of_writes_sub hostOps1 _ ops1_writes h
theorem W5_of (c : Dev nD) (r : Ref sig .tc) (h : r ∉ ops2W) : W5 m ρ c (Proc.devRef .tc r) = W4 m ρ c (Proc.devRef .tc r) :=
  StableHlo.after_of_writes_sub hostOps2 _ ops2_writes h
/-- An input window's array is unchanged by its region: the pipeline never writes it back. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem W5_main_arg0 (c : Dev nD) : W5 m ρ c (Proc.devRef .tc main_arg0) = m ((c : Thread nD τ).loc main_arg0) :=
  (W5_of m ρ c main_arg0 (by decide)).trans <| ((W4_in m ρ c 0 rfl : W4 m ρ c (Proc.devRef .tc main_arg0) = W3 m ρ c (Proc.devRef .tc main_arg0))).trans <| (W3_of m ρ c main_arg0 (by decide)).trans <|
    (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <|
    ((W2_in m ρ c 2 rfl : W2 m ρ c (Proc.devRef .tc main_arg3) = W1 m ρ c (Proc.devRef .tc main_arg3))).trans <| (W1_of m ρ c main_arg3 (by decide)).trans rfl
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <|
    ((W2_in m ρ c 6 rfl : W2 m ρ c (Proc.devRef .tc main_arg6) = W1 m ρ c (Proc.devRef .tc main_arg6))).trans <| (W1_of m ρ c main_arg6 (by decide)).trans rfl
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <| (W3_of m ρ c main_arg7 (by decide)).trans <|
    (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <| (W3_of m ρ c main_arg8 (by decide)).trans <|
    ((W2_in m ρ c 8 rfl : W2 m ρ c (Proc.devRef .tc main_arg8) = W1 m ρ c (Proc.devRef .tc main_arg8))).trans <| (W1_of m ρ c main_arg8 (by decide)).trans rfl
theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <| (W3_of m ρ c main_arg9 (by decide)).trans <|
    (W2_of_ne m ρ c main_arg9 (by decide)).trans <| (W1_of m ρ c main_arg9 (by decide)).trans rfl
theorem W5_main_arg10 (c : Dev nD) : W5 m ρ c (Proc.devRef .tc main_arg10) = m ((c : Thread nD τ).loc main_arg10) :=
  (W5_of m ρ c main_arg10 (by decide)).trans <| ((W4_in m ρ c 3 rfl : W4 m ρ c (Proc.devRef .tc main_arg10) = W3 m ρ c (Proc.devRef .tc main_arg10))).trans <| (W3_of m ρ c main_arg10 (by decide)).trans <|
    (W2_of_ne m ρ c main_arg10 (by decide)).trans <| (W1_of m ρ c main_arg10 (by decide)).trans rfl
theorem W5_main_arg11 (c : Dev nD) : W5 m ρ c (Proc.devRef .tc main_arg11) = m ((c : Thread nD τ).loc main_arg11) :=
  (W5_of m ρ c main_arg11 (by decide)).trans <| (W4_of_ne m ρ c main_arg11 (by decide)).trans <| (W3_of m ρ c main_arg11 (by decide)).trans <|
    (W2_of_ne m ρ c main_arg11 (by decide)).trans <| (W1_of m ρ c main_arg11 (by decide)).trans rfl
theorem W5_main_arg12 (c : Dev nD) : W5 m ρ c (Proc.devRef .tc main_arg12) = m ((c : Thread nD τ).loc main_arg12) :=
  (W5_of m ρ c main_arg12 (by decide)).trans <| (W4_of_ne m ρ c main_arg12 (by decide)).trans <| (W3_of m ρ c main_arg12 (by decide)).trans <|
    ((W2_in m ρ c 10 rfl : W2 m ρ c (Proc.devRef .tc main_arg12) = W1 m ρ c (Proc.devRef .tc main_arg12))).trans <| (W1_of m ρ c main_arg12 (by decide)).trans rfl
theorem W5_main_arg13 (c : Dev nD) : W5 m ρ c (Proc.devRef .tc main_arg13) = m ((c : Thread nD τ).loc main_arg13) :=
  (W5_of m ρ c main_arg13 (by decide)).trans <| ((W4_in m ρ c 4 rfl : W4 m ρ c (Proc.devRef .tc main_arg13) = W3 m ρ c (Proc.devRef .tc main_arg13))).trans <| (W3_of m ρ c main_arg13 (by decide)).trans <|
    (W2_of_ne m ρ c main_arg13 (by decide)).trans <| (W1_of m ρ c main_arg13 (by decide)).trans rfl
theorem W5_main_arg14 (c : Dev nD) : W5 m ρ c (Proc.devRef .tc main_arg14) = m ((c : Thread nD τ).loc main_arg14) :=
  (W5_of m ρ c main_arg14 (by decide)).trans <| ((W4_in m ρ c 5 rfl : W4 m ρ c (Proc.devRef .tc main_arg14) = W3 m ρ c (Proc.devRef .tc main_arg14))).trans <| (W3_of m ρ c main_arg14 (by decide)).trans <|
    (W2_of_ne m ρ c main_arg14 (by decide)).trans <| (W1_of m ρ c main_arg14 (by decide)).trans rfl

/-- THE FRAME: every weakly fair execution of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c main_arg0 (by decide)).trans (W5_main_arg0 m ρ c),
      (h c main_arg1 (by decide)).trans (W5_main_arg1 m ρ c),
      (h c main_arg2 (by decide)).trans (W5_main_arg2 m ρ c),
      (h c main_arg3 (by decide)).trans (W5_main_arg3 m ρ c),
      (h c main_arg4 (by decide)).trans (W5_main_arg4 m ρ c),
      (h c main_arg5 (by decide)).trans (W5_main_arg5 m ρ c),
      (h c main_arg6 (by decide)).trans (W5_main_arg6 m ρ c),
      (h c main_arg7 (by decide)).trans (W5_main_arg7 m ρ c),
      (h c main_arg8 (by decide)).trans (W5_main_arg8 m ρ c),
      (h c main_arg9 (by decide)).trans (W5_main_arg9 m ρ c),
      (h c main_arg10 (by decide)).trans (W5_main_arg10 m ρ c),
      (h c main_arg11 (by decide)).trans (W5_main_arg11 m ρ c),
      (h c main_arg12 (by decide)).trans (W5_main_arg12 m ρ c),
      (h c main_arg13 (by decide)).trans (W5_main_arg13 m ρ c),
      (h c main_arg14 (by decide)).trans (W5_main_arg14 m ρ c)⟩) (run_all m ρ)

end Cert.Kernel.Frame

end
-- ==== Proof.KIFrame.lean ====
/-
  The run of this program's @main, with what every buffer holds at the end.

  @main is five items in order: a stretch of host operations (slices, casts, the two row gathers), the edge kernel over a
  grid of 160 points (each point reads a block of 4000 edges and writes the block's messages and vector gates), a second
  stretch (the scatter-adds onto the nodes, the stacking of the three vector components), the node kernel over a grid of
  10 points (each point updates a block of 2000 nodes), and one last addition.

  For each kernel: a window's block at a grid point is the restriction of its array to the block's rows; the body loads
  its input windows whole, computes, and stores each output window whole, so after the body an output's staging buffer is
  ONE pure function of the input blocks (the body's stored value over the loaded values). With that as the pipeline's
  proof data, the pipeline library gives each output array after the region as the fold of the blocks written back.
  Between items, the contents of every buffer are a fold from the launch memory: a host stretch applies its operations,
  a region replaces its output arrays by what its write-backs leave and keeps everything else. The run is the pipeline
  library's theorem for a list of such items; its post reads every unscoped buffer at the last boundary's contents.

  Everything here is stated for an arbitrary float instance.
-/
import proofs.«179612_j65618510349072_2_alg».proof.Proof.KILaunch
import proofs.«179612_j65618510349072_2_alg».proof.Proof.Gen.KernelIdeal.Skeleton
import proofs.«179612_j65618510349072_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the bodies load and store through: each is a whole buffer -/

abbrev rE : Rect S4000x128 := Rect.unit (s := S4000x128) ![0, 0] S4000x128.size inb_S4000x128_S4000x128_0_0
abbrev rW : Rect S128x128 := Rect.unit (s := S128x128) ![0, 0] S128x128.size inb_S128x128_S128x128_0_0
abbrev rB : Rect S128 := Rect.unit (s := S128) ![0] S128.size inb_S128_S128_0
abbrev rV : Rect S128x64 := Rect.unit (s := S128x64) ![0, 0] S128x64.size inb_S128x64_S128x64_0_0
abbrev rC : Rect S64 := Rect.unit (s := S64) ![0] S64.size inb_S64_S64_0
abbrev rG : Rect S4000x64 := Rect.unit (s := S4000x64) ![0, 0] S4000x64.size inb_S4000x64_S4000x64_0_0
abbrev rN : Rect S2000x128 := Rect.unit (s := S2000x128) ![0, 0] S2000x128.size inb_S2000x128_S2000x128_0_0

section Regions
-- the contents of the core's buffers when a region is entered: the parameter each region's half is stated at
variable (V : (c : Dev nD) → (b : Ref sig .tc) → Buf (Elt F) ((c : Thread nD τ).loc b))

/-! # The edge kernel (pipeline 0), at the entry contents `V` -/

/-- Window `w`'s block at grid point `t`: the restriction of its array, as the region finds it, to the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether or not the pipeline fetched it
    there: when it did not, the block's index has not moved since the point that did (the weights and biases are fetched
    once, at the first point). One lemma per input window, for any proof data over these arrays that leaves inputs in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The message window's buffer after the body: the block's messages, one store over the whole buffer, as a function of
    the nine input blocks the message depends on. -/
def out0_11 (x0 x1 : Vec F S4000x128 .bf16) (x2 : Vec F S4000x128 .f32) (x3 x4 x5 : Vec F S128x128 .bf16) (x6 : Vec F S128 .f32)
    (x7 : Vec F S128x128 .bf16) (x8 : Vec F S128 .f32) : Vec F S4000x128 .f32 :=
  View.canon [⟨rE, k0_pay2 (View.ld x0 rE) (View.ld x1 rE) (View.ld x2 rE) (View.ld x3 rW) (View.ld x4 rW) (View.ld x5 rW)
    (View.ld x6 rB) (View.ld x7 rW) (View.ld x8 rB)⟩]

/-- The vector-gate window's buffer after the body: one more layer on the activation of the block's messages. -/
def out0_12 (x0 x1 : Vec F S4000x128 .bf16) (x2 : Vec F S4000x128 .f32) (x3 x4 x5 : Vec F S128x128 .bf16) (x6 : Vec F S128 .f32)
    (x7 : Vec F S128x128 .bf16) (x8 : Vec F S128 .f32) (x9 : Vec F S128x64 .bf16) (x10 : Vec F S64 .f32) : Vec F S4000x64 .f32 :=
  View.canon [⟨rG, k0_pay1 (k0_pay3 (View.ld x0 rE) (View.ld x1 rE) (View.ld x2 rE) (View.ld x3 rW) (View.ld x4 rW) (View.ld x5 rW)
    (View.ld x6 rB) (View.ld x7 rW) (View.ld x8 rB)) (View.ld x9 rV) (View.ld x10 rC)⟩]

/-- Each store's rectangle is its whole buffer, so it covers every index. -/
theorem cover0_11 (p0 : Vec F S4000x128 .f32) (y : S4000x128.Idx) :
    ∃ pc ∈ ([⟨rE, p0⟩] : List (View.Piece (Elt F) S4000x128 .f32)), y ∈ pc.1.set :=
  View.cover_of_tiled [⟨rE, p0⟩] S4000x128.size (by rfl) y
theorem cover0_12 (p0 : Vec F S4000x64 .f32) (y : S4000x64.Idx) :
    ∃ pc ∈ ([⟨rG, p0⟩] : List (View.Piece (Elt F) S4000x64 .f32)), y ∈ pc.1.set :=
  View.cover_of_tiled [⟨rG, p0⟩] S4000x64.size (by rfl) y

/-! ## The body's triple -/

set_option maxHeartbeats 4000000 in
/-- The edge kernel's body on whole staging memrefs — the eleven inputs' at given contents, the two outputs' at anything —
    runs to the continuation holding the inputs' unchanged and each output's at its function of the inputs. -/
theorem sound_kernel0 (c : Dev nD) (E : Set ℕ) (i : grid0.Coords)
    (arg1 : Memref sig .tc .vmem S4000x128 .bf16) (harg1 : arg1.IsWhole) (arg2 : Memref sig .tc .vmem S4000x128 .bf16) (harg2 : arg2.IsWhole)
    (arg3 : Memref sig .tc .vmem S4000x128 .f32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S128 .f32) (harg7 : arg7.IsWhole) (arg8 : Memref sig .tc .vmem S128x128 .bf16) (harg8 : arg8.IsWhole)
    (arg9 : Memref sig .tc .vmem S128 .f32) (harg9 : arg9.IsWhole) (arg10 : Memref sig .tc .vmem S128x64 .bf16) (harg10 : arg10.IsWhole)
    (arg11 : Memref sig .tc .vmem S64 .f32) (harg11 : arg11.IsWhole) (arg12 : Memref sig .tc .vmem S4000x128 .f32) (harg12 : arg12.IsWhole)
    (arg13 : Memref sig .tc .vmem S4000x64 .f32) (harg13 : arg13.IsWhole)
    (x0 x1 : Vec F S4000x128 .bf16) (x2 : Vec F S4000x128 .f32) (x3 x4 x5 : Vec F S128x128 .bf16) (x6 : Vec F S128 .f32)
    (x7 : Vec F S128x128 .bf16) (x8 : Vec F S128 .f32) (x9 : Vec F S128x64 .bf16) (x10 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out0_11 x0 x1 x2 x3 x4 x5 x6 x7 x8)
            ∗ owns (c : Thread nD τ) arg13 fullShare (out0_12 x0 x1 x2 x3 x4 x5 x6 x7 x8 x9 x10)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9
            arg10 harg10 arg11 harg11 arg12 harg12 arg13 harg13) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The pipeline's proof data -/

/-- The proof data of the edge kernel's pipeline on core `c`: its arrays as the region finds them; after the body at point
    `t` each input's buffer at its block and each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents (projected, never unfolded). -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-! Each input's current staging buffer holds its block at every point. -/
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d
theorem before0_8 (c : Dev nD) (t : Fin cfg0.N) (d) : (dat0 V c).before 8 t d = iblk0 V c 8 t := before0_8_of V (dat0 V c) (A_eq0 V c 8) (after0_8 V c) t d
theorem before0_9 (c : Dev nD) (t : Fin cfg0.N) (d) : (dat0 V c).before 9 t d = iblk0 V c 9 t := before0_9_of V (dat0 V c) (A_eq0 V c 9) (after0_9 V c) t d
theorem before0_10 (c : Dev nD) (t : Fin cfg0.N) (d) : (dat0 V c).before 10 t d = iblk0 V c 10 t := before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # The node kernel (pipeline 1), at the entry contents `V` -/

/-- Window `w`'s block at grid point `t`: the restriction of its array, as the region finds it, to the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output window's buffer after the body: the block's updated node features, one store over the whole buffer, as a
    function of the six input blocks. -/
def out1_6 (x0 x1 : Vec F S2000x128 .f32) (x2 : Vec F S128x128 .bf16) (x3 x4 x5 : Vec F S128 .f32) : Vec F S2000x128 .f32 :=
  View.canon [⟨rN, k1_pay1 (View.ld x0 rN) (View.ld x1 rN) (View.ld x2 rW) (View.ld x3 rB) (View.ld x4 rB) (View.ld x5 rB)⟩]

/-- The store's rectangle is the whole buffer, so it covers every index. -/
theorem cover1_6 (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y

set_option maxHeartbeats 4000000 in
/-- The node kernel's body on whole staging memrefs — the six inputs' at given contents, the output's at anything — runs to
    the continuation holding the inputs' unchanged and the output's at its function of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S2000x128 .f32) (harg7 : arg7.IsWhole)
    (x0 x1 : Vec F S2000x128 .f32) (x2 : Vec F S128x128 .bf16) (x3 x4 x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__node_update_kernel i arg1 harg1 arg2 harg2 arg3 harg3 arg4 harg4 arg5 harg5 arg6 harg6 arg7 harg7) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of the node kernel's pipeline on core `c`, in the same form as the edge kernel's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's five items from the launch to the return

## The buffers' contents at each boundary: a fold through @main -/

/-- Core `c`'s buffers at launch. -/
abbrev W0 : Dev nD → Valuation τ sig (Elt F) := fun c b => (s₀ m ρ).mem ((c : Dev nD), b)
/-- After the first host stretch (the edge kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the edge kernel's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the node kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the node kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what @main returns with. -/
abbrev W5 : Dev nD → Valuation τ sig (Elt F) := fun c => StableHlo.after hostOps2 (W4 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- The edge kernel's region over the thread state: entered from every unscoped buffer at `W1`, left at `W2`. Its arrays
    are split out of the unscoped buffers and put back at the exit contents; the generator register goes into the
    kernel's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of those items. -/
theorem main_run (c : Dev nD) : main (F := F) c = Pipeline.Seg.run (segs m ρ) := (main_chain c).trans (by chain_rfl)

set_option backward.isDefEq.respectTransparency.types false in
/-- THE RUN. From any memory with zero counters, every weakly fair execution of @main on the cores terminates, nothing
    faulting, and in every final state every unscoped buffer of every core holds the last boundary's contents `W5`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-! ## The argument arrays end as launched

No host operation writes an argument; a region either stages it through an input window, which is never written back, or
does not touch it. So the fold at an argument's buffer walks back to the launch memory. -/

/-- The references each host stretch writes. -/
abbrev ops0W : List (Ref sig .tc) := [main_v0, main_v1, main_v2, main_v3, main_v4, main_c, main_v5, main_v6, main_c_0, main_v7, main_v8, main_v9, main_v10, main_v11, main_c_1, main_v12, main_v13, main_c_2, main_v14, main_v15, main_v16, main_v17, main_v18, main_v19, main_v20, main_v21, main_v22, main_v23, main_v24, main_v25, main_v26]
abbrev ops1W : List (Ref sig .tc) := [main_cst, main_v28, main_v29, main_v30, main_v31, main_v32, main_v33, main_cst_3, main_v34, main_v35, main_v36, main_v37, main_v38, main_v39, main_cst_4, main_v40, main_v41, main_v42, main_v43, main_v44, main_v45, main_cst_5, main_v46, main_v47, main_v48, main_v49, main_v50, main_v51, main_v52, main_v53]
abbrev ops2W : List (Ref sig .tc) := [main_v55]

theorem ops0_writes : (hostOps0 : List (HloOp τ sig (Elt F))).Forall fun op => op.writes ⊆ (ops0W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops1_writes : (hostOps1 : List (HloOp τ sig (Elt F))).Forall fun op => op.writes ⊆ (ops1W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops2_writes : (hostOps2 : List (HloOp τ sig (Elt F))).Forall fun op => op.writes ⊆ (ops2W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-- A reference a host stretch does not write keeps its contents across it. -/
theorem W1_of (c : Dev nD) (r : Ref sig .tc) (h : r ∉ ops0W) : W1 m ρ c (Proc.devRef .tc r) = W0 m ρ c (Proc.devRef .tc r) :=
  StableHlo.after_of_writes_sub hostOps0 _ ops0_writes h
theorem W3_of (c : Dev nD) (r : Ref sig .tc) (h : r ∉ ops1W) : W3 m ρ c (Proc.devRef .tc r) = W2 m ρ c (Proc.devRef .tc r) :=
  StableHlo.after_of_writes_sub hostOps1 _ ops1_writes h
theorem W5_of (c : Dev nD) (r : Ref sig .tc) (h : r ∉ ops2W) : W5 m ρ c (Proc.devRef .tc r) = W4 m ρ c (Proc.devRef .tc r) :=
  StableHlo.after_of_writes_sub hostOps2 _ ops2_writes h
/-- An input window's array is unchanged by its region: the pipeline never writes it back. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem W5_main_arg0 (c : Dev nD) : W5 m ρ c (Proc.devRef .tc main_arg0) = m ((c : Thread nD τ).loc main_arg0) :=
  (W5_of m ρ c main_arg0 (by decide)).trans <| ((W4_in m ρ c 0 rfl : W4 m ρ c (Proc.devRef .tc main_arg0) = W3 m ρ c (Proc.devRef .tc main_arg0))).trans <| (W3_of m ρ c main_arg0 (by decide)).trans <|
    (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <|
    ((W2_in m ρ c 2 rfl : W2 m ρ c (Proc.devRef .tc main_arg3) = W1 m ρ c (Proc.devRef .tc main_arg3))).trans <| (W1_of m ρ c main_arg3 (by decide)).trans rfl
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <|
    ((W2_in m ρ c 6 rfl : W2 m ρ c (Proc.devRef .tc main_arg6) = W1 m ρ c (Proc.devRef .tc main_arg6))).trans <| (W1_of m ρ c main_arg6 (by decide)).trans rfl
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <| (W3_of m ρ c main_arg7 (by decide)).trans <|
    (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <| (W3_of m ρ c main_arg8 (by decide)).trans <|
    ((W2_in m ρ c 8 rfl : W2 m ρ c (Proc.devRef .tc main_arg8) = W1 m ρ c (Proc.devRef .tc main_arg8))).trans <| (W1_of m ρ c main_arg8 (by decide)).trans rfl
theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <| (W3_of m ρ c main_arg9 (by decide)).trans <|
    (W2_of_ne m ρ c main_arg9 (by decide)).trans <| (W1_of m ρ c main_arg9 (by decide)).trans rfl
theorem W5_main_arg10 (c : Dev nD) : W5 m ρ c (Proc.devRef .tc main_arg10) = m ((c : Thread nD τ).loc main_arg10) :=
  (W5_of m ρ c main_arg10 (by decide)).trans <| ((W4_in m ρ c 3 rfl : W4 m ρ c (Proc.devRef .tc main_arg10) = W3 m ρ c (Proc.devRef .tc main_arg10))).trans <| (W3_of m ρ c main_arg10 (by decide)).trans <|
    (W2_of_ne m ρ c main_arg10 (by decide)).trans <| (W1_of m ρ c main_arg10 (by decide)).trans rfl
theorem W5_main_arg11 (c : Dev nD) : W5 m ρ c (Proc.devRef .tc main_arg11) = m ((c : Thread nD τ).loc main_arg11) :=
  (W5_of m ρ c main_arg11 (by decide)).trans <| (W4_of_ne m ρ c main_arg11 (by decide)).trans <| (W3_of m ρ c main_arg11 (by decide)).trans <|
    (W2_of_ne m ρ c main_arg11 (by decide)).trans <| (W1_of m ρ c main_arg11 (by decide)).trans rfl
theorem W5_main_arg12 (c : Dev nD) : W5 m ρ c (Proc.devRef .tc main_arg12) = m ((c : Thread nD τ).loc main_arg12) :=
  (W5_of m ρ c main_arg12 (by decide)).trans <| (W4_of_ne m ρ c main_arg12 (by decide)).trans <| (W3_of m ρ c main_arg12 (by decide)).trans <|
    ((W2_in m ρ c 10 rfl : W2 m ρ c (Proc.devRef .tc main_arg12) = W1 m ρ c (Proc.devRef .tc main_arg12))).trans <| (W1_of m ρ c main_arg12 (by decide)).trans rfl
theorem W5_main_arg13 (c : Dev nD) : W5 m ρ c (Proc.devRef .tc main_arg13) = m ((c : Thread nD τ).loc main_arg13) :=
  (W5_of m ρ c main_arg13 (by decide)).trans <| ((W4_in m ρ c 4 rfl : W4 m ρ c (Proc.devRef .tc main_arg13) = W3 m ρ c (Proc.devRef .tc main_arg13))).trans <| (W3_of m ρ c main_arg13 (by decide)).trans <|
    (W2_of_ne m ρ c main_arg13 (by decide)).trans <| (W1_of m ρ c main_arg13 (by decide)).trans rfl
theorem W5_main_arg14 (c : Dev nD) : W5 m ρ c (Proc.devRef .tc main_arg14) = m ((c : Thread nD τ).loc main_arg14) :=
  (W5_of m ρ c main_arg14 (by decide)).trans <| ((W4_in m ρ c 5 rfl : W4 m ρ c (Proc.devRef .tc main_arg14) = W3 m ρ c (Proc.devRef .tc main_arg14))).trans <| (W3_of m ρ c main_arg14 (by decide)).trans <|
    (W2_of_ne m ρ c main_arg14 (by decide)).trans <| (W1_of m ρ c main_arg14 (by decide)).trans rfl

/-- THE FRAME: every weakly fair execution of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c main_arg0 (by decide)).trans (W5_main_arg0 m ρ c),
      (h c main_arg1 (by decide)).trans (W5_main_arg1 m ρ c),
      (h c main_arg2 (by decide)).trans (W5_main_arg2 m ρ c),
      (h c main_arg3 (by decide)).trans (W5_main_arg3 m ρ c),
      (h c main_arg4 (by decide)).trans (W5_main_arg4 m ρ c),
      (h c main_arg5 (by decide)).trans (W5_main_arg5 m ρ c),
      (h c main_arg6 (by decide)).trans (W5_main_arg6 m ρ c),
      (h c main_arg7 (by decide)).trans (W5_main_arg7 m ρ c),
      (h c main_arg8 (by decide)).trans (W5_main_arg8 m ρ c),
      (h c main_arg9 (by decide)).trans (W5_main_arg9 m ρ c),
      (h c main_arg10 (by decide)).trans (W5_main_arg10 m ρ c),
      (h c main_arg11 (by decide)).trans (W5_main_arg11 m ρ c),
      (h c main_arg12 (by decide)).trans (W5_main_arg12 m ρ c),
      (h c main_arg13 (by decide)).trans (W5_main_arg13 m ρ c),
      (h c main_arg14 (by decide)).trans (W5_main_arg14 m ρ c)⟩) (run_all m ρ)

end Cert.KernelIdeal.Frame

end
-- ==== Proof.KIValue.lean ====
/-
  What the program's buffers hold where the node kernel and the return read them, at the exact-arithmetic instance.

  The first result is the node kernel's output array; nothing after that region writes it. The node kernel's inputs are: the
  node features (an argument, unchanged), the summed messages (the scatter-add, onto zeros, of the edge kernel's message
  array at the raw row indices), the update weights (an argument; its change of float format is the identity here), and
  three more arguments. The edge kernel's two output arrays are what its pipeline's write-backs leave.
-/
import proofs.«179612_j65618510349072_2_alg».proof.Proof.KIFrame
import Idealize.ShloMosaic.PureOps.Ideal
import Idealize.ShloMosaic.Lib.StableHlo.Run

noncomputable section

namespace Cert.EdgeNode.KIValue

open Cert.KernelIdeal Cert.KernelIdeal.Gen Cert.KernelIdeal.Frame
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first result is the node kernel's output array as its pipeline leaves it. -/
theorem v54_blocks : W5 m ρ c (Proc.devRef .tc main_v54) = (dat1 (V3 m ρ) c).arrAt 6 cfg1.N :=
  (W5_of m ρ c main_v54 (by decide)).trans (W4_arr m ρ c 6 : W4 m ρ c (Proc.devRef .tc main_v54) = _)

/-- The edge kernel's two output arrays after its region. -/
theorem v27_0_blocks : W2 m ρ c (Proc.devRef .tc main_v27_0) = (dat0 (V1 m ρ) c).arrAt 11 cfg0.N :=
  (W2_arr m ρ c 11 : W2 m ρ c (Proc.devRef .tc main_v27_0) = _)
theorem v27_1_blocks : W2 m ρ c (Proc.devRef .tc main_v27_1) = (dat0 (V1 m ρ) c).arrAt 12 cfg0.N :=
  (W2_arr m ρ c 12 : W2 m ρ c (Proc.devRef .tc main_v27_1) = _)

/-- The raw row indices are not touched by the edge kernel's region. -/
theorem v1_kept : W2 m ρ c (Proc.devRef .tc main_v1) = W1 m ρ c (Proc.devRef .tc main_v1) :=
  W2_of_ne m ρ c main_v1 (by decide)

/-- The summed messages the node kernel reads: the scatter-add of the message array onto zeros at the raw row indices. -/
theorem v30_read : W3 m ρ c (Proc.devRef .tc main_v30)
    = Host.scatterAdd (F := Ideal) scatter_S20000x128_S640000x1_S640000x128_1_0_0_1
        (broadcastInDim S20000x128 ![] bcast_S_S20000x128 (constant (F := Ideal) S_ .f32 0x00000000#32))
        (broadcastInDim S640000x1 ![0] bcast_S640000_S640000x1_0 (W2 m ρ c (Proc.devRef .tc main_v1)))
        (W2 m ρ c (Proc.devRef .tc main_v27_0)) := by
  show StableHlo.after hostOps1 _ (Proc.devRef .tc main_v30) = _
  after_results

/-- The update weights the node kernel reads are the argument's: a change of float format is the identity here. -/
theorem v53_read : W3 m ρ c (Proc.devRef .tc main_v53) = m ((c : Thread nD τ).loc main_arg9) := by
  have h : W3 m ρ c (Proc.devRef .tc main_v53) = W2 m ρ c (Proc.devRef .tc main_arg9) := by
    show StableHlo.after hostOps1 _ (Proc.devRef .tc main_v53) = _
    after_results
    try rfl
  exact h.trans <| (W2_of_ne m ρ c main_arg9 (by decide)).trans <| (W1_of m ρ c main_arg9 (by decide)).trans rfl

/-- An argument neither the first two host stretches nor the edge kernel's region touch is as launched at the node kernel's entry. -/
theorem arg0_at3 : W3 m ρ c (Proc.devRef .tc main_arg0) = m ((c : Thread nD τ).loc main_arg0) :=
  (W3_of m ρ c main_arg0 (by decide)).trans <| (W2_of_ne m ρ c main_arg0 (by decide)).trans <| (W1_of m ρ c main_arg0 (by decide)).trans rfl
theorem arg10_at3 : W3 m ρ c (Proc.devRef .tc main_arg10) = m ((c : Thread nD τ).loc main_arg10) :=
  (W3_of m ρ c main_arg10 (by decide)).trans <| (W2_of_ne m ρ c main_arg10 (by decide)).trans <| (W1_of m ρ c main_arg10 (by decide)).trans rfl
theorem arg13_at3 : W3 m ρ c (Proc.devRef .tc main_arg13) = m ((c : Thread nD τ).loc main_arg13) :=
  (W3_of m ρ c main_arg13 (by decide)).trans <| (W2_of_ne m ρ c main_arg13 (by decide)).trans <| (W1_of m ρ c main_arg13 (by decide)).trans rfl
theorem arg14_at3 : W3 m ρ c (Proc.devRef .tc main_arg14) = m ((c : Thread nD τ).loc main_arg14) :=
  (W3_of m ρ c main_arg14 (by decide)).trans <| (W2_of_ne m ρ c main_arg14 (by decide)).trans <| (W1_of m ρ c main_arg14 (by decide)).trans rfl

end Cert.EdgeNode.KIValue

end
-- ==== Proof.Spec.lean ====
/-
  The mathematics both programs compute, written once over the extended reals, row by row.

  An edge's message is a two-layer perceptron of the three 128-vectors it reads (the features of its two end nodes
  and its own attribute): the first layer's weight matrix acts on their concatenation, which is the sum of three
  products with its three 128-row slices; `silu x = x · 1/(1 + e^{-x})`; the vector gate is one more layer on the
  `silu` of the message. A node's update adds to its features a linear layer of the `silu` of the messages summed
  into it, and normalises the row: subtract the mean, divide by the root of the mean square plus a small
  constant, scale and shift.

  Every function here depends on ONE row of each array argument, so the same definitions describe a block of rows
  and the whole array.
-/
import Idealize.ShloMosaic.PureOps.Ideal
import Idealize.ShloMosaic.Lib.ValueIdx

noncomputable section

namespace Cert.EdgeNode.Spec

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Row (a : Nat) : Type := (⟨1, ![a]⟩ : Shape).Idx → EReal

/-- Row `r` of a matrix, as a function of the column. -/
def row {a b : Nat} (x : Mat a b) (r : Fin a) : Fin b → EReal := fun q => x (ix2 r q)

/-- The 128 rows of a 384-row weight matrix that start at row `o`. -/
def wslice (o : Nat) (ho : o + 128 ≤ 384) (W : Mat 384 128) : Mat 128 128 :=
  fun i => W (ix2 (⟨o + (i 0).val, by have h : (i 0).val < 128 := (i 0).isLt; omega⟩ : Fin 384) (i 1))

/-- `silu x = x · logistic x`, with `logistic x = 1 / (1 + e^{-x})`. -/
def silu (x : EReal) : EReal := x * Ideal.logistic x

/-- A linear layer on one row: `(∑ₖ xₖ · W[k, j]) + b[j]`. -/
def lin {K J : Nat} (x : Fin K → EReal) (W : Mat K J) (b : Row J) (j : Fin J) : EReal :=
  (∑ k : Fin K, x k * W (ix2 k j)) + b (ix1 j)

/-- The first layer before its activation: the three partial products added left to right, then the bias. -/
def hid (xr xc xa : Fin 128 → EReal) (Wa Wb Wc : Mat 128 128) (b1 : Row 128) (k : Fin 128) : EReal :=
  ((∑ q : Fin 128, xr q * Wa (ix2 q k) + ∑ q : Fin 128, xc q * Wb (ix2 q k)) + ∑ q : Fin 128, xa q * Wc (ix2 q k))
    + b1 (ix1 k)

/-- An edge's message from its three input rows. -/
def msg (xr xc xa : Fin 128 → EReal) (Wa Wb Wc : Mat 128 128) (b1 : Row 128) (W2 : Mat 128 128) (b2 : Row 128)
    (j : Fin 128) : EReal :=
  lin (fun k => silu (hid xr xc xa Wa Wb Wc b1 k)) W2 b2 j

/-- An edge's vector gate: one more layer on the `silu` of its message. -/
def vgate (xr xc xa : Fin 128 → EReal) (Wa Wb Wc : Mat 128 128) (b1 : Row 128) (W2 : Mat 128 128) (b2 : Row 128)
    (Wv : Mat 128 64) (bv : Row 64) (j : Fin 64) : EReal :=
  lin (fun k => silu (msg xr xc xa Wa Wb Wc b1 W2 b2 k)) Wv bv j

/-- The messages of `E` edges as a matrix. -/
def msgArr {E : Nat} (sr sc ea : Mat E 128) (Wa Wb Wc : Mat 128 128) (b1 : Row 128) (W2 : Mat 128 128) (b2 : Row 128) :
    Mat E 128 :=
  fun i => msg (row sr (i 0)) (row sc (i 0)) (row ea (i 0)) Wa Wb Wc b1 W2 b2 (i 1)

/-- The vector gates of `E` edges as a matrix. -/
def vgArr {E : Nat} (sr sc ea : Mat E 128) (Wa Wb Wc : Mat 128 128) (b1 : Row 128) (W2 : Mat 128 128) (b2 : Row 128)
    (Wv : Mat 128 64) (bv : Row 64) : Mat E 64 :=
  fun i => vgate (row sr (i 0)) (row sc (i 0)) (row ea (i 0)) Wa Wb Wc b1 W2 b2 Wv bv (i 1)

/-- The divisor 128 and the small constant, as the words both programs print. -/
def c128 : EReal := Ideal.ofBits .f32 0x43000000#32
def ceps : EReal := Ideal.ofBits .f32 0x3727C5AC#32

/-- The mean of a row of 128: its sum divided by 128. -/
def mean (x : Fin 128 → EReal) : EReal := Ideal.div (∑ k : Fin 128, x k) c128

/-- A node's features plus the linear layer of the `silu` of what was summed into it. -/
def smid (s o : Fin 128 → EReal) (Ws : Mat 128 128) (bs : Row 128) (j : Fin 128) : EReal :=
  s j + lin (fun k => silu (o k)) Ws bs j

/-- Layer normalisation of a row: `γ[j] · (x[j] − μ) · rsqrt(mean((x − μ)²) + ε) + β[j]`. -/
def lnorm (x : Fin 128 → EReal) (gamma beta : Row 128) (j : Fin 128) : EReal :=
  (gamma (ix1 j) * (x j - mean x)) * Ideal.rsqrt (mean (fun k => (x k - mean x) * (x k - mean x)) + ceps)
    + beta (ix1 j)

/-- The updated node features of `N` nodes as a matrix. -/
def nodeArr {N : Nat} (s o : Mat N 128) (Ws : Mat 128 128) (bs gamma beta : Row 128) : Mat N 128 :=
  fun i => lnorm (smid (row s (i 0)) (row o (i 0)) Ws bs) gamma beta (i 1)

end Cert.EdgeNode.Spec

end
-- ==== Proof.KerPay.lean ====
/-
  The two kernel bodies' stored values, block by block, are the specification's functions of the loaded blocks.

  Each stored value is an expression over whole blocks: matrix products into a zero accumulator, a bias row added to
  every row, `x · logistic x`, and for the node update the row mean, the centred row, its mean square and the
  reciprocal root. Read at one entry `(p, q)`, each of these is an expression in the entries of row `p` of the block
  arguments and of the weight matrices: a matrix product is the sum over the contracted coordinate, a lane sum is the
  sum over the row, a bias row broadcast over the rows is read at its column, and a per-row scalar kept as a one-column
  block is read at its row. What is left is, entry for entry, the specification's row function.
-/
import proofs.«179612_j65618510349072_2_alg».proof.Proof.Spec
import proofs.«179612_j65618510349072_2_alg».proof.Proof.Gen.KernelIdeal.Skeleton
import Idealize.ShloMosaic.Lib.ValueLayout
import Idealize.ShloMosaic.PureOps.Ideal.Laws

noncomputable section

namespace Cert.EdgeNode.KerPay

open Idealize.ShloMosaic Idealize.ShloMosaic.ValueIdx Cert.KernelIdeal Cert.KernelIdeal.Gen Cert.EdgeNode

/-! ## Two column layout forms read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum read at a row -/

/-- The sum along the second axis of an `[a, b]` array, read at row `r`, is the sum of that row's entries. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  refine Fin.ext ?_
  match c with
  | ⟨0, _⟩ => rfl
  | ⟨1, _⟩ => rfl

/-! ## A matrix product into the zero accumulator read at an entry -/

section Matmul
variable {m K n : ℕ} (d : DotDims ⟨2, ![m, K]⟩ ⟨2, ![K, n]⟩ ⟨2, ![m, n]⟩)

/-- With no batch axis and the rows as the left operand's only free axis, the left operand is read on the output's row. -/
theorem lhsIdx_row (hlb : d.lhsBatch = []) (hln : d.lhsNonContracting = [0])
    (j : (⟨2, ![m, n]⟩ : Shape).Idx) (kk : d.contr.Idx) : (d.lhsIdx j kk ⟨0, Nat.zero_lt_two⟩).val = (j ⟨0, Nat.zero_lt_two⟩).val := by
  have hnb : (⟨0, Nat.zero_lt_two⟩ : Fin 2) ∉ d.lhsBatch := by rw [hlb]; exact List.not_mem_nil
  have hn : (⟨0, Nat.zero_lt_two⟩ : Fin 2) ∈ d.lhsNonContracting := by rw [hln]; exact List.mem_singleton.mpr rfl
  unfold DotDims.lhsIdx
  rw [dif_neg hnb, dif_pos hn]
  simp only [Fin.val_cast]
  have key : ∀ (x y : Nat) (hx : x < 2) (hy : y < 2), x = y → (j ⟨x, hx⟩).val = (j ⟨y, hy⟩).val :=
    fun x y hx hy e => by subst e; rfl
  exact key _ _ _ _ (by simp [hlb, hln])

/-- With no batch axis and the columns as the right operand's only free axis, the right operand is read on the output's
column. -/
theorem rhsIdx_col (hlb : d.lhsBatch = []) (hrb : d.rhsBatch = []) (hln : d.lhsNonContracting = [0])
    (hrn : d.rhsNonContracting = [1])
    (j : (⟨2, ![m, n]⟩ : Shape).Idx) (kk : d.contr.Idx) : (d.rhsIdx j kk ⟨1, Nat.one_lt_two⟩).val = (j ⟨1, Nat.one_lt_two⟩).val := by
  have hnb : (⟨1, Nat.one_lt_two⟩ : Fin 2) ∉ d.rhsBatch := by rw [hrb]; exact List.not_mem_nil
  have hn : (⟨1, Nat.one_lt_two⟩ : Fin 2) ∈ d.rhsNonContracting := by rw [hrn]; exact List.mem_singleton.mpr rfl
  unfold DotDims.rhsIdx
  rw [dif_neg hnb, dif_pos hn]
  simp only [Fin.val_cast]
  have key : ∀ (x y : Nat) (hx : x < 2) (hy : y < 2), x = y → (j ⟨x, hx⟩).val = (j ⟨y, hy⟩).val :=
    fun x y hx hy e => by subst e; rfl
  exact key _ _ _ _ (by simp [hlb, hln, hrn])

/-- A product of an `[m, K]` by a `[K, n]` matrix accumulated into zero, read at entry `(p, q)`: the sum over the
contracted coordinate of the row's entries times the column's. -/
theorem matmul_zero_ix2 {φ₁ φ₂ : FTy} (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (hr : d.contr.rank = 1) (hs : d.contr.size ⟨0, by omega⟩ = K)
    (lhs : FVec Ideal ⟨2, ![m, K]⟩ φ₁) (rhs : FVec Ideal ⟨2, ![K, n]⟩ φ₂) (p : Fin m) (q : Fin n) :
    FloatOps.matmul d prec lhs rhs (constant (F := Ideal) ⟨2, ![m, n]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_col d hlb hrb hln hrn _ _)
  rw [el, er]

end Matmul

/-! ## Three more scalar operations read at an index or at the extended reals -/

section Pointwise
variable {s : Shape} {φ : FTy}

/-- The logistic function at an index is the logistic function of the element. -/
theorem logistic_apply (a : FVec Ideal s φ) (i : s.Idx) : logistic a i = Ideal.logistic (a i) := rfl
/-- The reciprocal square root at an index is that of the element. -/
theorem rsqrt_apply (a : FVec Ideal s φ) (i : s.Idx) : rsqrt a i = Ideal.rsqrt (a i) := rfl
/-- A scalar literal at the extended reals is the number its word encodes. -/
theorem scalar_ofBits_eq (b : BitVec φ.bits) : Scalar.ofBits (F := Ideal) φ b = Ideal.ofBits φ b := rfl

end Pointwise

/-! ## The three matrix products of the two kernel bodies -/

theorem matmul_4000_128 {φ₁ φ₂ : FTy} (lhs : FVec Ideal S4000x128 φ₁) (rhs : FVec Ideal S128x128 φ₂) (p : Fin 4000) (q : Fin 128) :
    FloatOps.matmul dot_S4000x128_S128x128_S4000x128_1_0_0_1_n_n none lhs rhs (constant (F := Ideal) S4000x128 .f32 0x00000000#32) (ix2 p q)
      = ∑ k : Fin 128, lhs (ix2 p k) * rhs (ix2 k q) :=
  matmul_zero_ix2 _ none rfl rfl rfl rfl rfl rfl rfl rfl lhs rhs p q

theorem matmul_4000_64 {φ₁ φ₂ : FTy} (lhs : FVec Ideal S4000x128 φ₁) (rhs : FVec Ideal S128x64 φ₂) (p : Fin 4000) (q : Fin 64) :
    FloatOps.matmul dot_S4000x128_S128x64_S4000x64_1_0_0_1_n_n none lhs rhs (constant (F := Ideal) S4000x64 .f32 0x00000000#32) (ix2 p q)
      = ∑ k : Fin 128, lhs (ix2 p k) * rhs (ix2 k q) :=
  matmul_zero_ix2 _ none rfl rfl rfl rfl rfl rfl rfl rfl lhs rhs p q

theorem matmul_2000_128 {φ₁ φ₂ : FTy} (lhs : FVec Ideal S2000x128 φ₁) (rhs : FVec Ideal S128x128 φ₂) (p : Fin 2000) (q : Fin 128) :
    FloatOps.matmul dot_S2000x128_S128x128_S2000x128_1_0_0_1_n_n none lhs rhs (constant (F := Ideal) S2000x128 .f32 0x00000000#32) (ix2 p q)
      = ∑ k : Fin 128, lhs (ix2 p k) * rhs (ix2 k q) :=
  matmul_zero_ix2 _ none rfl rfl rfl rfl rfl rfl rfl rfl lhs rhs p q

/-! ## The node update block -/

theorem k1_pay1_eq (v0 v1 : FVec Ideal S2000x128 .f32) (v6 : FVec Ideal S128x128 .bf16) (v9 v28 v34 : FVec Ideal S128 .f32) :
    k1_pay1 (F := Ideal) v0 v1 v6 v9 v28 v34 = Spec.nodeArr v0 v1 v6 v9 v28 v34 := by
  funext i
  obtain ⟨p, q, rfl⟩ : ∃ (p : Fin 2000) (q : Fin 128), i = ix2 p q := ⟨i 0, i 1, eq_ix2 i⟩
  unfold k1_pay1
  simp only [addf_apply, mulf_apply, subf_apply, divf_apply, truncf_apply, broadcast_apply, logistic_apply, rsqrt_apply,
    scalar_ofBits_eq, shapeCast_self, broadcastTo_1b_ab_apply, shapeCast_a_1a_apply, broadcastTo_a1_ab_apply,
    shapeCast_a_a1_apply, matmul, matmul_2000_128]
  rw [rowSum_apply, rowSum_apply]
  simp only [addf_apply, mulf_apply, subf_apply, divf_apply, truncf_apply, broadcast_apply, logistic_apply, rsqrt_apply,
    scalar_ofBits_eq, shapeCast_self, broadcastTo_1b_ab_apply, shapeCast_a_1a_apply, broadcastTo_a1_ab_apply,
    shapeCast_a_a1_apply, matmul, matmul_2000_128]
  rw [rowSum_apply]
  simp only [addf_apply, mulf_apply, truncf_apply, logistic_apply, shapeCast_self, broadcastTo_1b_ab_apply,
    shapeCast_a_1a_apply, matmul, matmul_2000_128]
  rfl

/-! ## The edge message block and the vector-gate block -/

theorem k0_pay2_eq (v0 v2 : FVec Ideal S4000x128 .bf16) (v4 : FVec Ideal S4000x128 .f32) (v6 v9 v13 : FVec Ideal S128x128 .bf16)
    (v17 : FVec Ideal S128 .f32) (v24 : FVec Ideal S128x128 .bf16) (v27 : FVec Ideal S128 .f32) :
    k0_pay2 (F := Ideal) v0 v2 v4 v6 v9 v13 v17 v24 v27 = Spec.msgArr v0 v2 v4 v6 v9 v13 v17 v24 v27 := by
  funext i
  obtain ⟨p, q, rfl⟩ : ∃ (p : Fin 4000) (q : Fin 128), i = ix2 p q := ⟨i 0, i 1, eq_ix2 i⟩
  unfold k0_pay2
  simp only [addf_apply, mulf_apply, truncf_apply, logistic_apply, shapeCast_self, broadcastTo_1b_ab_apply,
    shapeCast_a_1a_apply, matmul, matmul_4000_128]
  rfl

theorem k0_pay1_eq (v0 v2 : FVec Ideal S4000x128 .bf16) (v4 : FVec Ideal S4000x128 .f32) (v6 v9 v13 : FVec Ideal S128x128 .bf16)
    (v17 : FVec Ideal S128 .f32) (v24 : FVec Ideal S128x128 .bf16) (v27 : FVec Ideal S128 .f32)
    (v35 : FVec Ideal S128x64 .bf16) (v38 : FVec Ideal S64 .f32) :
    k0_pay1 (F := Ideal) (k0_pay3 v0 v2 v4 v6 v9 v13 v17 v24 v27) v35 v38
      = Spec.vgArr v0 v2 v4 v6 v9 v13 v17 v24 v27 v35 v38 := by
  funext i
  obtain ⟨p, q, rfl⟩ : ∃ (p : Fin 4000) (q : Fin 64), i = ix2 p q := ⟨i 0, i 1, eq_ix2 i⟩
  unfold k0_pay1 k0_pay3
  rw [k0_pay2_eq]
  simp only [addf_apply, mulf_apply, truncf_apply, logistic_apply, shapeCast_self, broadcastTo_1b_ab_apply,
    shapeCast_a_1a_apply, matmul, matmul_4000_64]
  rfl

end Cert.EdgeNode.KerPay

end
-- ==== Proof.KIBlocks.lean ====
/-
  From blocks to whole arrays: what each kernel's output array holds after its region.

  At every grid point the body leaves, in an output window's buffer, the specification's function of the input blocks
  at that point. A row window's block at point `t` is the rows `t · size … t · size + size − 1` of its array, and a weight
  or bias window's block is its whole array; the specification's row functions read ONE row of each row array, so the
  block written back at `t` is block `t` of the specification's function of the WHOLE arrays. The output's blocks tile
  its array (row `r` lies in the block of point `r / size`), so after the region the array is that function.
-/
import proofs.«179612_j65618510349072_2_alg».proof.Proof.KIFrame
import proofs.«179612_j65618510349072_2_alg».proof.Proof.KerPay
import Idealize.ShloMosaic.Lib.Pipeline.Value

noncomputable section

namespace Cert.EdgeNode.KIBlocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.EdgeNode

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! # The node kernel -/

/-! ## The node kernel: where each window's block sits -/

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-! ## A node's update depends on that node's row only -/

theorem nodeArr_congr {N M : ℕ} (s o : Spec.Mat N 128) (s' o' : Spec.Mat M 128) (Ws : Spec.Mat 128 128)
    (bs gamma beta : Spec.Row 128) (i : (⟨2, ![N, 128]⟩ : Shape).Idx) (i' : (⟨2, ![M, 128]⟩ : Shape).Idx)
    (hs : Spec.row s (i 0) = Spec.row s' (i' 0)) (ho : Spec.row o (i 0) = Spec.row o' (i' 0))
    (h1 : (i 1).val = (i' 1).val) :
    Spec.nodeArr s o Ws bs gamma beta i = Spec.nodeArr s' o' Ws bs gamma beta i' := by
  have h1' : (i 1 : Fin 128) = (i' 1 : Fin 128) := Fin.ext h1
  show Spec.lnorm (Spec.smid (Spec.row s (i 0)) (Spec.row o (i 0)) Ws bs) gamma beta (i 1)
    = Spec.lnorm (Spec.smid (Spec.row s' (i' 0)) (Spec.row o' (i' 0)) Ws bs) gamma beta (i' 1)
  rw [hs, ho, h1']

/-! ## The node kernel's input blocks, read in their arrays -/

/-- The weight window's block is the whole weight matrix, at every point. -/
theorem iblk1_2_eq (c : Dev nD) (t : Fin cfg1.N) : (iblk1 V c 2 t : S128x128.Idx → EReal) = V c main_v53 := by
  obtain ⟨-, -, -, -, e4, e5, -⟩ := idx_facts1 t
  funext y
  unfold iblk1
  rw [View.read_apply]
  refine congrArg (V c main_v53) ?_
  funext a; apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- The three row windows' blocks are the whole rows. -/
theorem iblk1_3_eq (c : Dev nD) (t : Fin cfg1.N) : (iblk1 V c 3 t : S128.Idx → EReal) = V c main_arg10 := by
  obtain ⟨-, -, -, -, -, -, e6, -⟩ := idx_facts1 t
  funext y
  unfold iblk1
  rw [View.read_apply]
  refine congrArg (V c main_arg10) ?_
  funext a; apply Fin.ext
  match a with
  | ⟨0, _⟩ => show win1_3.index t (0 : Fin 1) * 128 + 1 * (y 0).val = (y 0).val; rw [e6]; omega

theorem iblk1_4_eq (c : Dev nD) (t : Fin cfg1.N) : (iblk1 V c 4 t : S128.Idx → EReal) = V c main_arg13 := by
  obtain ⟨-, -, -, -, -, -, -, e7, -⟩ := idx_facts1 t
  funext y
  unfold iblk1
  rw [View.read_apply]
  refine congrArg (V c main_arg13) ?_
  funext a; apply Fin.ext
  match a with
  | ⟨0, _⟩ => show win1_4.index t (0 : Fin 1) * 128 + 1 * (y 0).val = (y 0).val; rw [e7]; omega

theorem iblk1_5_eq (c : Dev nD) (t : Fin cfg1.N) : (iblk1 V c 5 t : S128.Idx → EReal) = V c main_arg14 := by
  obtain ⟨-, -, -, -, -, -, -, -, e8, -⟩ := idx_facts1 t
  funext y
  unfold iblk1
  rw [View.read_apply]
  refine congrArg (V c main_arg14) ?_
  funext a; apply Fin.ext
  match a with
  | ⟨0, _⟩ => show win1_5.index t (0 : Fin 1) * 128 + 1 * (y 0).val = (y 0).val; rw [e8]; omega

/-- The node-feature window's block at point `t` is rows `2000 t … 2000 t + 1999` of its array. -/
theorem iblk1_0_apply (c : Dev nD) (t : Fin cfg1.N) (x : S2000x128.Idx) (k : S20000x128.Idx)
    (hk0 : (k 0).val = 2000 * t.val + (x 0).val) (hk1 : (k 1).val = (x 1).val) :
    (iblk1 V c 0 t : S2000x128.Idx → EReal) x = (V c main_arg0 : S20000x128.Idx → EReal) k := by
  obtain ⟨e0, e1, -⟩ := idx_facts1 t
  unfold iblk1
  rw [View.read_apply]
  refine congrArg (V c main_arg0) ?_
  funext a; apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- The summed-message window's block likewise. -/
theorem iblk1_1_apply (c : Dev nD) (t : Fin cfg1.N) (x : S2000x128.Idx) (k : S20000x128.Idx)
    (hk0 : (k 0).val = 2000 * t.val + (x 0).val) (hk1 : (k 1).val = (x 1).val) :
    (iblk1 V c 1 t : S2000x128.Idx → EReal) x = (V c main_v30 : S20000x128.Idx → EReal) k := by
  obtain ⟨-, -, e2, e3, -⟩ := idx_facts1 t
  unfold iblk1
  rw [View.read_apply]
  refine congrArg (V c main_v30) ?_
  funext a; apply Fin.ext
  match a with
  | ⟨0, _⟩ => show win1_1.index t (0 : Fin 2) * 2000 + 1 * (x 0).val = (k 0).val; rw [e2, hk0]; omega
  | ⟨1, _⟩ => show win1_1.index t (1 : Fin 2) * 128 + 1 * (x 1).val = (k 1).val; rw [e3, hk1]; omega

/-- What point `t` writes back is block `t` of the updated node features of the whole arrays. -/
theorem flushed1_6_eq (c : Dev nD) (t : Fin cfg1.N) :
    (dat1 (F := Ideal) V c).flushed 6 t = ((cfg1.win 6).blk t).view.read (Elt Ideal)
      (Spec.nodeArr (N := 20000) (V c main_arg0) (V c main_v30) (V c main_v53) (V c main_arg10) (V c main_arg13) (V c main_arg14)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128x128) hz2, View.ld_unit_zero (S := S128) hz1]
  rw [KerPay.k1_pay1_eq, iblk1_2_eq, iblk1_3_eq, iblk1_4_eq, iblk1_5_eq]
  obtain ⟨-, -, -, -, -, -, -, -, -, e9, e10⟩ := idx_facts1 t
  funext j
  rw [View.read_apply]
  refine nodeArr_congr _ _ _ _ _ _ _ _ _ _ ?_ ?_ ?_
  · funext q
    refine iblk1_0_apply V c t _ _ ?_ rfl
    show win1_6.index t (0 : Fin 2) * 2000 + 1 * (j 0).val = 2000 * t.val + (j 0).val
    rw [e9]; omega
  · funext q
    refine iblk1_1_apply V c t _ _ ?_ rfl
    show win1_6.index t (0 : Fin 2) * 2000 + 1 * (j 0).val = 2000 * t.val + (j 0).val
    rw [e9]; omega
  · show (j 1).val = win1_6.index t (1 : Fin 2) * 128 + 1 * (j 1).val
    rw [e10]; omega

/-! ## The node kernel's blocks tile the array -/

/-- An index of the array is in point `t`'s block iff each coordinate is in the block's range on its axis. -/
theorem mem_blk1_6 (t : Fin cfg1.N) (i : S20000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v54).slice (win1_6.rect t)).set ↔ _
  rw [View.set_slice_whole, Rect.mem_set_unit]
  exact Iff.rfl

/-- Row `r` is in the block of point `r / 2000`. -/
theorem cover1_6 (i : S20000x128.Idx) :
    ∃ t : Fin cfg1.N, (cfg1.win 6).flush t = true ∧ i ∈ ((cfg1.win 6).blk t).view.set := by
  have hN : cfg1.N = 10 := N_1
  have hi0 : (i 0).val < 20000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, -, -, -, e9, e10⟩ := idx_facts1 t
  refine ⟨t, flush1_6 t, ?_⟩
  rw [mem_blk1_6]
  intro a
  match a with
  | ⟨0, _⟩ =>
    show win1_6.index t (0 : Fin 2) * 2000 ≤ (i 0).val ∧ (i 0).val < win1_6.index t (0 : Fin 2) * 2000 + 2000
    rw [e9, ht]; omega
  | ⟨1, _⟩ =>
    show win1_6.index t (1 : Fin 2) * 128 ≤ (i 1).val ∧ (i 1).val < win1_6.index t (1 : Fin 2) * 128 + 128
    rw [e10]; omega

/-- (B3) After the node kernel's region, its output array holds the updated node features of the arrays the region found. -/
theorem nodes_final (c : Dev nD) :
    (dat1 (F := Ideal) V c).arrAt 6 cfg1.N
      = Spec.nodeArr (N := 20000) (V c main_arg0) (V c main_v30) (V c main_v53) (V c main_arg10) (V c main_arg13) (V c main_arg14) :=
  (dat1 V c).arrAt_eq_of_cover 6 _ (fun t _ => flushed1_6_eq V c t) (fun i => cover1_6 i)

/-! # The edge kernel -/

/-! ## An edge's message and vector gate depend on that edge's rows only -/

theorem msgArr_congr {E E' : ℕ} (sr sc ea : Spec.Mat E 128) (sr' sc' ea' : Spec.Mat E' 128) (Wa Wb Wc : Spec.Mat 128 128)
    (b1 : Spec.Row 128) (W2 : Spec.Mat 128 128) (b2 : Spec.Row 128)
    (i : (⟨2, ![E, 128]⟩ : Shape).Idx) (i' : (⟨2, ![E', 128]⟩ : Shape).Idx)
    (h0 : Spec.row sr (i 0) = Spec.row sr' (i' 0)) (h1 : Spec.row sc (i 0) = Spec.row sc' (i' 0))
    (h2 : Spec.row ea (i 0) = Spec.row ea' (i' 0)) (hq : (i 1).val = (i' 1).val) :
    Spec.msgArr sr sc ea Wa Wb Wc b1 W2 b2 i = Spec.msgArr sr' sc' ea' Wa Wb Wc b1 W2 b2 i' := by
  have hq' : (i 1 : Fin 128) = (i' 1 : Fin 128) := Fin.ext hq
  show Spec.msg (Spec.row sr (i 0)) (Spec.row sc (i 0)) (Spec.row ea (i 0)) Wa Wb Wc b1 W2 b2 (i 1)
    = Spec.msg (Spec.row sr' (i' 0)) (Spec.row sc' (i' 0)) (Spec.row ea' (i' 0)) Wa Wb Wc b1 W2 b2 (i' 1)
  rw [h0, h1, h2, hq']

theorem vgArr_congr {E E' : ℕ} (sr sc ea : Spec.Mat E 128) (sr' sc' ea' : Spec.Mat E' 128) (Wa Wb Wc : Spec.Mat 128 128)
    (b1 : Spec.Row 128) (W2 : Spec.Mat 128 128) (b2 : Spec.Row 128) (Wv : Spec.Mat 128 64) (bv : Spec.Row 64)
    (i : (⟨2, ![E, 64]⟩ : Shape).Idx) (i' : (⟨2, ![E', 64]⟩ : Shape).Idx)
    (h0 : Spec.row sr (i 0) = Spec.row sr' (i' 0)) (h1 : Spec.row sc (i 0) = Spec.row sc' (i' 0))
    (h2 : Spec.row ea (i 0) = Spec.row ea' (i' 0)) (hq : (i 1).val = (i' 1).val) :
    Spec.vgArr sr sc ea Wa Wb Wc b1 W2 b2 Wv bv i = Spec.vgArr sr' sc' ea' Wa Wb Wc b1 W2 b2 Wv bv i' := by
  have hq' : (i 1 : Fin 64) = (i' 1 : Fin 64) := Fin.ext hq
  show Spec.vgate (Spec.row sr (i 0)) (Spec.row sc (i 0)) (Spec.row ea (i 0)) Wa Wb Wc b1 W2 b2 Wv bv (i 1)
    = Spec.vgate (Spec.row sr' (i' 0)) (Spec.row sc' (i' 0)) (Spec.row ea' (i' 0)) Wa Wb Wc b1 W2 b2 Wv bv (i' 1)
  rw [h0, h1, h2, hq']

/-! ## The edge kernel: where each window's block sits -/

theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

/-! ## The edge kernel's input blocks, read in their arrays -/

/-- Window 3's block is its whole array, at every point. -/
theorem iblk0_3_eq (c : Dev nD) (t : Fin cfg0.N) : (iblk0 V c 3 t : S128x128.Idx → EReal) = V c main_v20 := by
  obtain ⟨-, -, -, -, -, -, w3_0, w3_1, -, -, -, -, -, -, -, -, -, -, -, -, -, -, -⟩ := idx_facts0 t
  funext y
  unfold iblk0
  rw [View.read_apply]
  refine congrArg (V c main_v20) ?_
  funext a; apply Fin.ext
  match a with
  | ⟨0, _⟩ => show win0_3.index t (0 : Fin 2) * 128 + 1 * (y 0).val = (y 0).val; rw [w3_0]; omega
  | ⟨1, _⟩ => show win0_3.index t (1 : Fin 2) * 128 + 1 * (y 1).val = (y 1).val; rw [w3_1]; omega

/-- Window 4's block is its whole array, at every point. -/
theorem iblk0_4_eq (c : Dev nD) (t : Fin cfg0.N) : (iblk0 V c 4 t : S128x128.Idx → EReal) = V c main_v22 := by
  obtain ⟨-, -, -, -, -, -, -, -, w4_0, w4_1, -, -, -, -, -, -, -, -, -, -, -, -, -⟩ := idx_facts0 t
  funext y
  unfold iblk0
  rw [View.read_apply]
  refine congrArg (V c main_v22) ?_
  funext a; apply Fin.ext
  match a with
  | ⟨0, _⟩ => show win0_4.index t (0 : Fin 2) * 128 + 1 * (y 0).val = (y 0).val; rw [w4_0]; omega
  | ⟨1, _⟩ => show win0_4.index t (1 : Fin 2) * 128 + 1 * (y 1).val = (y 1).val; rw [w4_1]; omega

/-- Window 5's block is its whole array, at every point. -/
theorem iblk0_5_eq (c : Dev nD) (t : Fin cfg0.N) : (iblk0 V c 5 t : S128x128.Idx → EReal) = V c main_v24 := by
  obtain ⟨-, -, -, -, -, -, -, -, -, -, w5_0, w5_1, -, -, -, -, -, -, -, -, -, -, -⟩ := idx_facts0 t
  funext y
  unfold iblk0
  rw [View.read_apply]
  refine congrArg (V c main_v24) ?_
  funext a; apply Fin.ext
  match a with
  | ⟨0, _⟩ => show win0_5.index t (0 : Fin 2) * 128 + 1 * (y 0).val = (y 0).val; rw [w5_0]; omega
  | ⟨1, _⟩ => show win0_5.index t (1 : Fin 2) * 128 + 1 * (y 1).val = (y 1).val; rw [w5_1]; omega

/-- Window 6's block is its whole array, at every point. -/
theorem iblk0_6_eq (c : Dev nD) (t : Fin cfg0.N) : (iblk0 V c 6 t : S128.Idx → EReal) = V c main_arg6 := by
  obtain ⟨-, -, -, -, -, -, -, -, -, -, -, -, w6_0, -, -, -, -, -, -, -, -, -, -⟩ := idx_facts0 t
  funext y
  unfold iblk0
  rw [View.read_apply]
  refine congrArg (V c main_arg6) ?_
  funext a; apply Fin.ext
  match a with
  | ⟨0, _⟩ => show win0_6.index t (0 : Fin 1) * 128 + 1 * (y 0).val = (y 0).val; rw [w6_0]; omega

/-- Window 7's block is its whole array, at every point. -/
theorem iblk0_7_eq (c : Dev nD) (t : Fin cfg0.N) : (iblk0 V c 7 t : S128x128.Idx → EReal) = V c main_v25 := by
  obtain ⟨-, -, -, -, -, -, -, -, -, -, -, -, -, w7_0, w7_1, -, -, -, -, -, -, -, -⟩ := idx_facts0 t
  funext y
  unfold iblk0
  rw [View.read_apply]
  refine congrArg (V c main_v25) ?_
  funext a; apply Fin.ext
  match a with
  | ⟨0, _⟩ => show win0_7.index t (0 : Fin 2) * 128 + 1 * (y 0).val = (y 0).val; rw [w7_0]; omega
  | ⟨1, _⟩ => show win0_7.index t (1 : Fin 2) * 128 + 1 * (y 1).val = (y 1).val; rw [w7_1]; omega

/-- Window 8's block is its whole array, at every point. -/
theorem iblk0_8_eq (c : Dev nD) (t : Fin cfg0.N) : (iblk0 V c 8 t : S128.Idx → EReal) = V c main_arg8 := by
  obtain ⟨-, -, -, -, -, -, -, -, -, -, -, -, -, -, -, w8_0, -, -, -, -, -, -, -⟩ := idx_facts0 t
  funext y
  unfold iblk0
  rw [View.read_apply]
  refine congrArg (V c main_arg8) ?_
  funext a; apply Fin.ext
  match a with
  | ⟨0, _⟩ => show win0_8.index t (0 : Fin 1) * 128 + 1 * (y 0).val = (y 0).val; rw [w8_0]; omega

/-- Window 9's block is its whole array, at every point. -/
theorem iblk0_9_eq (c : Dev nD) (t : Fin cfg0.N) : (iblk0 V c 9 t : S128x64.Idx → EReal) = V c main_v26 := by
  obtain ⟨-, -, -, -, -, -, -, -, -, -, -, -, -, -, -, -, w9_0, w9_1, -, -, -, -, -⟩ := idx_facts0 t
  funext y
  unfold iblk0
  rw [View.read_apply]
  refine congrArg (V c main_v26) ?_
  funext a; apply Fin.ext
  match a with
  | ⟨0, _⟩ => show win0_9.index t (0 : Fin 2) * 128 + 1 * (y 0).val = (y 0).val; rw [w9_0]; omega
  | ⟨1, _⟩ => show win0_9.index t (1 : Fin 2) * 64 + 1 * (y 1).val = (y 1).val; rw [w9_1]; omega

/-- Window 10's block is its whole array, at every point. -/
theorem iblk0_10_eq (c : Dev nD) (t : Fin cfg0.N) : (iblk0 V c 10 t : S64.Idx → EReal) = V c main_arg12 := by
  obtain ⟨-, -, -, -, -, -, -, -, -, -, -, -, -, -, -, -, -, -, w10_0, -, -, -, -⟩ := idx_facts0 t
  funext y
  unfold iblk0
  rw [View.read_apply]
  refine congrArg (V c main_arg12) ?_
  funext a; apply Fin.ext
  match a with
  | ⟨0, _⟩ => show win0_10.index t (0 : Fin 1) * 64 + 1 * (y 0).val = (y 0).val; rw [w10_0]; omega

/-- Window 0's block at point `t` is rows `4000 t … 4000 t + 3999` of its array. -/
theorem iblk0_0_apply (c : Dev nD) (t : Fin cfg0.N) (x : S4000x128.Idx) (k : S640000x128.Idx)
    (hk0 : (k 0).val = 4000 * t.val + (x 0).val) (hk1 : (k 1).val = (x 1).val) :
    (iblk0 V c 0 t : S4000x128.Idx → EReal) x = (V c main_v11 : S640000x128.Idx → EReal) k := by
  obtain ⟨r0a, r0b, -, -, -, -, -, -, -, -, -, -, -, -, -, -, -, -, -, -, -, -, -⟩ := idx_facts0 t
  unfold iblk0
  rw [View.read_apply]
  refine congrArg (V c main_v11) ?_
  funext a; apply Fin.ext
  match a with
  | ⟨0, _⟩ => show win0_0.index t (0 : Fin 2) * 4000 + 1 * (x 0).val = (k 0).val; rw [r0a, hk0]; omega
  | ⟨1, _⟩ => show win0_0.index t (1 : Fin 2) * 128 + 1 * (x 1).val = (k 1).val; rw [r0b, hk1]; omega

/-- Window 1's block at point `t` is rows `4000 t … 4000 t + 3999` of its array. -/
theorem iblk0_1_apply (c : Dev nD) (t : Fin cfg0.N) (x : S4000x128.Idx) (k : S640000x128.Idx)
    (hk0 : (k 0).val = 4000 * t.val + (x 0).val) (hk1 : (k 1).val = (x 1).val) :
    (iblk0 V c 1 t : S4000x128.Idx → EReal) x = (V c main_v18 : S640000x128.Idx → EReal) k := by
  obtain ⟨-, -, r1a, r1b, -, -, -, -, -, -, -, -, -, -, -, -, -, -, -, -, -, -, -⟩ := idx_facts0 t
  unfold iblk0
  rw [View.read_apply]
  refine congrArg (V c main_v18) ?_
  funext a; apply Fin.ext
  match a with
  | ⟨0, _⟩ => show win0_1.index t (0 : Fin 2) * 4000 + 1 * (x 0).val = (k 0).val; rw [r1a, hk0]; omega
  | ⟨1, _⟩ => show win0_1.index t (1 : Fin 2) * 128 + 1 * (x 1).val = (k 1).val; rw [r1b, hk1]; omega

/-- Window 2's block at point `t` is rows `4000 t … 4000 t + 3999` of its array. -/
theorem iblk0_2_apply (c : Dev nD) (t : Fin cfg0.N) (x : S4000x128.Idx) (k : S640000x128.Idx)
    (hk0 : (k 0).val = 4000 * t.val + (x 0).val) (hk1 : (k 1).val = (x 1).val) :
    (iblk0 V c 2 t : S4000x128.Idx → EReal) x = (V c main_arg3 : S640000x128.Idx → EReal) k := by
  obtain ⟨-, -, -, -, r2a, r2b, -, -, -, -, -, -, -, -, -, -, -, -, -, -, -, -, -⟩ := idx_facts0 t
  unfold iblk0
  rw [View.read_apply]
  refine congrArg (V c main_arg3) ?_
  funext a; apply Fin.ext
  match a with
  | ⟨0, _⟩ => show win0_2.index t (0 : Fin 2) * 4000 + 1 * (x 0).val = (k 0).val; rw [r2a, hk0]; omega
  | ⟨1, _⟩ => show win0_2.index t (1 : Fin 2) * 128 + 1 * (x 1).val = (k 1).val; rw [r2b, hk1]; omega

/-- What point `t` writes back to the message array is block `t` of the messages of the whole arrays. -/
theorem flushed0_11_eq (c : Dev nD) (t : Fin cfg0.N) :
    (dat0 (F := Ideal) V c).flushed 11 t = ((cfg0.win 11).blk t).view.read (Elt Ideal)
      (Spec.msgArr (E := 640000) (V c main_v11) (V c main_v18) (V c main_arg3) (V c main_v20) (V c main_v22) (V c main_v24) (V c main_arg6) (V c main_v25) (V c main_arg8)) := by
  show (cfg0.win 11).cut (grid0.coords t) ((dat0 V c).after 11 t) = _
  rw [after0_11]
  unfold out0_11
  rw [View.canon_unit_zero hz2]
  simp only [View.ld_unit_zero (S := S4000x128) hz2, View.ld_unit_zero (S := S128x128) hz2, View.ld_unit_zero (S := S128) hz1]
  rw [KerPay.k0_pay2_eq, iblk0_3_eq, iblk0_4_eq, iblk0_5_eq, iblk0_6_eq, iblk0_7_eq, iblk0_8_eq]
  obtain ⟨-, -, -, -, -, -, -, -, -, -, -, -, -, -, -, -, -, -, -, o11a, o11b, -, -⟩ := idx_facts0 t
  funext j
  rw [View.read_apply]
  refine msgArr_congr _ _ _ _ _ _ _ _ _ _ _ _ _ _ ?_ ?_ ?_ ?_
  · funext q
    refine iblk0_0_apply V c t _ _ ?_ rfl
    show win0_11.index t (0 : Fin 2) * 4000 + 1 * (j 0).val = 4000 * t.val + (j 0).val
    rw [o11a]; omega
  · funext q
    refine iblk0_1_apply V c t _ _ ?_ rfl
    show win0_11.index t (0 : Fin 2) * 4000 + 1 * (j 0).val = 4000 * t.val + (j 0).val
    rw [o11a]; omega
  · funext q
    refine iblk0_2_apply V c t _ _ ?_ rfl
    show win0_11.index t (0 : Fin 2) * 4000 + 1 * (j 0).val = 4000 * t.val + (j 0).val
    rw [o11a]; omega
  · show (j 1).val = win0_11.index t (1 : Fin 2) * 128 + 1 * (j 1).val
    rw [o11b]; omega

/-- What point `t` writes back to the vector-gate array is block `t` of the vector gates of the whole arrays. -/
theorem flushed0_12_eq (c : Dev nD) (t : Fin cfg0.N) :
    (dat0 (F := Ideal) V c).flushed 12 t = ((cfg0.win 12).blk t).view.read (Elt Ideal)
      (Spec.vgArr (E := 640000) (V c main_v11) (V c main_v18) (V c main_arg3) (V c main_v20) (V c main_v22) (V c main_v24) (V c main_arg6) (V c main_v25) (V c main_arg8) (V c main_v26) (V c main_arg12)) := by
  show (cfg0.win 12).cut (grid0.coords t) ((dat0 V c).after 12 t) = _
  rw [after0_12]
  unfold out0_12
  rw [View.canon_unit_zero hz2]
  simp only [View.ld_unit_zero (S := S4000x128) hz2, View.ld_unit_zero (S := S128x128) hz2, View.ld_unit_zero (S := S128) hz1,
    View.ld_unit_zero (S := S128x64) hz2, View.ld_unit_zero (S := S64) hz1]
  rw [KerPay.k0_pay1_eq, iblk0_3_eq, iblk0_4_eq, iblk0_5_eq, iblk0_6_eq, iblk0_7_eq, iblk0_8_eq, iblk0_9_eq, iblk0_10_eq]
  obtain ⟨-, -, -, -, -, -, -, -, -, -, -, -, -, -, -, -, -, -, -, -, -, o12a, o12b⟩ := idx_facts0 t
  funext j
  rw [View.read_apply]
  refine vgArr_congr _ _ _ _ _ _ _ _ _ _ _ _ _ _ _ _ ?_ ?_ ?_ ?_
  · funext q
    refine iblk0_0_apply V c t _ _ ?_ rfl
    show win0_12.index t (0 : Fin 2) * 4000 + 1 * (j 0).val = 4000 * t.val + (j 0).val
    rw [o12a]; omega
  · funext q
    refine iblk0_1_apply V c t _ _ ?_ rfl
    show win0_12.index t (0 : Fin 2) * 4000 + 1 * (j 0).val = 4000 * t.val + (j 0).val
    rw [o12a]; omega
  · funext q
    refine iblk0_2_apply V c t _ _ ?_ rfl
    show win0_12.index t (0 : Fin 2) * 4000 + 1 * (j 0).val = 4000 * t.val + (j 0).val
    rw [o12a]; omega
  · show (j 1).val = win0_12.index t (1 : Fin 2) * 64 + 1 * (j 1).val
    rw [o12b]; omega

/-! ## The edge kernel's blocks tile each output array -/

/-- An index of the array is in point `t`'s block iff each coordinate is in the block's range on its axis. -/
theorem mem_blk0_11 (t : Fin cfg0.N) (i : S640000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v27_0).slice (win0_11.rect t)).set ↔ _
  rw [View.set_slice_whole, Rect.mem_set_unit]
  exact Iff.rfl

/-- Row `r` is in the block of point `r / 4000`. -/
theorem cover0_11 (i : S640000x128.Idx) :
    ∃ t : Fin cfg0.N, (cfg0.win 11).flush t = true ∧ i ∈ ((cfg0.win 11).blk t).view.set := by
  have hN : cfg0.N = 160 := N_0
  have hi0 : (i 0).val < 640000 := (i 0).isLt
  have hi1 : (i 1).val < 128 := (i 1).isLt
  obtain ⟨t, ht⟩ : ∃ t : Fin cfg0.N, t.val = (i 0).val / 4000 := ⟨⟨(i 0).val / 4000, by rw [hN]; omega⟩, rfl⟩
  obtain ⟨-, -, -, -, -, -, -, -, -, -, -, -, -, -, -, -, -, -, -, o11a, o11b, -, -⟩ := idx_facts0 t
  refine ⟨t, flush0_11 t, ?_⟩
  rw [mem_blk0_11]
  intro a
  match a with
  | ⟨0, _⟩ =>
    show win0_11.index t (0 : Fin 2) * 4000 ≤ (i 0).val ∧ (i 0).val < win0_11.index t (0 : Fin 2) * 4000 + 4000
    rw [o11a, ht]; omega
  | ⟨1, _⟩ =>
    show win0_11.index t (1 : Fin 2) * 128 ≤ (i 1).val ∧ (i 1).val < win0_11.index t (1 : Fin 2) * 128 + 128
    rw [o11b]; omega

/-- An index of the array is in point `t`'s block iff each coordinate is in the block's range on its axis. -/
theorem mem_blk0_12 (t : Fin cfg0.N) (i : S640000x64.Idx) :
    i ∈ ((cfg0.win 12).blk t).view.set ↔ ∀ a : Fin 2, win0_12.index t a * S4000x64.size a ≤ (i a).val
      ∧ (i a).val < win0_12.index t a * S4000x64.size a + S4000x64.size a := by
  show i ∈ ((View.whole main_v27_1).slice (win0_12.rect t)).set ↔ _
  rw [View.set_slice_whole, Rect.mem_set_unit]
  exact Iff.rfl

/-- Row `r` is in the block of point `r / 4000`. -/
theorem cover0_12 (i : S640000x64.Idx) :
    ∃ t : Fin cfg0.N, (cfg0.win 12).flush t = true ∧ i ∈ ((cfg0.win 12).blk t).view.set := by
  have hN : cfg0.N = 160 := N_0
  have hi0 : (i 0).val < 640000 := (i 0).isLt
  have hi1 : (i 1).val < 64 := (i 1).isLt
  obtain ⟨t, ht⟩ : ∃ t : Fin cfg0.N, t.val = (i 0).val / 4000 := ⟨⟨(i 0).val / 4000, by rw [hN]; omega⟩, rfl⟩
  obtain ⟨-, -, -, -, -, -, -, -, -, -, -, -, -, -, -, -, -, -, -, -, -, o12a, o12b⟩ := idx_facts0 t
  refine ⟨t, flush0_12 t, ?_⟩
  rw [mem_blk0_12]
  intro a
  match a with
  | ⟨0, _⟩ =>
    show win0_12.index t (0 : Fin 2) * 4000 ≤ (i 0).val ∧ (i 0).val < win0_12.index t (0 : Fin 2) * 4000 + 4000
    rw [o12a, ht]; omega
  | ⟨1, _⟩ =>
    show win0_12.index t (1 : Fin 2) * 64 ≤ (i 1).val ∧ (i 1).val < win0_12.index t (1 : Fin 2) * 64 + 64
    rw [o12b]; omega

/-- (B1) After the edge kernel's region, the message array holds the messages of the arrays the region found. -/
theorem msgs_final (c : Dev nD) :
    (dat0 (F := Ideal) V c).arrAt 11 cfg0.N = Spec.msgArr (E := 640000) (V c main_v11) (V c main_v18) (V c main_arg3) (V c main_v20) (V c main_v22) (V c main_v24) (V c main_arg6) (V c main_v25) (V c main_arg8) :=
  (dat0 V c).arrAt_eq_of_cover 11 _ (fun t _ => flushed0_11_eq V c t) (fun i => cover0_11 i)

/-- (B2) and the vector-gate array holds their vector gates. -/
theorem vgs_final (c : Dev nD) :
    (dat0 (F := Ideal) V c).arrAt 12 cfg0.N = Spec.vgArr (E := 640000) (V c main_v11) (V c main_v18) (V c main_arg3) (V c main_v20) (V c main_v22) (V c main_v24) (V c main_arg6) (V c main_v25) (V c main_arg8) (V c main_v26) (V c main_arg12) :=
  (dat0 V c).arrAt_eq_of_cover 12 _ (fun t _ => flushed0_12_eq V c t) (fun i => cover0_12 i)

end Cert.EdgeNode.KIBlocks

end
-- ==== Proof.KIHost.lean ====
import proofs.«179612_j65618510349072_2_alg».proof.Proof.KIFrame
import proofs.«179612_j65618510349072_2_alg».proof.Proof.RefRead
import proofs.«179612_j65618510349072_2_alg».proof.Proof.Spec
import Idealize.ShloMosaic.PureOps.Ideal
import Idealize.ShloMosaic.Lib.StableHlo.Run
import Idealize.ShloMosaic.Lib.Pipeline.Value
import Idealize.ShloMosaic.Lib.ValueIdx

/-
  What the edge kernel finds in the arrays the first host stretch prepares.

  Before the edge kernel the program runs a stretch of host operations: it slices the two rows of the edge index,
  gathers the node features along each, cuts the first weight matrix into its three 128-row slices, and narrows the
  matrices to a shorter float format. Over the extended reals a format change is the identity, so each of these arrays
  is a plain function of the launch arrays: the gathered arrays are the reference program's own two gathers (the same
  operations on the same index rows), a slice read at row `q`, column `k` is the matrix at row `o + q`, column `k`,
  and a narrowed matrix is the matrix. The arrays the stretch does not write are as launched.
-/

set_option maxRecDepth 16384

noncomputable section

namespace Cert.EdgeNode.KIHost

open Idealize.ShloMosaic Idealize.ShloMosaic.TcCoe Idealize.ShloMosaic.ValueIdx
open Idealize.SL Idealize.SL.Sem
open Cert.KernelIdeal Cert.KernelIdeal.Gen Cert.KernelIdeal.Frame
open Cert.EdgeNode

variable (m : (ℓ : Loc nD τ sig) → Buf (Elt Ideal) ℓ) (ρ : Dev nD → PrngReg) (c : Dev nD)

/-! ## The arguments the first host stretch does not write -/

/-- The edge attributes are as launched. -/
theorem arg3_eq : W1 m ρ c (Proc.devRef .tc main_arg3) = m ((c.tc : Thread nD τ).loc main_arg3) :=
  (W1_of m ρ c main_arg3 (by decide)).trans rfl
/-- The first bias is as launched. -/
theorem arg6_eq : W1 m ρ c (Proc.devRef .tc main_arg6) = m ((c.tc : Thread nD τ).loc main_arg6) :=
  (W1_of m ρ c main_arg6 (by decide)).trans rfl
/-- The second bias is as launched. -/
theorem arg8_eq : W1 m ρ c (Proc.devRef .tc main_arg8) = m ((c.tc : Thread nD τ).loc main_arg8) :=
  (W1_of m ρ c main_arg8 (by decide)).trans rfl
/-- The gate's bias is as launched. -/
theorem arg12_eq : W1 m ρ c (Proc.devRef .tc main_arg12) = m ((c.tc : Thread nD τ).loc main_arg12) :=
  (W1_of m ρ c main_arg12 (by decide)).trans rfl

/-! ## The narrowed weight matrices: a format change is the identity on extended reals -/

/-- The second weight matrix, narrowed, is the matrix. -/
theorem v25_eq : (W1 m ρ c (Proc.devRef .tc main_v25) : S128x128.Idx → EReal) = ((m ((c.tc : Thread nD τ).loc main_arg7)) : S128x128.Idx → EReal) := by
  show StableHlo.after hostOps0 _ (Proc.devRef .tc main_v25) = _
  after_results
  rfl
/-- The gate's weight matrix, narrowed, is the matrix. -/
theorem v26_eq : (W1 m ρ c (Proc.devRef .tc main_v26) : S128x64.Idx → EReal) = ((m ((c.tc : Thread nD τ).loc main_arg11)) : S128x64.Idx → EReal) := by
  show StableHlo.after hostOps0 _ (Proc.devRef .tc main_v26) = _
  after_results
  rfl

/-! ## The row indices -/

/-- The first row of the edge index, as a vector: the same slice and reshape as the reference's. -/
theorem v1_eq : (W1 m ρ c (Proc.devRef .tc main_v1) : S640000.Idx → BitVec 32)
    = Cert.ReferenceIdeal.Read.val_main_v1 (F := Ideal) (m ((c.tc : Thread nD τ).loc main_arg2)) := by
  show StableHlo.after hostOps0 _ (Proc.devRef .tc main_v1) = _
  after_results
  rfl

/-! ## The two gathers -/

/-- The node features gathered along the first index row: the reference's first gather (the same operations on the
    same index row). -/
theorem v11_eq : (W1 m ρ c (Proc.devRef .tc main_v11) : S640000x128.Idx → EReal)
    = Cert.ReferenceIdeal.Read.val_main_v10 (F := Ideal) (m ((c.tc : Thread nD τ).loc main_arg0)) (m ((c.tc : Thread nD τ).loc main_arg2)) := by
  show StableHlo.after hostOps0 _ (Proc.devRef .tc main_v11) = _
  after_results
  rfl
/-- The node features gathered along the second index row: the reference's second gather. -/
theorem v18_eq : (W1 m ρ c (Proc.devRef .tc main_v18) : S640000x128.Idx → EReal)
    = Cert.ReferenceIdeal.Read.val_main_v17 (F := Ideal) (m ((c.tc : Thread nD τ).loc main_arg0)) (m ((c.tc : Thread nD τ).loc main_arg2)) := by
  show StableHlo.after hostOps0 _ (Proc.devRef .tc main_v18) = _
  after_results_simp
  rfl

/-! ## The three 128-row slices of the first weight matrix -/

/-- Rows 0 to 127 of the first weight matrix. -/
theorem v20_eq : (W1 m ρ c (Proc.devRef .tc main_v20) : S128x128.Idx → EReal) = Spec.wslice 0 (by decide) (m ((c.tc : Thread nD τ).loc main_arg5)) := by
  show StableHlo.after hostOps0 _ (Proc.devRef .tc main_v20) = _
  after_results_simp
  funext i
  obtain ⟨q, k, rfl⟩ : ∃ (q k : Fin 128), i = ix2 q k := ⟨i 0, i 1, eq_ix2 i⟩
  exact extractStridedSlice_apply ![0, 0] _ slices_S384x128_S128x128_0_0 (ix2 q k) (ix2 (⟨0 + q.val, by have := q.isLt; omega⟩ : Fin 384) k)
    (fun a => match a with | ⟨0, _⟩ => rfl | ⟨1, _⟩ => by show k.val = 0 + k.val; omega)
/-- Rows 128 to 255 of the first weight matrix. -/
theorem v22_eq : (W1 m ρ c (Proc.devRef .tc main_v22) : S128x128.Idx → EReal) = Spec.wslice 128 (by decide) (m ((c.tc : Thread nD τ).loc main_arg5)) := by
  show StableHlo.after hostOps0 _ (Proc.devRef .tc main_v22) = _
  after_results_simp
  funext i
  obtain ⟨q, k, rfl⟩ : ∃ (q k : Fin 128), i = ix2 q k := ⟨i 0, i 1, eq_ix2 i⟩
  exact extractStridedSlice_apply ![128, 0] _ slices_S384x128_S128x128_128_0 (ix2 q k) (ix2 (⟨128 + q.val, by have := q.isLt; omega⟩ : Fin 384) k)
    (fun a => match a with | ⟨0, _⟩ => rfl | ⟨1, _⟩ => by show k.val = 0 + k.val; omega)
/-- Rows 256 to 383 of the first weight matrix. -/
theorem v24_eq : (W1 m ρ c (Proc.devRef .tc main_v24) : S128x128.Idx → EReal) = Spec.wslice 256 (by decide) (m ((c.tc : Thread nD τ).loc main_arg5)) := by
  show StableHlo.after hostOps0 _ (Proc.devRef .tc main_v24) = _
  after_results_simp
  funext i
  obtain ⟨q, k, rfl⟩ : ∃ (q k : Fin 128), i = ix2 q k := ⟨i 0, i 1, eq_ix2 i⟩
  exact extractStridedSlice_apply ![256, 0] _ slices_S384x128_S128x128_256_0 (ix2 q k) (ix2 (⟨256 + q.val, by have := q.isLt; omega⟩ : Fin 384) k)
    (fun a => match a with | ⟨0, _⟩ => rfl | ⟨1, _⟩ => by show k.val = 0 + k.val; omega)

end Cert.EdgeNode.KIHost

end
-- ==== Proof.VecScatter.lean ====
/-
  Three 2-D scatter-adds stacked on a new last axis are one 3-D scatter-add.

  For each component k = 0, 1, 2 of the edges' unit vectors, one program adds, into row n of a 20000 × 64 array of zeros,
  the rows  gate (e, ·) · unit (e, k)  of the edges e whose index word is n, and stacks the three results along a new last
  axis. The other adds the outer products  gate (e, a) · unit (e, k)  into a 20000 × 64 × 3 array of zeros in one scatter.
  At (n, a, k) both are the sum over the edges whose index word, read signed, is n of  gate (e, a) · unit (e, k):
  an update (e, a) of the k-th 2-D scatter lands on (n, a) exactly when the update (e, a, k) of the 3-D scatter lands on
  (n, a, k), so the two sums correspond term by term. Only the commutative-monoid structure of the sums is used.
-/
import proofs.«179612_j65618510349072_2_alg».proof.KernelIdeal
import proofs.«179612_j65618510349072_2_alg».proof.ReferenceIdeal
import Idealize.ShloMosaic.PureOps.Ideal
import Idealize.ShloMosaic.Lib.ValueIdx
import Idealize.ShloMosaic.Lib.Pipeline.Value

noncomputable section

namespace Cert.EdgeNode.VecScatter

open Idealize.ShloMosaic Idealize.ShloMosaic.ValueIdx

theorem fin2_cases (a : Fin 2) : a = 0 ∨ a = 1 := by
  match a with
  | ⟨0, _⟩ => exact Or.inl rfl
  | ⟨1, _⟩ => exact Or.inr rfl

theorem fin3_cases (a : Fin 3) : a = 0 ∨ a = 1 ∨ a = 2 := by
  match a with
  | ⟨0, _⟩ => exact Or.inl rfl
  | ⟨1, _⟩ => exact Or.inr (Or.inl rfl)
  | ⟨2, _⟩ => exact Or.inr (Or.inr rfl)

section
variable [Cert.KernelIdeal.Facts₀]
open Cert.KernelIdeal in
/-- The 2-D scatter's dimension numbers: window axis 1, index axis 0. -/
abbrev d2 : ScatterDims S20000x64 S640000x1 S640000x64 := scatter_S20000x64_S640000x1_S640000x64_1_0_0_1

/-- The start index of an update `(e, a)` is read at `(e, 0)` of the scatter indices. -/
theorem d2_siIdx (j : Cert.KernelIdeal.S640000x64.Idx) (c : Fin d2.scatterDimsToOperandDims.length) :
    d2.siIdx j c = ix2 (j 0) 0 := by
  funext b
  match b with
  | ⟨0, _⟩ => rfl
  | ⟨1, _⟩ =>
    apply Fin.ext
    have hc : c.val < 1 := c.isLt
    show c.val = 0
    omega

theorem d2_start0 {w : Nat} (j : Cert.KernelIdeal.S640000x64.Idx) (idx : IVec Cert.KernelIdeal.S640000x1 w) :
    d2.start j idx 0 = (idx (ix2 (j 0) 0)).toInt := by
  unfold ScatterDims.start
  have h0 : (0 : Fin Cert.KernelIdeal.S20000x64.rank) ∈ d2.scatterDimsToOperandDims := by
    show (0 : Fin 2) ∈ ([0] : List (Fin 2)); decide
  rw [dif_pos h0, d2_siIdx]
  rfl

theorem d2_start1 {w : Nat} (j : Cert.KernelIdeal.S640000x64.Idx) (idx : IVec Cert.KernelIdeal.S640000x1 w) :
    d2.start j idx 1 = 0 := by
  unfold ScatterDims.start
  have h0 : ¬ (1 : Fin Cert.KernelIdeal.S20000x64.rank) ∈ d2.scatterDimsToOperandDims := by
    show ¬ (1 : Fin 2) ∈ ([0] : List (Fin 2)); decide
  rw [dif_neg h0]

theorem d2_window0 (j : Cert.KernelIdeal.S640000x64.Idx) : d2.window j 0 = 0 := by
  unfold ScatterDims.window
  have h0 : ¬ (0 : Fin Cert.KernelIdeal.S20000x64.rank) ∈ d2.sKept := by
    show ¬ (0 : Fin 2) ∈ (Shape.kept ⟨2, ![20000, 64]⟩ ([0] : List (Fin 2))); decide
  rw [dif_neg h0]

theorem d2_window1 (j : Cert.KernelIdeal.S640000x64.Idx) : d2.window j 1 = (j 1).val := by
  unfold ScatterDims.window
  have h0 : (1 : Fin Cert.KernelIdeal.S20000x64.rank) ∈ d2.sKept := by
    show (1 : Fin 2) ∈ (Shape.kept ⟨2, ![20000, 64]⟩ ([0] : List (Fin 2))); decide
  rw [dif_pos h0]
  rfl

/-- An update of the 2-D scatter lands on `i` exactly when its edge's index word, read signed, is `i`'s row and its
    column is `i`'s column. -/
theorem d2_resultIdx {w : Nat} (j : Cert.KernelIdeal.S640000x64.Idx) (idx : IVec Cert.KernelIdeal.S640000x1 w)
    (i : Cert.KernelIdeal.S20000x64.Idx) :
    d2.resultIdx? j idx = some i ↔ (idx (ix2 (j 0) 0)).toInt = ((i 0).val : Int) ∧ (j 1).val = (i 1).val := by
  have hi0 : (i 0).val < 20000 := (i 0).isLt
  have hi1 : (i 1).val < 64 := (i 1).isLt
  have hj1 : (j 1).val < 64 := (j 1).isLt
  unfold ScatterDims.resultIdx?
  split
  · next h =>
    rw [Option.some.injEq]
    constructor
    · intro e
      have e0 := congrArg (fun f => ((f 0).val : Int)) e
      have e1 := congrArg (fun f => (f 1).val) e
      have h0 := h 0
      simp only [d2_start0, d2_window0, d2_start1, d2_window1] at e0 e1 h0
      constructor <;> omega
    · rintro ⟨hx, hj⟩
      funext a
      apply Fin.ext
      rcases fin2_cases a with rfl | rfl
      · show (d2.start j idx 0 + ((d2.window j 0 : Nat) : Int)).toNat = (i 0).val
        rw [d2_start0, d2_window0]; omega
      · show (d2.start j idx 1 + ((d2.window j 1 : Nat) : Int)).toNat = (i 1).val
        rw [d2_start1, d2_window1]; omega
  · next h =>
    constructor
    · intro e; cases e
    · rintro ⟨hx, hj⟩
      exfalso; apply h; intro a
      rcases fin2_cases a with rfl | rfl
      · show 0 ≤ d2.start j idx 0 + ((d2.window j 0 : Nat) : Int) ∧ d2.start j idx 0 + ((d2.window j 0 : Nat) : Int) < ((20000 : Nat) : Int)
        rw [d2_start0, d2_window0]; omega
      · show 0 ≤ d2.start j idx 1 + ((d2.window j 1 : Nat) : Int) ∧ d2.start j idx 1 + ((d2.window j 1 : Nat) : Int) < ((64 : Nat) : Int)
        rw [d2_start1, d2_window1]; omega
end

section
variable [Cert.ReferenceIdeal.Facts₀]
open Cert.ReferenceIdeal in
/-- The 3-D scatter's dimension numbers: window axes 1 and 2, index axis 0. -/
abbrev d3 : ScatterDims S20000x64x3 S640000x1 S640000x64x3 := scatter_S20000x64x3_S640000x1_S640000x64x3_12_0_0_1

theorem d3_siIdx (j : Cert.ReferenceIdeal.S640000x64x3.Idx) (c : Fin d3.scatterDimsToOperandDims.length) :
    d3.siIdx j c = ix2 (j 0) 0 := by
  funext b
  match b with
  | ⟨0, _⟩ => rfl
  | ⟨1, _⟩ =>
    apply Fin.ext
    have hc : c.val < 1 := c.isLt
    show c.val = 0
    omega

theorem d3_start0 {w : Nat} (j : Cert.ReferenceIdeal.S640000x64x3.Idx) (idx : IVec Cert.ReferenceIdeal.S640000x1 w) :
    d3.start j idx 0 = (idx (ix2 (j 0) 0)).toInt := by
  unfold ScatterDims.start
  have h0 : (0 : Fin Cert.ReferenceIdeal.S20000x64x3.rank) ∈ d3.scatterDimsToOperandDims := by
    show (0 : Fin 3) ∈ ([0] : List (Fin 3)); decide
  rw [dif_pos h0, d3_siIdx]
  rfl

theorem d3_start1 {w : Nat} (j : Cert.ReferenceIdeal.S640000x64x3.Idx) (idx : IVec Cert.ReferenceIdeal.S640000x1 w) :
    d3.start j idx 1 = 0 := by
  unfold ScatterDims.start
  have h0 : ¬ (1 : Fin Cert.ReferenceIdeal.S20000x64x3.rank) ∈ d3.scatterDimsToOperandDims := by
    show ¬ (1 : Fin 3) ∈ ([0] : List (Fin 3)); decide
  rw [dif_neg h0]

theorem d3_start2 {w : Nat} (j : Cert.ReferenceIdeal.S640000x64x3.Idx) (idx : IVec Cert.ReferenceIdeal.S640000x1 w) :
    d3.start j idx 2 = 0 := by
  unfold ScatterDims.start
  have h0 : ¬ (2 : Fin Cert.ReferenceIdeal.S20000x64x3.rank) ∈ d3.scatterDimsToOperandDims := by
    show ¬ (2 : Fin 3) ∈ ([0] : List (Fin 3)); decide
  rw [dif_neg h0]

theorem d3_window0 (j : Cert.ReferenceIdeal.S640000x64x3.Idx) : d3.window j 0 = 0 := by
  unfold ScatterDims.window
  have h0 : ¬ (0 : Fin Cert.ReferenceIdeal.S20000x64x3.rank) ∈ d3.sKept := by
    show ¬ (0 : Fin 3) ∈ (Shape.kept ⟨3, ![20000, 64, 3]⟩ ([0] : List (Fin 3))); decide
  rw [dif_neg h0]

theorem d3_window1 (j : Cert.ReferenceIdeal.S640000x64x3.Idx) : d3.window j 1 = (j 1).val := by
  unfold ScatterDims.window
  have h0 : (1 : Fin Cert.ReferenceIdeal.S20000x64x3.rank) ∈ d3.sKept := by
    show (1 : Fin 3) ∈ (Shape.kept ⟨3, ![20000, 64, 3]⟩ ([0] : List (Fin 3))); decide
  rw [dif_pos h0]
  rfl

theorem d3_window2 (j : Cert.ReferenceIdeal.S640000x64x3.Idx) : d3.window j 2 = (j 2).val := by
  unfold ScatterDims.window
  have h0 : (2 : Fin Cert.ReferenceIdeal.S20000x64x3.rank) ∈ d3.sKept := by
    show (2 : Fin 3) ∈ (Shape.kept ⟨3, ![20000, 64, 3]⟩ ([0] : List (Fin 3))); decide
  rw [dif_pos h0]
  rfl

/-- An update of the 3-D scatter lands on `i` exactly when its edge's index word, read signed, is `i`'s row and its
    two window coordinates are `i`'s. -/
theorem d3_resultIdx {w : Nat} (j : Cert.ReferenceIdeal.S640000x64x3.Idx) (idx : IVec Cert.ReferenceIdeal.S640000x1 w)
    (i : Cert.ReferenceIdeal.S20000x64x3.Idx) :
    d3.resultIdx? j idx = some i ↔
      (idx (ix2 (j 0) 0)).toInt = ((i 0).val : Int) ∧ (j 1).val = (i 1).val ∧ (j 2).val = (i 2).val := by
  have hi0 : (i 0).val < 20000 := (i 0).isLt
  have hi1 : (i 1).val < 64 := (i 1).isLt
  have hi2 : (i 2).val < 3 := (i 2).isLt
  have hj1 : (j 1).val < 64 := (j 1).isLt
  have hj2 : (j 2).val < 3 := (j 2).isLt
  unfold ScatterDims.resultIdx?
  split
  · next h =>
    rw [Option.some.injEq]
    constructor
    · intro e
      have e0 := congrArg (fun f => ((f 0).val : Int)) e
      have e1 := congrArg (fun f => (f 1).val) e
      have e2 := congrArg (fun f => (f 2).val) e
      have h0 := h 0
      simp only [d3_start0, d3_window0, d3_start1, d3_window1, d3_start2, d3_window2] at e0 e1 e2 h0
      refine ⟨?_, ?_, ?_⟩ <;> omega
    · rintro ⟨hx, hj, hk⟩
      funext a
      apply Fin.ext
      rcases fin3_cases a with rfl | rfl | rfl
      · show (d3.start j idx 0 + ((d3.window j 0 : Nat) : Int)).toNat = (i 0).val
        rw [d3_start0, d3_window0]; omega
      · show (d3.start j idx 1 + ((d3.window j 1 : Nat) : Int)).toNat = (i 1).val
        rw [d3_start1, d3_window1]; omega
      · show (d3.start j idx 2 + ((d3.window j 2 : Nat) : Int)).toNat = (i 2).val
        rw [d3_start2, d3_window2]; omega
  · next h =>
    constructor
    · intro e; cases e
    · rintro ⟨hx, hj, hk⟩
      exfalso; apply h; intro a
      rcases fin3_cases a with rfl | rfl | rfl
      · show 0 ≤ d3.start j idx 0 + ((d3.window j 0 : Nat) : Int) ∧ d3.start j idx 0 + ((d3.window j 0 : Nat) : Int) < ((20000 : Nat) : Int)
        rw [d3_start0, d3_window0]; omega
      · show 0 ≤ d3.start j idx 1 + ((d3.window j 1 : Nat) : Int) ∧ d3.start j idx 1 + ((d3.window j 1 : Nat) : Int) < ((64 : Nat) : Int)
        rw [d3_start1, d3_window1]; omega
      · show 0 ≤ d3.start j idx 2 + ((d3.window j 2 : Nat) : Int) ∧ d3.start j idx 2 + ((d3.window j 2 : Nat) : Int) < ((3 : Nat) : Int)
        rw [d3_start2, d3_window2]; omega
end

section Pointwise
variable {α : Type}

/-- A concatenation of three one-wide pieces along the last axis, read at last coordinate 0: the first piece. -/
theorem concat3_apply0 (x0 x1 x2 : Cert.KernelIdeal.S20000x64x1.Idx → α)
    (h : Shape.Concatenates ([(⟨Cert.KernelIdeal.S20000x64x1, x0⟩ : (s : Shape) × (s.Idx → α)), ⟨Cert.KernelIdeal.S20000x64x1, x1⟩,
      ⟨Cert.KernelIdeal.S20000x64x1, x2⟩].map (·.1)) Cert.KernelIdeal.S20000x64x3 2)
    (n : Fin 20000) (a : Fin 64) :
    concatenate Cert.KernelIdeal.S20000x64x3 2 [⟨Cert.KernelIdeal.S20000x64x1, x0⟩, ⟨Cert.KernelIdeal.S20000x64x1, x1⟩,
      ⟨Cert.KernelIdeal.S20000x64x1, x2⟩] h (ix3 n a 0) = x0 (ix3 n a 0) := by
  refine concatenate_apply_piece (t := Cert.KernelIdeal.S20000x64x3) 2 _ h (ix3 n a 0) 0 (by show (0 : Nat) < 3; omega)
    Cert.KernelIdeal.S20000x64x1 x0 rfl rfl 0 rfl (ix3 n a 0) (fun b hb => ?_) rfl
  rcases fin3_cases b with rfl | rfl | rfl
  · rfl
  · rfl
  · exact absurd rfl hb

/-- … read at last coordinate 1: the second piece. -/
theorem concat3_apply1 (x0 x1 x2 : Cert.KernelIdeal.S20000x64x1.Idx → α)
    (h : Shape.Concatenates ([(⟨Cert.KernelIdeal.S20000x64x1, x0⟩ : (s : Shape) × (s.Idx → α)), ⟨Cert.KernelIdeal.S20000x64x1, x1⟩,
      ⟨Cert.KernelIdeal.S20000x64x1, x2⟩].map (·.1)) Cert.KernelIdeal.S20000x64x3 2)
    (n : Fin 20000) (a : Fin 64) :
    concatenate Cert.KernelIdeal.S20000x64x3 2 [⟨Cert.KernelIdeal.S20000x64x1, x0⟩, ⟨Cert.KernelIdeal.S20000x64x1, x1⟩,
      ⟨Cert.KernelIdeal.S20000x64x1, x2⟩] h (ix3 n a 1) = x1 (ix3 n a 0) := by
  refine concatenate_apply_piece (t := Cert.KernelIdeal.S20000x64x3) 2 _ h (ix3 n a 1) 1 (by show (1 : Nat) < 3; omega)
    Cert.KernelIdeal.S20000x64x1 x1 rfl rfl 1 rfl (ix3 n a 0) (fun b hb => ?_) rfl
  rcases fin3_cases b with rfl | rfl | rfl
  · rfl
  · rfl
  · exact absurd rfl hb

/-- … read at last coordinate 2: the third piece. -/
theorem concat3_apply2 (x0 x1 x2 : Cert.KernelIdeal.S20000x64x1.Idx → α)
    (h : Shape.Concatenates ([(⟨Cert.KernelIdeal.S20000x64x1, x0⟩ : (s : Shape) × (s.Idx → α)), ⟨Cert.KernelIdeal.S20000x64x1, x1⟩,
      ⟨Cert.KernelIdeal.S20000x64x1, x2⟩].map (·.1)) Cert.KernelIdeal.S20000x64x3 2)
    (n : Fin 20000) (a : Fin 64) :
    concatenate Cert.KernelIdeal.S20000x64x3 2 [⟨Cert.KernelIdeal.S20000x64x1, x0⟩, ⟨Cert.KernelIdeal.S20000x64x1, x1⟩,
      ⟨Cert.KernelIdeal.S20000x64x1, x2⟩] h (ix3 n a 2) = x2 (ix3 n a 0) := by
  refine concatenate_apply_piece (t := Cert.KernelIdeal.S20000x64x3) 2 _ h (ix3 n a 2) 2 (by show (2 : Nat) < 3; omega)
    Cert.KernelIdeal.S20000x64x1 x2 rfl rfl 2 rfl (ix3 n a 0) (fun b hb => ?_) rfl
  rcases fin3_cases b with rfl | rfl | rfl
  · rfl
  · rfl
  · exact absurd rfl hb
end Pointwise

section Main
variable [Cert.KernelIdeal.Facts₀] [Cert.ReferenceIdeal.Facts₀]

/-- The kernel's `k`-th 2-D update at an edge and a column: the gate times the `k`-th component of the edge's unit vector. -/
theorem updK_apply (vg : FVec Ideal Cert.KernelIdeal.S640000x64 .f32) (evu : FVec Ideal Cert.KernelIdeal.S640000x3 .f32)
    (k : Fin 3) (hs : Cert.KernelIdeal.S640000x3.Slices ![0, k.val] Cert.KernelIdeal.S640000x1)
    (j : Cert.KernelIdeal.S640000x64.Idx) :
    mulf vg (broadcastInDim Cert.KernelIdeal.S640000x64 ![0, 1] Cert.KernelIdeal.Facts₀.bcast_S640000x1_S640000x64_0_1
      (extractStridedSlice Cert.KernelIdeal.S640000x1 ![0, k.val] evu hs)) j = vg j * evu (ix2 (j 0) k) := by
  show vg j * _ = vg j * _
  congr 1
  refine (broadcastInDim_apply _ _ _ j (ix2 (j 0) 0) (fun b => ?_)).trans ?_
  · rcases fin2_cases b with rfl | rfl <;> rfl
  · refine extractStridedSlice_apply _ evu hs _ (ix2 (j 0) k) (fun b => ?_)
    rcases fin2_cases b with rfl | rfl
    · show (j 0).val = 0 + (j 0).val
      omega
    · show k.val = k.val + 0
      omega

/-- The reference's 3-D update at an edge, a column and a component. -/
theorem updR_apply (vg : FVec Ideal Cert.ReferenceIdeal.S640000x64 .f32) (evu : FVec Ideal Cert.ReferenceIdeal.S640000x3 .f32)
    (j : Cert.ReferenceIdeal.S640000x64x3.Idx) :
    mulf (broadcastInDim Cert.ReferenceIdeal.S640000x64x3 ![0, 1, 2] Cert.ReferenceIdeal.Facts₀.bcast_S640000x64x1_S640000x64x3_0_1_2
        (broadcastInDim Cert.ReferenceIdeal.S640000x64x1 ![0, 1] Cert.ReferenceIdeal.Facts₀.bcast_S640000x64_S640000x64x1_0_1 vg))
      (broadcastInDim Cert.ReferenceIdeal.S640000x64x3 ![0, 1, 2] Cert.ReferenceIdeal.Facts₀.bcast_S640000x1x3_S640000x64x3_0_1_2
        (broadcastInDim Cert.ReferenceIdeal.S640000x1x3 ![0, 2] Cert.ReferenceIdeal.Facts₀.bcast_S640000x3_S640000x1x3_0_2 evu)) j
      = vg (ix2 (j 0) (j 1)) * evu (ix2 (j 0) (j 2)) := by
  show _ * _ = _ * _
  congr 1
  · refine (broadcastInDim_apply _ _ _ j (ix3 (j 0) (j 1) 0) (fun b => ?_)).trans ?_
    · rcases fin3_cases b with rfl | rfl | rfl <;> rfl
    · refine broadcastInDim_apply _ _ vg _ (ix2 (j 0) (j 1)) (fun b => ?_)
      rcases fin2_cases b with rfl | rfl <;> rfl
  · refine (broadcastInDim_apply _ _ _ j (ix3 (j 0) 0 (j 2)) (fun b => ?_)).trans ?_
    · rcases fin3_cases b with rfl | rfl | rfl <;> rfl
    · refine broadcastInDim_apply _ _ evu _ (ix2 (j 0) (j 2)) (fun b => ?_)
      rcases fin2_cases b with rfl | rfl <;> rfl
end Main

section Sums
variable [Cert.KernelIdeal.Facts₀] [Cert.ReferenceIdeal.Facts₀]

/-- Host.scatterAdd over the extended reals at an index: the operand's element plus the updates that land on it. -/
theorem scatterAdd_apply {s si su : Shape} {w : Nat} (d : ScatterDims s si su) (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl

/-- The edges whose index word is node `n`, at column `a`, are the same on both sides: update `(e, a)` of the `k`-th 2-D
    scatter lands on `(n, a)` exactly when update `(e, a, k)` of the 3-D scatter lands on `(n, a, k)`, so the two sums agree
    term by term. -/
theorem sum_landing_eq (vg : FVec Ideal Cert.KernelIdeal.S640000x64 .f32) (evu : FVec Ideal Cert.KernelIdeal.S640000x3 .f32)
    {w : Nat} (idx : IVec Cert.KernelIdeal.S640000x1 w) (n : Fin 20000) (a : Fin 64) (k : Fin 3) :
    ∑ j ∈ Finset.univ.filter (fun j => d2.resultIdx? j idx = some (ix2 n a)), vg j * evu (ix2 (j 0) k)
      = ∑ j ∈ Finset.univ.filter (fun j => d3.resultIdx? j idx = some (ix3 n a k)),
          vg (ix2 (j 0) (j 1)) * evu (ix2 (j 0) (j 2)) := by
  refine Finset.sum_nbij' (fun j => ix3 (j 0) (j 1) k) (fun j => ix2 (j 0) (j 1)) ?_ ?_ ?_ ?_ ?_
  · intro j hj
    rw [Finset.mem_filter] at hj ⊢
    have h := (d2_resultIdx j idx (ix2 n a)).1 hj.2
    exact ⟨Finset.mem_univ _, (d3_resultIdx _ idx (ix3 n a k)).2 ⟨h.1, h.2, rfl⟩⟩
  · intro j hj
    rw [Finset.mem_filter] at hj ⊢
    have h := (d3_resultIdx j idx (ix3 n a k)).1 hj.2
    exact ⟨Finset.mem_univ _, (d2_resultIdx _ idx (ix2 n a)).2 ⟨h.1, h.2.1⟩⟩
  · intro j _
    exact (eq_ix2 j).symm
  · intro j hj
    rw [Finset.mem_filter] at hj
    have h := (d3_resultIdx j idx (ix3 n a k)).1 hj.2
    have hk : j 2 = k := Fin.ext h.2.2
    rw [← hk]
    exact (eq_ix3 j).symm
  · intro j _
    exact congrArg (fun t => vg t * evu (ix2 (j 0) k)) (eq_ix2 j)
end Sums

section Final
variable [Cert.KernelIdeal.Facts₀] [Cert.ReferenceIdeal.Facts₀]

open Cert.KernelIdeal Cert.KernelIdeal.Facts₀ in
/-- One of the kernel's three stacked pieces at `(n, a, 0)`: zero plus the sum, over the edges whose index word is `n`, of the
    gate at column `a` times component `k` of the edge's unit vector. -/
theorem piece_apply (vg : FVec Ideal S640000x64 .f32) (evu : FVec Ideal S640000x3 .f32) (row : IVec S640000 32)
    (k : Fin 3) (hs : S640000x3.Slices ![0, k.val] S640000x1) (n : Fin 20000) (a : Fin 64) :
    broadcastInDim S20000x64x1 ![0, 1] bcast_S20000x64_S20000x64x1_0_1
        (Host.scatterAdd (F := Ideal) scatter_S20000x64_S640000x1_S640000x64_1_0_0_1
          (broadcastInDim S20000x64 ![] bcast_S_S20000x64 (constant (F := Ideal) S_ .f32 0x00000000#32))
          (broadcastInDim S640000x1 ![0] bcast_S640000_S640000x1_0 row)
          (mulf vg (broadcastInDim S640000x64 ![0, 1] bcast_S640000x1_S640000x64_0_1
            (extractStridedSlice S640000x1 ![0, k.val] evu hs)))) (ix3 n a 0)
      = Ideal.ofBits .f32 0x00000000#32
        + ∑ j ∈ Finset.univ.filter (fun j => d2.resultIdx? j (broadcastInDim S640000x1 ![0] bcast_S640000_S640000x1_0 row)
            = some (ix2 n a)), vg j * evu (ix2 (j 0) k) := by
  refine (broadcastInDim_apply _ _ _ (ix3 n a 0) (ix2 n a) (fun b => ?_)).trans ?_
  · rcases fin2_cases b with rfl | rfl <;> rfl
  · refine (scatterAdd_apply _ _ _ _ _).trans ?_
    exact congrArg₂ (fun s t => s + t) rfl (Finset.sum_congr rfl (fun j _ => updK_apply vg evu k hs j))

open Cert.ReferenceIdeal Cert.ReferenceIdeal.Facts₀ in
/-- The reference's 3-D scatter-add at `(n, a, k)`: zero plus the same sum, indexed by the 3-D updates that land there. -/
theorem ref_apply (vg : FVec Ideal S640000x64 .f32) (evu : FVec Ideal S640000x3 .f32) (row : IVec S640000 32)
    (n : Fin 20000) (a : Fin 64) (k : Fin 3) :
    Host.scatterAdd (F := Ideal) scatter_S20000x64x3_S640000x1_S640000x64x3_12_0_0_1
        (broadcastInDim S20000x64x3 ![] bcast_S_S20000x64x3 (constant (F := Ideal) S_ .f32 0x00000000#32))
        (broadcastInDim S640000x1 ![0] bcast_S640000_S640000x1_0 row)
        (mulf (broadcastInDim S640000x64x3 ![0, 1, 2] bcast_S640000x64x1_S640000x64x3_0_1_2
            (broadcastInDim S640000x64x1 ![0, 1] bcast_S640000x64_S640000x64x1_0_1 vg))
          (broadcastInDim S640000x64x3 ![0, 1, 2] bcast_S640000x1x3_S640000x64x3_0_1_2
            (broadcastInDim S640000x1x3 ![0, 2] bcast_S640000x3_S640000x1x3_0_2 evu))) (ix3 n a k)
      = Ideal.ofBits .f32 0x00000000#32
        + ∑ j ∈ Finset.univ.filter (fun j => d3.resultIdx? j (broadcastInDim S640000x1 ![0] bcast_S640000_S640000x1_0 row)
            = some (ix3 n a k)), vg (ix2 (j 0) (j 1)) * evu (ix2 (j 0) (j 2)) := by
  refine (scatterAdd_apply _ _ _ _ _).trans ?_
  exact congrArg₂ (fun s t => s + t) rfl (Finset.sum_congr rfl (fun j _ => updR_apply vg evu j))

open Cert.KernelIdeal Cert.KernelIdeal.Facts₀ in
/-- **Three 2-D scatter-adds stacked on a new last axis are one 3-D scatter-add.** The kernel scatters, for each component
    `k` of the edges' unit vectors, the gates times that component into the nodes, and stacks the three results; the
    reference scatters the outer products in one go. At `(n, a, k)` both are the sum over the edges whose index word is
    `n` of `gate (e, a) · unit (e, k)`. -/
theorem stacked_scatterAdd_eq (vg : FVec Ideal S640000x64 .f32) (evu : FVec Ideal S640000x3 .f32) (row : IVec S640000 32) :
    concatenate S20000x64x3 2
        [⟨S20000x64x1, broadcastInDim S20000x64x1 ![0, 1] bcast_S20000x64_S20000x64x1_0_1
            (Host.scatterAdd (F := Ideal) scatter_S20000x64_S640000x1_S640000x64_1_0_0_1
              (broadcastInDim S20000x64 ![] bcast_S_S20000x64 (constant (F := Ideal) S_ .f32 0x00000000#32))
              (broadcastInDim S640000x1 ![0] bcast_S640000_S640000x1_0 row)
              (mulf vg (broadcastInDim S640000x64 ![0, 1] bcast_S640000x1_S640000x64_0_1
                (extractStridedSlice S640000x1 ![0, 0] evu slices_S640000x3_S640000x1_0_0))))⟩,
         ⟨S20000x64x1, broadcastInDim S20000x64x1 ![0, 1] bcast_S20000x64_S20000x64x1_0_1
            (Host.scatterAdd (F := Ideal) scatter_S20000x64_S640000x1_S640000x64_1_0_0_1
              (broadcastInDim S20000x64 ![] bcast_S_S20000x64 (constant (F := Ideal) S_ .f32 0x00000000#32))
              (broadcastInDim S640000x1 ![0] bcast_S640000_S640000x1_0 row)
              (mulf vg (broadcastInDim S640000x64 ![0, 1] bcast_S640000x1_S640000x64_0_1
                (extractStridedSlice S640000x1 ![0, 1] evu slices_S640000x3_S640000x1_0_1))))⟩,
         ⟨S20000x64x1, broadcastInDim S20000x64x1 ![0, 1] bcast_S20000x64_S20000x64x1_0_1
            (Host.scatterAdd (F := Ideal) scatter_S20000x64_S640000x1_S640000x64_1_0_0_1
              (broadcastInDim S20000x64 ![] bcast_S_S20000x64 (constant (F := Ideal) S_ .f32 0x00000000#32))
              (broadcastInDim S640000x1 ![0] bcast_S640000_S640000x1_0 row)
              (mulf vg (broadcastInDim S640000x64 ![0, 1] bcast_S640000x1_S640000x64_0_1
                (extractStridedSlice S640000x1 ![0, 2] evu slices_S640000x3_S640000x1_0_2))))⟩]
        concatenates_S20000x64x1_S20000x64x1_S20000x64x1_S20000x64x3_d2
      = Host.scatterAdd (F := Ideal) Cert.ReferenceIdeal.scatter_S20000x64x3_S640000x1_S640000x64x3_12_0_0_1
          (broadcastInDim Cert.ReferenceIdeal.S20000x64x3 ![] Cert.ReferenceIdeal.Facts₀.bcast_S_S20000x64x3
            (constant (F := Ideal) Cert.ReferenceIdeal.S_ .f32 0x00000000#32))
          (broadcastInDim Cert.ReferenceIdeal.S640000x1 ![0] Cert.ReferenceIdeal.Facts₀.bcast_S640000_S640000x1_0 row)
          (mulf
            (broadcastInDim Cert.ReferenceIdeal.S640000x64x3 ![0, 1, 2] Cert.ReferenceIdeal.Facts₀.bcast_S640000x64x1_S640000x64x3_0_1_2
              (broadcastInDim Cert.ReferenceIdeal.S640000x64x1 ![0, 1] Cert.ReferenceIdeal.Facts₀.bcast_S640000x64_S640000x64x1_0_1 vg))
            (broadcastInDim Cert.ReferenceIdeal.S640000x64x3 ![0, 1, 2] Cert.ReferenceIdeal.Facts₀.bcast_S640000x1x3_S640000x64x3_0_1_2
              (broadcastInDim Cert.ReferenceIdeal.S640000x1x3 ![0, 2] Cert.ReferenceIdeal.Facts₀.bcast_S640000x3_S640000x1x3_0_2 evu))) := by
  funext i
  obtain ⟨n, a, k, rfl⟩ : ∃ (n : Fin 20000) (a : Fin 64) (k : Fin 3), i = ix3 n a k := ⟨i 0, i 1, i 2, eq_ix3 i⟩
  have h1 := sum_landing_eq vg evu (broadcastInDim S640000x1 ![0] bcast_S640000_S640000x1_0 row) n a k
  have h2 := ref_apply vg evu row n a k
  rw [← h1] at h2
  refine Eq.trans ?_ h2.symm
  rcases fin3_cases k with rfl | rfl | rfl
  · exact (concat3_apply0 _ _ _ _ n a).trans (piece_apply vg evu row 0 slices_S640000x3_S640000x1_0_0 n a)
  · exact (concat3_apply1 _ _ _ _ n a).trans (piece_apply vg evu row 1 slices_S640000x3_S640000x1_0_1 n a)
  · exact (concat3_apply2 _ _ _ _ n a).trans (piece_apply vg evu row 2 slices_S640000x3_S640000x1_0_2 n a)
end Final

end Cert.EdgeNode.VecScatter

end
-- ==== Proof.KIVec.lean ====
/-
  The kernel program's second result, read off its run.

  The program's last host stretch adds, to the second argument, the three 2-D scatter-adds of the gated unit-vector
  components stacked on a new last axis. Read at the buffers the run leaves, that stack is one 3-D scatter-add of the
  outer products  gate (e, a) · unit (e, k)  into zeros, so the second result is the second argument plus that scatter-add.
-/
import proofs.«179612_j65618510349072_2_alg».proof.Proof.KIFrame
import proofs.«179612_j65618510349072_2_alg».proof.Proof.VecScatter
import Idealize.ShloMosaic.PureOps.Ideal
import Idealize.ShloMosaic.Lib.StableHlo.Run

set_option maxRecDepth 16384

noncomputable section

namespace Cert.EdgeNode.KIVec

open Idealize.ShloMosaic Idealize.ShloMosaic.TcCoe Idealize.SL.Sem

section Terms
variable [Cert.ReferenceIdeal.Facts₀]

open Cert.KernelIdeal Cert.KernelIdeal.Facts₀ in
/-- The kernel's stack of three 2-D scatter-adds, as a function of the gates, the unit vectors and the scatter indices. -/
abbrev Kstack (vg : FVec Ideal S640000x64 .f32) (evu : FVec Ideal S640000x3 .f32) (row : IVec S640000 32) :
    FVec Ideal S20000x64x3 .f32 :=
  concatenate S20000x64x3 2
    [⟨S20000x64x1, broadcastInDim S20000x64x1 ![0, 1] bcast_S20000x64_S20000x64x1_0_1
        (Host.scatterAdd (F := Ideal) scatter_S20000x64_S640000x1_S640000x64_1_0_0_1
          (broadcastInDim S20000x64 ![] bcast_S_S20000x64 (constant (F := Ideal) S_ .f32 0x00000000#32))
          (broadcastInDim S640000x1 ![0] bcast_S640000_S640000x1_0 row)
          (mulf vg (broadcastInDim S640000x64 ![0, 1] bcast_S640000x1_S640000x64_0_1
            (extractStridedSlice S640000x1 ![0, 0] evu slices_S640000x3_S640000x1_0_0))))⟩,
     ⟨S20000x64x1, broadcastInDim S20000x64x1 ![0, 1] bcast_S20000x64_S20000x64x1_0_1
        (Host.scatterAdd (F := Ideal) scatter_S20000x64_S640000x1_S640000x64_1_0_0_1
          (broadcastInDim S20000x64 ![] bcast_S_S20000x64 (constant (F := Ideal) S_ .f32 0x00000000#32))
          (broadcastInDim S640000x1 ![0] bcast_S640000_S640000x1_0 row)
          (mulf vg (broadcastInDim S640000x64 ![0, 1] bcast_S640000x1_S640000x64_0_1
            (extractStridedSlice S640000x1 ![0, 1] evu slices_S640000x3_S640000x1_0_1))))⟩,
     ⟨S20000x64x1, broadcastInDim S20000x64x1 ![0, 1] bcast_S20000x64_S20000x64x1_0_1
        (Host.scatterAdd (F := Ideal) scatter_S20000x64_S640000x1_S640000x64_1_0_0_1
          (broadcastInDim S20000x64 ![] bcast_S_S20000x64 (constant (F := Ideal) S_ .f32 0x00000000#32))
          (broadcastInDim S640000x1 ![0] bcast_S640000_S640000x1_0 row)
          (mulf vg (broadcastInDim S640000x64 ![0, 1] bcast_S640000x1_S640000x64_0_1
            (extractStridedSlice S640000x1 ![0, 2] evu slices_S640000x3_S640000x1_0_2))))⟩]
    concatenates_S20000x64x1_S20000x64x1_S20000x64x1_S20000x64x3_d2

open Cert.ReferenceIdeal Cert.ReferenceIdeal.Facts₀ in
/-- The reference's one 3-D scatter-add of the outer products, as a function of the same three arrays. -/
abbrev Rscat (vg : FVec Ideal S640000x64 .f32) (evu : FVec Ideal S640000x3 .f32) (row : IVec S640000 32) :
    FVec Ideal S20000x64x3 .f32 :=
  Host.scatterAdd (F := Ideal) scatter_S20000x64x3_S640000x1_S640000x64x3_12_0_0_1
    (broadcastInDim S20000x64x3 ![] bcast_S_S20000x64x3 (constant (F := Ideal) S_ .f32 0x00000000#32))
    (broadcastInDim S640000x1 ![0] bcast_S640000_S640000x1_0 row)
    (mulf
      (broadcastInDim S640000x64x3 ![0, 1, 2] bcast_S640000x64x1_S640000x64x3_0_1_2
        (broadcastInDim S640000x64x1 ![0, 1] bcast_S640000x64_S640000x64x1_0_1 vg))
      (broadcastInDim S640000x64x3 ![0, 1, 2] bcast_S640000x1x3_S640000x64x3_0_1_2
        (broadcastInDim S640000x1x3 ![0, 2] bcast_S640000x3_S640000x1x3_0_2 evu)))

/-- The stack is the one scatter-add. -/
theorem Kstack_eq_Rscat (vg : FVec Ideal Cert.KernelIdeal.S640000x64 .f32) (evu : FVec Ideal Cert.KernelIdeal.S640000x3 .f32)
    (row : IVec Cert.KernelIdeal.S640000 32) : Kstack vg evu row = Rscat vg evu row :=
  Cert.EdgeNode.VecScatter.stacked_scatterAdd_eq vg evu row
end Terms

open Cert.KernelIdeal Cert.KernelIdeal.Gen Cert.KernelIdeal.Frame

section Nary3
variable {τ' : Topo} {sig' : RefSig} {Val : EltTy → Type}
variable {x a b y : Ref sig' .tc}

/-- An operation of three literal operands writes, at its result, its function of the three operands' contents, each
    named at its own reference. -/
theorem nary3_result
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- A line of operations run in two parts: the contents after the whole line are those after the second part, from the
    contents after the first. -/
theorem after_append (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => exact ih _
end Nary3

section Run
variable (m : (ℓ : Loc nD τ sig) → Buf (Elt Ideal) ℓ) (ρ : Dev nD → PrngReg) (c : Dev nD)

/-- The second result is the last host stretch's sum of the second argument and the stacked scatter-adds. -/
theorem W5_v55 : W5 m ρ c (Proc.devRef .tc main_v55)
    = addf (F := Ideal) (s := S20000x64x3) (φ := .f32)
        (W4 m ρ c (Proc.devRef .tc main_arg1)) (W4 m ρ c (Proc.devRef .tc main_v52)) := by
  show StableHlo.after hostOps2 _ (Proc.devRef .tc main_v55) = _
  after_results

/-- The node kernel does not touch the stacked scatter-adds. -/
theorem W4_v52 : W4 m ρ c (Proc.devRef .tc main_v52) = W3 m ρ c (Proc.devRef .tc main_v52) :=
  W4_of_ne m ρ c main_v52 (by decide)

/-- The second argument reaches the last host stretch as launched. -/
theorem W4_arg1 : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl

/-- The unit vectors reach the second host stretch as launched. -/
theorem W2_arg4 : W2 m ρ c (Proc.devRef .tc main_arg4) = m ((c : Thread nD τ).loc main_arg4) :=
  (W2_of_ne m ρ c main_arg4 (by decide)).trans <| (W1_of m ρ c main_arg4 (by decide)).trans rfl

/-- The edge kernel does not touch the scatter indices. -/
theorem W2_v1 : W2 m ρ c (Proc.devRef .tc main_v1) = W1 m ρ c (Proc.devRef .tc main_v1) :=
  W2_of_ne m ρ c main_v1 (by decide)

/-- The vector gates the edge kernel leaves, the edges' unit vectors and the scatter indices, as the second host
    stretch finds them. -/
abbrev vgK : FVec Ideal S640000x64 .f32 := W2 m ρ c (Proc.devRef .tc main_v27_1)
abbrev evuK : FVec Ideal S640000x3 .f32 := W2 m ρ c (Proc.devRef .tc main_arg4)
abbrev rowK : IVec S640000 32 := W2 m ρ c (Proc.devRef .tc main_v1)

/-- One stacked piece, as the second host stretch's first 28 operations leave it: the 2-D scatter-add of the gates times
    component `k` of the unit vectors, with a unit last axis. -/
abbrev piece (k : Nat) (hs : S640000x3.Slices ![0, k] S640000x1) : FVec Ideal S20000x64x1 .f32 :=
  broadcastInDim S20000x64x1 ![0, 1] Cert.KernelIdeal.Facts₀.bcast_S20000x64_S20000x64x1_0_1
    (Host.scatterAdd (F := Ideal) scatter_S20000x64_S640000x1_S640000x64_1_0_0_1
      (broadcastInDim S20000x64 ![] Cert.KernelIdeal.Facts₀.bcast_S_S20000x64 (constant (F := Ideal) S_ .f32 0x00000000#32))
      (broadcastInDim S640000x1 ![0] Cert.KernelIdeal.Facts₀.bcast_S640000_S640000x1_0 (rowK m ρ c))
      (mulf (vgK m ρ c) (broadcastInDim S640000x64 ![0, 1] Cert.KernelIdeal.Facts₀.bcast_S640000x1_S640000x64_0_1
        (extractStridedSlice S640000x1 ![0, k] (evuK m ρ c) hs))))

theorem pre_v49 : StableHlo.after ((hostOps1 : List (HloOp τ sig (Elt Ideal))).take 28) (W2 m ρ c) (Proc.devRef .tc main_v49)
    = piece m ρ c 0 Cert.KernelIdeal.Facts₀.slices_S640000x3_S640000x1_0_0 := by
  simp only [hostOps1, List.take_succ_cons, List.take_zero]
  after_results_simp

theorem pre_v50 : StableHlo.after ((hostOps1 : List (HloOp τ sig (Elt Ideal))).take 28) (W2 m ρ c) (Proc.devRef .tc main_v50)
    = piece m ρ c 1 Cert.KernelIdeal.Facts₀.slices_S640000x3_S640000x1_0_1 := by
  simp only [hostOps1, List.take_succ_cons, List.take_zero]
  after_results_simp

theorem pre_v51 : StableHlo.after ((hostOps1 : List (HloOp τ sig (Elt Ideal))).take 28) (W2 m ρ c) (Proc.devRef .tc main_v51)
    = piece m ρ c 2 Cert.KernelIdeal.Facts₀.slices_S640000x3_S640000x1_0_2 := by
  simp only [hostOps1, List.take_succ_cons, List.take_zero]
  after_results_simp

/-- The stacked scatter-adds, as the second host stretch leaves them. -/
theorem W3_v52 : W3 m ρ c (Proc.devRef .tc main_v52) = Kstack (vgK m ρ c) (evuK m ρ c) (rowK m ρ c) := by
  show StableHlo.after hostOps1 (W2 m ρ c) (Proc.devRef .tc main_v52) = _
  have e49 := pre_v49 m ρ c
  have e50 := pre_v50 m ρ c
  have e51 := pre_v51 m ρ c
  have hsplit : (hostOps1 : List (HloOp τ sig (Elt Ideal))) = hostOps1.take 28 ++ hostOps1.drop 28 :=
    (List.take_append_drop 28 _).symm
  rw [hsplit, after_append]
  generalize StableHlo.after (List.take 28 (hostOps1 : List (HloOp τ sig (Elt Ideal)))) (W2 m ρ c) = P at e49 e50 e51 ⊢
  simp only [hostOps1, List.drop_succ_cons, List.drop_zero, StableHlo.after_cons, StableHlo.after_nil]
  rw [StableHlo.unary_result_ne _ _ _ _ _ _ (by decide), nary3_result]
  rw [e49, e50, e51]
  rfl

variable [Cert.ReferenceIdeal.Facts₀]

/-- **The second result**: the second argument plus the one 3-D scatter-add, into zeros, of the outer products of the
    vector gates the edge kernel leaves with the edges' unit vectors, at the scatter indices the first host stretch
    leaves. -/
theorem W5_v55_eq : W5 m ρ c (Proc.devRef .tc main_v55)
    = addf (F := Ideal) (s := S20000x64x3) (φ := .f32) (m ((c : Thread nD τ).loc main_arg1))
        (Rscat (vgK m ρ c) (m ((c : Thread nD τ).loc main_arg4)) (W1 m ρ c (Proc.devRef .tc main_v1))) := by
  have h3 : W3 m ρ c (Proc.devRef .tc main_v52) = Rscat (vgK m ρ c) (evuK m ρ c) (rowK m ρ c) :=
    (W3_v52 m ρ c).trans (Kstack_eq_Rscat _ _ _)
  have hE : evuK m ρ c = m ((c : Thread nD τ).loc main_arg4) := W2_arg4 m ρ c
  have hR : rowK m ρ c = W1 m ρ c (Proc.devRef .tc main_v1) := W2_v1 m ρ c
  rw [hE, hR] at h3
  rw [W5_v55, W4_v52, W4_arg1, h3]
end Run

end Cert.EdgeNode.KIVec

end
-- ==== Proof.RefSpec.lean ====
import proofs.«179612_j65618510349072_2_alg».proof.Proof.Spec
import proofs.«179612_j65618510349072_2_alg».proof.Proof.RefRead

/-
  The reference program computes the specification.

  Each result of the reference program is read at one index, operation by operation, down to the program's
  arguments (and to the two gathered arrays and the scattered sum, which are kept as they are), and the expression
  that comes out is the row-wise formula of the specification: an edge's message and vector gate from the three
  rows the edge reads, a node's update from its own row and the row summed into it.

  Two things are not a mere reading. The first layer multiplies the concatenation of three 128-column arrays with a
  384-row weight matrix; its sum of 384 products is split into the three runs of 128, each of which reads one piece
  of the concatenation and one 128-row slice of the matrix. And `silu` is printed as `x · (1 / (1 + exp (−x)))`
  with the constant `1` given by its word, which is the extended real one.
-/

noncomputable section

namespace Cert.EdgeNode.RefSpec

open Idealize.ShloMosaic Idealize.ShloMosaic.ValueIdx
open Cert.ReferenceIdeal Cert.ReferenceIdeal.Gen Cert.ReferenceIdeal.Read
open Cert.EdgeNode

/-! ## Generalities -/

/-- The word of `1.0` is the extended real one. -/
theorem ofBits_one_f32 : Ideal.ofBits .f32 0x3F800000#32 = 1 := by
  simp [Ideal.ofBits, Ideal.ieee, -EReal.coe_mul]; norm_num

/-- A sum of 384 terms is the sum of its three runs of 128, added left to right. -/
theorem sum_split3 (f : Fin 384 → EReal) :
    ∑ k : Fin 384, f k
      = (∑ q : Fin 128, f ⟨0 + q.val, by have := q.isLt; omega⟩ + ∑ q : Fin 128, f ⟨128 + q.val, by have := q.isLt; omega⟩)
        + ∑ q : Fin 128, f ⟨256 + q.val, by have := q.isLt; omega⟩ := by
  have h1 := Fin.sum_univ_add (M := EReal) (a := 256) (b := 128) f
  have h2 := Fin.sum_univ_add (M := EReal) (a := 128) (b := 128) (fun q : Fin 256 => f (Fin.castAdd 128 q))
  rw [h1, h2]
  refine congrArg₂ (· + ·) (congrArg₂ (· + ·) ?_ ?_) ?_
  · exact Finset.sum_congr rfl fun q _ => congrArg f (Fin.ext (Nat.zero_add _).symm)
  · rfl
  · rfl

/-- `silu` as the program prints it — `x · (1 / (1 + exp (−x)))`, the ones by their word — is the specification's. -/
theorem silu_printed (x : EReal) :
    x * Ideal.div (Ideal.ofBits .f32 0x3F800000#32) (Ideal.ofBits .f32 0x3F800000#32 + Ideal.exp (-x)) = Spec.silu x := by
  rw [ofBits_one_f32]; rfl

section
variable (x0 : (⟨S20000x128, .f32⟩ : BufTy).Contents (Elt Ideal)) (x2 : (⟨S2x640000, .i32⟩ : BufTy).Contents (Elt Ideal))
  (x3 : (⟨S640000x128, .f32⟩ : BufTy).Contents (Elt Ideal)) (x5 : (⟨S384x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x64, .f32⟩ : BufTy).Contents (Elt Ideal))
  (x12 : (⟨S64, .f32⟩ : BufTy).Contents (Elt Ideal)) (x13 x14 : (⟨S128, .f32⟩ : BufTy).Contents (Elt Ideal))

/-! ## The edge message -/

/-- The concatenation read in its first run of columns: the first gathered array. -/
theorem v18_left (e : Fin 640000) (q : Fin 128) :
    val_main_v18 (F := Ideal) x0 x2 x3 (ix2 e ⟨0 + q.val, by have := q.isLt; omega⟩) = val_main_v10 (F := Ideal) x0 x2 (ix2 e q) := by
  unfold val_main_v18
  exact concatenate_apply_piece (t := S640000x384) (1 : Fin 2)
    [⟨S640000x128, val_main_v10 (F := Ideal) x0 x2⟩, ⟨S640000x128, val_main_v17 (F := Ideal) x0 x2⟩, ⟨S640000x128, x3⟩]
    concatenates_S640000x128_S640000x128_S640000x128_S640000x384_d1 _
    0 (show (0 : Nat) < 3 by decide) S640000x128 (val_main_v10 (F := Ideal) x0 x2) rfl rfl 0 rfl (ix2 e q)
    (fun b hb => by match b, hb with | ⟨0, _⟩, _ => rfl | ⟨1, _⟩, hb => exact absurd rfl hb)
    rfl

/-- … in its second run: the second gathered array. -/
theorem v18_mid (e : Fin 640000) (q : Fin 128) :
    val_main_v18 (F := Ideal) x0 x2 x3 (ix2 e ⟨128 + q.val, by have := q.isLt; omega⟩) = val_main_v17 (F := Ideal) x0 x2 (ix2 e q) := by
  unfold val_main_v18
  exact concatenate_apply_piece (t := S640000x384) (1 : Fin 2)
    [⟨S640000x128, val_main_v10 (F := Ideal) x0 x2⟩, ⟨S640000x128, val_main_v17 (F := Ideal) x0 x2⟩, ⟨S640000x128, x3⟩]
    concatenates_S640000x128_S640000x128_S640000x128_S640000x384_d1 _
    1 (show (1 : Nat) < 3 by decide) S640000x128 (val_main_v17 (F := Ideal) x0 x2) rfl rfl 128 rfl (ix2 e q)
    (fun b hb => by match b, hb with | ⟨0, _⟩, _ => rfl | ⟨1, _⟩, hb => exact absurd rfl hb)
    rfl

/-- … in its third run: the edge attributes. -/
theorem v18_right (e : Fin 640000) (q : Fin 128) :
    val_main_v18 (F := Ideal) x0 x2 x3 (ix2 e ⟨256 + q.val, by have := q.isLt; omega⟩) = x3 (ix2 e q) := by
  unfold val_main_v18
  exact concatenate_apply_piece (t := S640000x384) (1 : Fin 2)
    [⟨S640000x128, val_main_v10 (F := Ideal) x0 x2⟩, ⟨S640000x128, val_main_v17 (F := Ideal) x0 x2⟩, ⟨S640000x128, x3⟩]
    concatenates_S640000x128_S640000x128_S640000x128_S640000x384_d1 _
    2 (show (2 : Nat) < 3 by decide) S640000x128 x3 rfl rfl 256 rfl (ix2 e q)
    (fun b hb => by match b, hb with | ⟨0, _⟩, _ => rfl | ⟨1, _⟩, hb => exact absurd rfl hb)
    rfl

/-- The first product's left index: row `e`, column `m` of the concatenation. -/
theorem lidx19_eq (e : Fin 640000) (k : Fin 128) (m : Fin 384) : lidx_main_v19 (ix2 e k) m = ix2 e m := by
  funext a; match a with | ⟨0, _⟩ => rfl | ⟨1, _⟩ => rfl
/-- The first product's right index: row `m`, column `k` of the weight matrix. -/
theorem ridx19_eq (e : Fin 640000) (k : Fin 128) (m : Fin 384) : ridx_main_v19 (ix2 e k) m = ix2 m k := by
  funext a; match a with | ⟨0, _⟩ => rfl | ⟨1, _⟩ => rfl
theorem lidx24_eq (e : Fin 640000) (j k : Fin 128) : lidx_main_v24 (ix2 e j) k = ix2 e k := by
  funext a; match a with | ⟨0, _⟩ => rfl | ⟨1, _⟩ => rfl
theorem ridx24_eq (e : Fin 640000) (j k : Fin 128) : ridx_main_v24 (ix2 e j) k = ix2 k j := by
  funext a; match a with | ⟨0, _⟩ => rfl | ⟨1, _⟩ => rfl

/-- The first bias, broadcast down the rows, read at an index. -/
theorem v21_eq (e : Fin 640000) (k : Fin 128) : val_main_v21 (F := Ideal) x6 (ix2 e k) = x6 (ix1 k) := by
  rw [val_main_v21_apply, val_main_v20_apply]
  exact congrArg x6 (funext fun a => match a with | ⟨0, _⟩ => rfl)
/-- The second bias. -/
theorem v26_eq (e : Fin 640000) (k : Fin 128) : val_main_v26 (F := Ideal) x8 (ix2 e k) = x8 (ix1 k) := by
  rw [val_main_v26_apply, val_main_v25_apply]
  exact congrArg x8 (funext fun a => match a with | ⟨0, _⟩ => rfl)

/-- The first product: its 384 terms in three runs, each reading one piece of the concatenation against one 128-row
    slice of the weight matrix. -/
theorem v19_eq (e : Fin 640000) (k : Fin 128) :
    val_main_v19 (F := Ideal) x0 x2 x3 x5 (ix2 e k)
      = (∑ q : Fin 128, val_main_v10 (F := Ideal) x0 x2 (ix2 e q) * x5 (ix2 (⟨0 + q.val, by have := q.isLt; omega⟩ : Fin 384) k)
          + ∑ q : Fin 128, val_main_v17 (F := Ideal) x0 x2 (ix2 e q) * x5 (ix2 (⟨128 + q.val, by have := q.isLt; omega⟩ : Fin 384) k))
        + ∑ q : Fin 128, x3 (ix2 e q) * x5 (ix2 (⟨256 + q.val, by have := q.isLt; omega⟩ : Fin 384) k) := by
  rw [val_main_v19_apply, sum_split3]
  refine congrArg₂ (· + ·) (congrArg₂ (· + ·) ?_ ?_) ?_ <;> refine Finset.sum_congr rfl fun q _ => ?_
  · rw [lidx19_eq, ridx19_eq, v18_left]
  · rw [lidx19_eq, ridx19_eq, v18_mid]
  · rw [lidx19_eq, ridx19_eq, v18_right]

/-- The first layer before its activation is the specification's `hid` of the edge's three rows. -/
theorem v22_eq (e : Fin 640000) (k : Fin 128) :
    val_main_v22 (F := Ideal) x0 x2 x3 x5 x6 (ix2 e k)
      = Spec.hid (Spec.row (val_main_v10 (F := Ideal) x0 x2) e) (Spec.row (val_main_v17 (F := Ideal) x0 x2) e) (Spec.row x3 e)
          (Spec.wslice 0 (by decide) x5) (Spec.wslice 128 (by decide) x5) (Spec.wslice 256 (by decide) x5) x6 k := by
  rw [val_main_v22_apply, v19_eq, v21_eq]
  rfl

/-- The first activation. -/
theorem v23_eq (i : S640000x128.Idx) :
    val_main_v23 (F := Ideal) x0 x2 x3 x5 x6 i = Spec.silu (val_main_v22 (F := Ideal) x0 x2 x3 x5 x6 i) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  generalize val_main_v22 (F := Ideal) x0 x2 x3 x5 x6 i = y
  exact silu_printed y

/-- **The edge message** the reference computes is the specification's, of the two gathered arrays, the edge
    attributes, the three 128-row slices of the first weight matrix, and the remaining weights. -/
theorem edgeMsg :
    val_main_v27 (F := Ideal) x0 x2 x3 x5 x6 x7 x8
      = Spec.msgArr (val_main_v10 (F := Ideal) x0 x2) (val_main_v17 (F := Ideal) x0 x2) x3
          (Spec.wslice 0 (by decide) x5) (Spec.wslice 128 (by decide) x5) (Spec.wslice 256 (by decide) x5) x6 x7 x8 := by
  funext i
  obtain ⟨e, j, rfl⟩ : ∃ (e : Fin 640000) (j : Fin 128), i = ix2 e j := ⟨i 0, i 1, eq_ix2 i⟩
  rw [val_main_v27_apply, val_main_v24_apply, v26_eq]
  have hs : (∑ k : Fin 128, val_main_v23 (F := Ideal) x0 x2 x3 x5 x6 (lidx_main_v24 (ix2 e j) k) * x7 (ridx_main_v24 (ix2 e j) k))
      = ∑ k : Fin 128, Spec.silu (Spec.hid (Spec.row (val_main_v10 (F := Ideal) x0 x2) e) (Spec.row (val_main_v17 (F := Ideal) x0 x2) e)
          (Spec.row x3 e) (Spec.wslice 0 (by decide) x5) (Spec.wslice 128 (by decide) x5) (Spec.wslice 256 (by decide) x5) x6 k)
            * x7 (ix2 k j) :=
    Finset.sum_congr rfl fun k _ => by rw [lidx24_eq, ridx24_eq, v23_eq, v22_eq]
  rw [hs]
  rfl

/-! ## The vector gate -/

theorem lidx29_eq (e : Fin 640000) (j : Fin 64) (k : Fin 128) : lidx_main_v29 (ix2 e j) k = ix2 e k := by
  funext a; match a with | ⟨0, _⟩ => rfl | ⟨1, _⟩ => rfl
theorem ridx29_eq (e : Fin 640000) (j : Fin 64) (k : Fin 128) : ridx_main_v29 (ix2 e j) k = ix2 k j := by
  funext a; match a with | ⟨0, _⟩ => rfl | ⟨1, _⟩ => rfl

/-- The gate's bias, broadcast down the rows, read at an index. -/
theorem v31_eq (e : Fin 640000) (j : Fin 64) : val_main_v31 (F := Ideal) x12 (ix2 e j) = x12 (ix1 j) := by
  rw [val_main_v31_apply, val_main_v30_apply]
  exact congrArg x12 (funext fun a => match a with | ⟨0, _⟩ => rfl)

/-- The activation of the message. -/
theorem v28_eq (i : S640000x128.Idx) :
    val_main_v28 (F := Ideal) x0 x2 x3 x5 x6 x7 x8 i = Spec.silu (val_main_v27 (F := Ideal) x0 x2 x3 x5 x6 x7 x8 i) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply]
  generalize val_main_v27 (F := Ideal) x0 x2 x3 x5 x6 x7 x8 i = y
  exact silu_printed y

/-- **The vector gate** the reference computes is the specification's: one more layer on the `silu` of the message. -/
theorem vecGate :
    val_main_v32 (F := Ideal) x0 x2 x3 x5 x6 x7 x8 x11 x12
      = Spec.vgArr (val_main_v10 (F := Ideal) x0 x2) (val_main_v17 (F := Ideal) x0 x2) x3
          (Spec.wslice 0 (by decide) x5) (Spec.wslice 128 (by decide) x5) (Spec.wslice 256 (by decide) x5) x6 x7 x8 x11 x12 := by
  funext i
  obtain ⟨e, j, rfl⟩ : ∃ (e : Fin 640000) (j : Fin 64), i = ix2 e j := ⟨i 0, i 1, eq_ix2 i⟩
  rw [val_main_v32_apply, val_main_v29_apply, v31_eq]
  have hs : (∑ k : Fin 128, val_main_v28 (F := Ideal) x0 x2 x3 x5 x6 x7 x8 (lidx_main_v29 (ix2 e j) k) * x11 (ridx_main_v29 (ix2 e j) k))
      = ∑ k : Fin 128, Spec.silu (val_main_v27 (F := Ideal) x0 x2 x3 x5 x6 x7 x8 (ix2 e k)) * x11 (ix2 k j) :=
    Finset.sum_congr rfl fun k _ => by rw [lidx29_eq, ridx29_eq, v28_eq]
  rw [hs, edgeMsg]
  rfl

/-! ## The node update -/

theorem lidx45_eq (n : Fin 20000) (j k : Fin 128) : lidx_main_v45 (ix2 n j) k = ix2 n k := by
  funext a; match a with | ⟨0, _⟩ => rfl | ⟨1, _⟩ => rfl
theorem ridx45_eq (n : Fin 20000) (j k : Fin 128) : ridx_main_v45 (ix2 n j) k = ix2 k j := by
  funext a; match a with | ⟨0, _⟩ => rfl | ⟨1, _⟩ => rfl

/-- The scalar layer's bias, broadcast down the rows, read at an index. -/
theorem v47_eq (n : Fin 20000) (j : Fin 128) : val_main_v47 (F := Ideal) x10 (ix2 n j) = x10 (ix1 j) := by
  rw [val_main_v47_apply, val_main_v46_apply]
  exact congrArg x10 (funext fun a => match a with | ⟨0, _⟩ => rfl)
/-- The scale of the normalisation. -/
theorem v64_eq (n : Fin 20000) (j : Fin 128) : val_main_v64 (F := Ideal) x13 (ix2 n j) = x13 (ix1 j) := by
  rw [val_main_v64_apply, val_main_v63_apply]
  exact congrArg x13 (funext fun a => match a with | ⟨0, _⟩ => rfl)
/-- The shift of the normalisation. -/
theorem v72_eq (n : Fin 20000) (j : Fin 128) : val_main_v72 (F := Ideal) x14 (ix2 n j) = x14 (ix1 j) := by
  rw [val_main_v72_apply, val_main_v71_apply]
  exact congrArg x14 (funext fun a => match a with | ⟨0, _⟩ => rfl)

/-- The activation of the summed messages. -/
theorem v44_eq (i : S20000x128.Idx) :
    val_main_v44 (F := Ideal) x0 x2 x3 x5 x6 x7 x8 i = Spec.silu (val_main_v40 (F := Ideal) x0 x2 x3 x5 x6 x7 x8 i) := by
  rw [val_main_v44_apply, val_main_call2_v5_apply, val_main_call2_v4_apply, val_main_call2_cst_0_apply,
    val_main_call2_v3_apply, val_main_call2_v2_apply, val_main_call2_cst_apply, val_main_call2_v1_apply,
    val_main_call2_v0_apply]
  generalize val_main_v40 (F := Ideal) x0 x2 x3 x5 x6 x7 x8 i = y
  exact silu_printed y

/-- The row before normalisation: the node's features plus the layer of the `silu` of what was summed into it. -/
theorem v49_eq (n : Fin 20000) (j : Fin 128) :
    val_main_v49 (F := Ideal) x0 x2 x3 x5 x6 x7 x8 x9 x10 (ix2 n j)
      = Spec.smid (Spec.row x0 n) (Spec.row (val_main_v40 (F := Ideal) x0 x2 x3 x5 x6 x7 x8) n) x9 x10 j := by
  rw [val_main_v49_apply, val_main_v48_apply, val_main_v45_apply, v47_eq]
  have hs : (∑ k : Fin 128, val_main_v44 (F := Ideal) x0 x2 x3 x5 x6 x7 x8 (lidx_main_v45 (ix2 n j) k) * x9 (ridx_main_v45 (ix2 n j) k))
      = ∑ k : Fin 128, Spec.silu (val_main_v40 (F := Ideal) x0 x2 x3 x5 x6 x7 x8 (ix2 n k)) * x9 (ix2 k j) :=
    Finset.sum_congr rfl fun k _ => by rw [lidx45_eq, ridx45_eq, v44_eq]
  rw [hs]
  rfl

/-! The normalisation of row `n`, that row being `X`. -/

/-- The mean of the row: the reduction starts from the zero word, which adds nothing. -/
theorem v53_eq (n : Fin 20000) (z : Fin 1) (X : Fin 128 → EReal) (hX : ∀ k, val_main_v49 (F := Ideal) x0 x2 x3 x5 x6 x7 x8 x9 x10 (ix2 n k) = X k) :
    val_main_v53 (F := Ideal) x0 x2 x3 x5 x6 x7 x8 x9 x10 (ix2 n z) = Spec.mean X := by
  have hs : (∑ k : Fin 128, val_main_v49 (F := Ideal) x0 x2 x3 x5 x6 x7 x8 x9 x10 (idx_main_v50 (idx_main_v51 (ix2 n z)) k)) = ∑ k : Fin 128, X k :=
    Finset.sum_congr rfl fun k _ => by
      rw [← hX k]
      exact congrArg (val_main_v49 (F := Ideal) x0 x2 x3 x5 x6 x7 x8 x9 x10) (funext fun a => match a with | ⟨0, _⟩ => rfl | ⟨1, _⟩ => rfl)
  rw [val_main_v53_apply, val_main_v51_apply, val_main_v50_apply, val_main_v52_apply, val_main_cst_5_apply,
    val_main_cst_4_apply, hs, Ideal.ofBits_def, Ideal.ofBits_zero_f32, zero_add]
  rfl

/-- The centred row, as the variance reads it. -/
theorem v55_eq (n : Fin 20000) (j : Fin 128) (X : Fin 128 → EReal) (hX : ∀ k, val_main_v49 (F := Ideal) x0 x2 x3 x5 x6 x7 x8 x9 x10 (ix2 n k) = X k) :
    val_main_v55 (F := Ideal) x0 x2 x3 x5 x6 x7 x8 x9 x10 (ix2 n j) = X j - Spec.mean X := by
  have hi : idx_main_v54 (ix2 n j) = ix2 n (0 : Fin 1) :=
    funext fun a => match a with | ⟨0, _⟩ => rfl | ⟨1, _⟩ => rfl
  rw [val_main_v55_apply, val_main_v54_apply, hi, v53_eq x0 x2 x3 x5 x6 x7 x8 x9 x10 n 0 X hX, hX]
  rfl
/-- The centred row, as the result reads it. -/
theorem v62_eq (n : Fin 20000) (j : Fin 128) (X : Fin 128 → EReal) (hX : ∀ k, val_main_v49 (F := Ideal) x0 x2 x3 x5 x6 x7 x8 x9 x10 (ix2 n k) = X k) :
    val_main_v62 (F := Ideal) x0 x2 x3 x5 x6 x7 x8 x9 x10 (ix2 n j) = X j - Spec.mean X := by
  have hi : idx_main_v61 (ix2 n j) = ix2 n (0 : Fin 1) :=
    funext fun a => match a with | ⟨0, _⟩ => rfl | ⟨1, _⟩ => rfl
  rw [val_main_v62_apply, val_main_v61_apply, hi, v53_eq x0 x2 x3 x5 x6 x7 x8 x9 x10 n 0 X hX, hX]
  rfl

/-- The mean square of the centred row (the square is printed as a product). -/
theorem v60_eq (n : Fin 20000) (z : Fin 1) (X : Fin 128 → EReal) (hX : ∀ k, val_main_v49 (F := Ideal) x0 x2 x3 x5 x6 x7 x8 x9 x10 (ix2 n k) = X k) :
    val_main_v60 (F := Ideal) x0 x2 x3 x5 x6 x7 x8 x9 x10 (ix2 n z) = Spec.mean (fun k => (X k - Spec.mean X) * (X k - Spec.mean X)) := by
  have hs : (∑ k : Fin 128, val_main_v56 (F := Ideal) x0 x2 x3 x5 x6 x7 x8 x9 x10 (idx_main_v57 (idx_main_v58 (ix2 n z)) k))
      = ∑ k : Fin 128, (X k - Spec.mean X) * (X k - Spec.mean X) :=
    Finset.sum_congr rfl fun k _ => by
      have hi : idx_main_v57 (idx_main_v58 (ix2 n z)) k = ix2 n k :=
        funext fun a => match a with | ⟨0, _⟩ => rfl | ⟨1, _⟩ => rfl
      rw [hi, val_main_v56_apply, v55_eq x0 x2 x3 x5 x6 x7 x8 x9 x10 n k X hX]
      rfl
  rw [val_main_v60_apply, val_main_v58_apply, val_main_v57_apply, val_main_v59_apply, val_main_cst_7_apply,
    val_main_cst_6_apply, hs, Ideal.ofBits_def, Ideal.ofBits_zero_f32, zero_add]
  rfl

/-- The reciprocal root of the mean square plus the small constant. -/
theorem v69_eq (n : Fin 20000) (j : Fin 128) (X : Fin 128 → EReal) (hX : ∀ k, val_main_v49 (F := Ideal) x0 x2 x3 x5 x6 x7 x8 x9 x10 (ix2 n k) = X k) :
    val_main_v69 (F := Ideal) x0 x2 x3 x5 x6 x7 x8 x9 x10 (ix2 n j)
      = Ideal.rsqrt (Spec.mean (fun k => (X k - Spec.mean X) * (X k - Spec.mean X)) + Spec.ceps) := by
  have hi : idx_main_v69 (ix2 n j) = ix2 n (0 : Fin 1) :=
    funext fun a => match a with | ⟨0, _⟩ => rfl | ⟨1, _⟩ => rfl
  rw [val_main_v69_apply, hi, val_main_v68_apply, val_main_v67_apply, v60_eq x0 x2 x3 x5 x6 x7 x8 x9 x10 n 0 X hX, val_main_v66_apply,
    val_main_cst_8_apply]
  rfl

/-- **The node update** the reference computes is the specification's, of the node features, the messages summed
    into the nodes, and the remaining weights. -/
theorem nodeUpd :
    val_main_v73 (F := Ideal) x0 x2 x3 x5 x6 x7 x8 x9 x10 x13 x14
      = Spec.nodeArr x0 (val_main_v40 (F := Ideal) x0 x2 x3 x5 x6 x7 x8) x9 x10 x13 x14 := by
  funext i
  obtain ⟨n, j, rfl⟩ : ∃ (n : Fin 20000) (j : Fin 128), i = ix2 n j := ⟨i 0, i 1, eq_ix2 i⟩
  have hX := v49_eq x0 x2 x3 x5 x6 x7 x8 x9 x10 n
  rw [val_main_v73_apply, val_main_v70_apply, val_main_v65_apply, v64_eq, v62_eq x0 x2 x3 x5 x6 x7 x8 x9 x10 n j _ hX,
    v69_eq x0 x2 x3 x5 x6 x7 x8 x9 x10 n j _ hX, v72_eq]
  rfl

end

end Cert.EdgeNode.RefSpec

end
-- ==== Proof.Bridge.lean ====
/-
  The two programs compute the same two arrays at the exact-arithmetic instance.

  The kernel program's results are read off its run: every buffer's final contents are a fold of @main's items from the
  launch memory. The first result is the node kernel's output array, the specification's node matrix of the node features
  and the summed messages; the summed messages are the scatter-add of the edge kernel's message array, the specification's
  message matrix of the gathered rows, the edge attributes, the three slices of the first weight matrix and the biases —
  and the reference's own stages are the same matrices of the same arrays. The second result is the node vectors plus the
  stack of three planar scatter-adds, which is the reference's one spatial scatter-add of the gates times the unit vectors.
  No finiteness of the inputs is used: every step is an identity of sums and products on the extended reals.
-/
import proofs.«179612_j65618510349072_2_alg».proof.Defs
import proofs.«179612_j65618510349072_2_alg».proof.Proof.KIValue
import proofs.«179612_j65618510349072_2_alg».proof.Proof.KIBlocks
import proofs.«179612_j65618510349072_2_alg».proof.Proof.KIHost
import proofs.«179612_j65618510349072_2_alg».proof.Proof.KIVec
import proofs.«179612_j65618510349072_2_alg».proof.Proof.RefSpec
import proofs.«179612_j65618510349072_2_alg».proof.Proof.Gen.KernelIdeal
import proofs.«179612_j65618510349072_2_alg».proof.Proof.Gen.ReferenceIdeal
import proofs.«179612_j65618510349072_2_alg».proof.Proof.Gen.Pre_finite_inputs

noncomputable section

namespace Cert.EdgeNode.Bridge

open Idealize.ShloMosaic Idealize.ShloMosaic.TcCoe Idealize.SL.Sem
open Cert.KernelIdeal Cert.KernelIdeal.Gen Cert.KernelIdeal.Frame
open Cert.EdgeNode

variable (m : (ℓ : Loc nD τ sig) → Buf (Elt Ideal) ℓ) (ρ : Dev nD → PrngReg) (c : Dev nD)

/-- The launch contents of a reference of the kernel program on core `c`. -/
abbrev a (r : Ref sig .tc) : Buf (Elt Ideal) ((c.tc : Thread nD τ).loc r) := m ((c.tc : Thread nD τ).loc r)

/-- The summed messages the node kernel reads are the reference's: the same scatter-add, onto zeros and at the same raw row
    indices, of the same message array — the edge kernel's output is the specification's message matrix of its region
    inputs, those inputs are the reference's gathered rows, attribute rows, weight slices and biases, and the
    reference's own message stage is that matrix too. -/
theorem summed_messages : W3 m ρ c (Proc.devRef .tc main_v30)
    = Cert.ReferenceIdeal.Read.val_main_v40 (F := Ideal) (a m c main_arg0) (a m c main_arg2) (a m c main_arg3) (a m c main_arg5)
        (a m c main_arg6) (a m c main_arg7) (a m c main_arg8) := by
  rw [KIValue.v30_read, KIValue.v1_kept, KIValue.v27_0_blocks, KIBlocks.msgs_final (V1 m ρ) c]
  simp only [V1, KIHost.v11_eq m ρ c, KIHost.v18_eq m ρ c, KIHost.arg3_eq m ρ c, KIHost.v20_eq m ρ c, KIHost.v22_eq m ρ c,
    KIHost.v24_eq m ρ c, KIHost.arg6_eq m ρ c, KIHost.v25_eq m ρ c, KIHost.arg8_eq m ρ c, KIHost.v1_eq m ρ c]
  rw [← RefSpec.edgeMsg]
  unfold Cert.ReferenceIdeal.Read.val_main_v40 Cert.ReferenceIdeal.Read.val_main_v38 Cert.ReferenceIdeal.Read.val_main_v39
    Cert.ReferenceIdeal.Read.val_main_cst
  rfl

/-- THE FIRST RESULT of the kernel program is the reference's, as a term of the kernel program's own arguments: the node
    kernel's output array is the specification's node matrix of its region inputs, which are the node features, the summed
    messages, and four arguments. -/
theorem first_result : W5 m ρ c (Proc.devRef .tc main_v54)
    = Cert.ReferenceIdeal.Read.val_main_v73 (F := Ideal) (a m c main_arg0) (a m c main_arg2) (a m c main_arg3) (a m c main_arg5) (a m c main_arg6)
        (a m c main_arg7) (a m c main_arg8) (a m c main_arg9) (a m c main_arg10) (a m c main_arg13) (a m c main_arg14) := by
  rw [RefSpec.nodeUpd, KIValue.v54_blocks, KIBlocks.nodes_final (V3 m ρ) c]
  simp only [V3, KIValue.arg0_at3 m ρ c, summed_messages m ρ c, KIValue.v53_read m ρ c, KIValue.arg10_at3 m ρ c,
    KIValue.arg13_at3 m ρ c, KIValue.arg14_at3 m ρ c]

/-- THE SECOND RESULT of the kernel program is the reference's: the node vectors plus the scatter-add of the edges' vector
    messages. The kernel program stacks three planar scatter-adds of the gates scaled by one component of the unit vectors;
    that stack is the one spatial scatter-add of the gates times the unit vectors; the gates are the edge kernel's second
    output, the specification's gate matrix of the same region inputs, which is the reference's gate stage. -/
theorem second_result : W5 m ρ c (Proc.devRef .tc main_v55)
    = Cert.ReferenceIdeal.Read.val_main_v74 (F := Ideal) (a m c main_arg0) (a m c main_arg1) (a m c main_arg2) (a m c main_arg3) (a m c main_arg4)
        (a m c main_arg5) (a m c main_arg6) (a m c main_arg7) (a m c main_arg8) (a m c main_arg11) (a m c main_arg12) := by
  rw [KIVec.W5_v55_eq m ρ c]
  simp only [KIVec.vgK]
  rw [KIValue.v27_1_blocks, KIBlocks.vgs_final (V1 m ρ) c]
  simp only [V1, KIHost.v11_eq m ρ c, KIHost.v18_eq m ρ c, KIHost.arg3_eq m ρ c, KIHost.v20_eq m ρ c, KIHost.v22_eq m ρ c,
    KIHost.v24_eq m ρ c, KIHost.arg6_eq m ρ c, KIHost.v25_eq m ρ c, KIHost.arg8_eq m ρ c, KIHost.v26_eq m ρ c, KIHost.arg12_eq m ρ c,
    KIHost.v1_eq m ρ c]
  rw [← RefSpec.vecGate]
  unfold Cert.ReferenceIdeal.Read.val_main_v74 Cert.ReferenceIdeal.Read.val_main_v43 Cert.ReferenceIdeal.Read.val_main_v41
    Cert.ReferenceIdeal.Read.val_main_v42 Cert.ReferenceIdeal.Read.val_main_v37 Cert.ReferenceIdeal.Read.val_main_v35
    Cert.ReferenceIdeal.Read.val_main_v36 Cert.ReferenceIdeal.Read.val_main_v33 Cert.ReferenceIdeal.Read.val_main_v34
    Cert.ReferenceIdeal.Read.val_main_cst_3
  rfl

/-- At the exact-arithmetic instance, from memories agreeing on the arguments, both programs run, end with the same two
    result arrays, and keep their arguments. -/
theorem algebraic : Cert.algebraic_KernelIdeal_ReferenceIdeal := by
  intro m ρ m' ρ' _ hagree
  refine ⟨fun c => W5 m ρ c (Proc.devRef .tc main_v54), fun c => W5 m ρ c (Proc.devRef .tc main_v55), ?_, ?_⟩
  · exact (θ_run Cert.KernelIdeal.defs _ _).mono (fun r h c => ⟨h c main_v54 (by decide), h c main_v55 (by decide),
      (h c main_arg0 (by decide)).trans (W5_main_arg0 m ρ c), (h c main_arg1 (by decide)).trans (W5_main_arg1 m ρ c),
      (h c main_arg2 (by decide)).trans (W5_main_arg2 m ρ c), (h c main_arg3 (by decide)).trans (W5_main_arg3 m ρ c),
      (h c main_arg4 (by decide)).trans (W5_main_arg4 m ρ c), (h c main_arg5 (by decide)).trans (W5_main_arg5 m ρ c),
      (h c main_arg6 (by decide)).trans (W5_main_arg6 m ρ c), (h c main_arg7 (by decide)).trans (W5_main_arg7 m ρ c),
      (h c main_arg8 (by decide)).trans (W5_main_arg8 m ρ c), (h c main_arg9 (by decide)).trans (W5_main_arg9 m ρ c),
      (h c main_arg10 (by decide)).trans (W5_main_arg10 m ρ c), (h c main_arg11 (by decide)).trans (W5_main_arg11 m ρ c),
      (h c main_arg12 (by decide)).trans (W5_main_arg12 m ρ c), (h c main_arg13 (by decide)).trans (W5_main_arg13 m ρ c),
      (h c main_arg14 (by decide)).trans (W5_main_arg14 m ρ c)⟩) (run_all m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14⟩ := hagree c
    refine ⟨(h c).1.trans ?_, (h c).2.1.trans ?_, (h c).2.2⟩
    · rw [Cert.ReferenceIdeal.Read.val_main_v73_eq, h0, h2, h3, h5, h6, h7, h8, h9, h10, h13, h14]
      exact (first_result m ρ c).symm
    · rw [Cert.ReferenceIdeal.Read.val_main_v74_eq, h0, h1, h2, h3, h4, h5, h6, h7, h8, h11, h12]
      exact (second_result m ρ c).symm

end Cert.EdgeNode.Bridge

end
-- ==== Proof.lean ====
/-
  The five claims about one message-passing layer, its Pallas implementation against its plain reference.

  The three programs run to the end, fault nowhere and leave their argument arrays unchanged: for the two kernel programs
  this is the run of @main's five items (two host stretches, two kernel regions, a last addition), each buffer's contents
  followed through them; for the reference it is its host operations' run with the results dropped. The idealization
  rewrote no operation of the kernel, so nothing is to be preserved. At the exact-arithmetic instance the two programs
  compute the same two arrays: edge messages through a two-layer perceptron (the kernel's three partial products are the
  reference's one product with the concatenated input), their scatter-add onto the nodes (the kernel's three stacked
  planar scatters are the reference's one spatial scatter), and the residual update with layer normalisation, row by row.
-/
import proofs.«179612_j65618510349072_2_alg».proof.Defs
import proofs.«179612_j65618510349072_2_alg».proof.Proof.Gen.Kernel
import proofs.«179612_j65618510349072_2_alg».proof.Proof.Gen.KernelIdeal
import proofs.«179612_j65618510349072_2_alg».proof.Proof.Gen.ReferenceIdeal
import proofs.«179612_j65618510349072_2_alg».proof.Proof.Gen.Pre_finite_inputs
import proofs.«179612_j65618510349072_2_alg».proof.Proof.KFrame
import proofs.«179612_j65618510349072_2_alg».proof.Proof.KIFrame
import proofs.«179612_j65618510349072_2_alg».proof.Proof.RefRun
import proofs.«179612_j65618510349072_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Frame.frame m ρ
/-- The idealized kernel program runs and keeps its arguments. -/
theorem frame_ki : Cert.frame_KernelIdeal := fun m ρ _ => Cert.KernelIdeal.Frame.frame m ρ
/-- The reference runs and keeps its arguments: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)
/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.EdgeNode.Bridge.algebraic⟩

end Cert.Proof

end
